-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg12 : FVec F S64x4 .f32) (main_arg13 : FVec F S4 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x4 .f32 := Host.absf main_arg12
  let main_cst_20 : FVec F S_ .f32 := constant S_ .f32 0x7F800000#32
  let main_v55 : FVec F S64x4 .f32 := broadcastInDim S64x4 ![] bcast_S_S64x4 main_cst_20
  let main_v56 : IVec S64x4 1 := cmpf .olt main_v54 main_v55
  let main_c_21 : IVec S_ 1 := constantI S_ 1 1#1
  let main_v57 : IVec S_ 1 := (fun x v => Host.reduce IntOp.andi x v reducesTo_S64x4_S_d0_1 h_S_) main_v56 main_c_21
  let main_v58 : IVec S_ 1 := andi main_v53 main_v57
  let main_v59 : FVec F S4 .f32 := Host.absf main_arg13
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  main_v63

def fn_part2 {F : FTy → Type} [FloatOps F] (main_arg8 : FVec F S64x64 .f32) (main_arg9 : FVec F S64 .f32) (main_arg10 : FVec F S64x64 .f32) (main_arg11 : FVec F S64 .f32) (main_arg12 : FVec F S64x4 .f32) (main_arg13 : FVec F S4 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x4 .f32) (main_arg13 : FVec F S4 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x4 .f32) (main_arg13 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S100000x1 : Shape := ⟨2, ![100000, 1]⟩
abbrev S1700000x64 : Shape := ⟨2, ![1700000, 64]⟩
abbrev S1x64 : Shape := ⟨2, ![1, 64]⟩
abbrev S100000x4 : Shape := ⟨2, ![100000, 4]⟩
abbrev S10000x4 : Shape := ⟨2, ![10000, 4]⟩
abbrev S1700000x4 : Shape := ⟨2, ![1700000, 4]⟩
abbrev S1x4 : Shape := ⟨2, ![1, 4]⟩

abbrev nBuf : Space → Nat
  | .hbm => 163
  | .vmem => 35
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x4, .f32⟩
  | 13 => ⟨S4, .f32⟩
  | 14 => ⟨S100000, .i32⟩
  | 15 => ⟨S1x1600000, .i32⟩
  | 16 => ⟨S1600000, .i32⟩
  | 17 => ⟨S1700000, .i32⟩
  | 18 => ⟨S1x1600000, .i32⟩
  | 19 => ⟨S1600000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S100000x64, .f32⟩
  | 36 => ⟨S100000x1, .f32⟩
  | 37 => ⟨S100000x64, .f32⟩
  | 38 => ⟨S100000x64, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000x64, .f32⟩
  | 48 => ⟨S_, .f32⟩
  | 49 => ⟨S100000x64, .f32⟩
  | 50 => ⟨S1700000x1, .i32⟩
  | 51 => ⟨S100000x64, .f32⟩
  | 52 => ⟨S100000x1, .f32⟩
  | 53 => ⟨S100000x64, .f32⟩
  | 54 => ⟨S100000x64, .f32⟩
  | 55 => ⟨S1x64, .f32⟩
  | 56 => ⟨S100000x64, .f32⟩
  | 57 => ⟨S100000x1, .f32⟩
  | 58 => ⟨S100000x64, .f32⟩
  | 59 => ⟨S100000x64, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x64, .f32⟩
  | 69 => ⟨S_, .f32⟩
  | 70 => ⟨S100000x64, .f32⟩
  | 71 => ⟨S1700000x1, .i32⟩
  | 72 => ⟨S100000x64, .f32⟩
  | 73 => ⟨S100000x1, .f32⟩
  | 74 => ⟨S100000x64, .f32⟩
  | 75 => ⟨S100000x64, .f32⟩
  | 76 => ⟨S1x64, .f32⟩
  | 77 => ⟨S100000x64, .f32⟩
  | 78 => ⟨S100000x1, .f32⟩
  | 79 => ⟨S100000x64, .f32⟩
  | 80 => ⟨S100000x64, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000x64, .f32⟩
  | 90 => ⟨S_, .f32⟩
  | 91 => ⟨S100000x64, .f32⟩
  | 92 => ⟨S1700000x1, .i32⟩
  | 93 => ⟨S100000x64, .f32⟩
  | 94 => ⟨S100000x1, .f32⟩
  | 95 => ⟨S100000x64, .f32⟩
  | 96 => ⟨S100000x64, .f32⟩
  | 97 => ⟨S1x64, .f32⟩
  | 98 => ⟨S100000x64, .f32⟩
  | 99 => ⟨S100000x1, .f32⟩
  | 100 => ⟨S100000x64, .f32⟩
  | 101 => ⟨S100000x64, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x64, .f32⟩
  | 111 => ⟨S_, .f32⟩
  | 112 => ⟨S100000x64, .f32⟩
  | 113 => ⟨S1700000x1, .i32⟩
  | 114 => ⟨S100000x64, .f32⟩
  | 115 => ⟨S100000x1, .f32⟩
  | 116 => ⟨S100000x64, .f32⟩
  | 117 => ⟨S100000x64, .f32⟩
  | 118 => ⟨S1x64, .f32⟩
  | 119 => ⟨S100000x64, .f32⟩
  | 120 => ⟨S100000x1, .f32⟩
  | 121 => ⟨S100000x64, .f32⟩
  | 122 => ⟨S100000x64, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x128, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x64, .f32⟩
  | 4 => ⟨S_, .f32⟩
  | 5 => ⟨S100000x64, .f32⟩
  | 6 => ⟨S1700000x1, .i32⟩
  | 7 => ⟨S100000x64, .f32⟩
  | 8 => ⟨S100000x1, .f32⟩
  | 9 => ⟨S100000x64, .f32⟩
  | 10 => ⟨S100000x64, .f32⟩
  | 11 => ⟨S1x64, .f32⟩
  | 12 => ⟨S100000x4, .f32⟩
  | 13 => ⟨S100000x1, .f32⟩
  | 14 => ⟨S100000x4, .f32⟩
  | 15 => ⟨S100000x4, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S1700000x4, .f32⟩
  | 25 => ⟨S_, .f32⟩
  | 26 => ⟨S100000x4, .f32⟩
  | 27 => ⟨S1700000x1, .i32⟩
  | 28 => ⟨S100000x4, .f32⟩
  | 29 => ⟨S100000x1, .f32⟩
  | 30 => ⟨S100000x4, .f32⟩
  | 31 => ⟨S100000x4, .f32⟩
  | 32 => ⟨S1x4, .f32⟩
  | 33 => ⟨S100000x4, .f32⟩
  | 34 => ⟨S100000x4, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S64x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S1x64, .f32⟩
  | .local _ .vmem, ⟨26, _⟩ => ⟨S64x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S1x64, .f32⟩
  | .local _ .vmem, ⟨32, _⟩ => ⟨S64x4, .f32⟩
  | .local _ .vmem, ⟨33, _⟩ => ⟨S10000x4, .f32⟩
  | .local _ .vmem, ⟨34, _⟩ => ⟨S10000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_c_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_8 : Ref sig .tc := ⟨.hbm, 81, rfl⟩
abbrev main_v55 : Ref sig .tc := ⟨.hbm, 82, rfl⟩
abbrev main_v56 : Ref sig .tc := ⟨.hbm, 83, rfl⟩
abbrev main_c_9 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_10 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_11 : Ref sig .tc := ⟨.hbm, 102, rfl⟩
abbrev main_v73 : Ref sig .tc := ⟨.hbm, 103, rfl⟩
abbrev main_v74 : Ref sig .tc := ⟨.hbm, 104, rfl⟩
abbrev main_c_12 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_13 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_14 : Ref sig .tc := ⟨.hbm, 123, rfl⟩
abbrev main_v91 : Ref sig .tc := ⟨.hbm, 124, rfl⟩
abbrev main_v92 : Ref sig .tc := ⟨.hbm, 125, rfl⟩
abbrev main_c_15 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_16 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_17 : Ref sig .tc := ⟨.hbm, 144, rfl⟩
abbrev main_v109 : Ref sig .tc := ⟨.hbm, 145, rfl⟩
abbrev main_v110 : Ref sig .tc := ⟨.hbm, 146, rfl⟩
abbrev main_c_18 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_19 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg3_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem3_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64x4 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x4 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x4_S64x4_0_0 : ∀ a, (![0, 0] : Fin 2 → Nat) a + S64x4.size a ≤ S64x4.size a
  h_S64x4 : 0 < S64x4.numel
  inb_S10000x4_S10000x4_0_0 : ∀ a, (![0, 0] : Fin 2 → Nat) a + S10000x4.size a ≤ S10000x4.size a
  h_S10000x4 : 0 < S10000x4.numel
  bcast_S100000x1_S100000x4_0_1 : S100000x1.BroadcastsInDim S100000x4 (![0, 1] : Fin 2 → Fin S100000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  scatter_S100000_S1700000x1_S1700000_n_0_0_1_wf : ScatterDims.WF S100000 S1700000x1 S1700000 [] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x4_S10000x4_1_0_0_1_n_n_wf : DotDims.WF S10000x64 S64x4 S10000x4 [1] [0] [0] [1] [] []
  gather_S100000x4_S1700000x1_S1700000x4_1_0_n_n_0_1_14_wf : GatherDims.WF S100000x4 S1700000x1 S1700000x4 [1] [0] [] [0] [] 1 ![1, 4]
  scatter_S100000x4_S1700000x1_S1700000x4_1_0_0_1_wf : ScatterDims.WF S100000x4 S1700000x1 S1700000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x4.size a ≤ S64x4.size a
  hwx5_2 : ∀ i : grid5.Coords, EltTy.bits .f32 = 32 ∨ (Rect.block (s := S64x4) S64x4.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x4.size a ≤ S100000x4.size a
  hwx5_3 : ∀ i : grid5.Coords, EltTy.bits .f32 = 32 ∨ (Rect.block (s := S100000x4) S10000x4.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x4_S10000x4_1_0_0_1_n_n : DotDims S10000x64 S64x4 S10000x4 where
  lhsContracting := [1]
  rhsContracting := [0]
  lhsNonContracting := [0]
  rhsNonContracting := [1]
  lhsBatch := []
  rhsBatch := []
  wf := dot_S10000x64_S64x4_S10000x4_1_0_0_1_n_n_wf
def gather_S100000x4_S1700000x1_S1700000x4_1_0_n_n_0_1_14 : GatherDims S100000x4 S1700000x1 S1700000x4 where
  offsetDims := [1]
  collapsedSliceDims := [0]
  operandBatchingDims := []
  startIndicesBatchingDims := []
  startIndexMap := [0]
  indexVectorDim := 1
  sliceSizes := ![1, 4]
  wf := gather_S100000x4_S1700000x1_S1700000x4_1_0_n_n_0_1_14_wf
def scatter_S100000x4_S1700000x1_S1700000x4_1_0_0_1 : ScatterDims S100000x4 S1700000x1 S1700000x4 where
  updateWindowDims := [1]
  insertedWindowDims := [0]
  scatterDimsToOperandDims := [0]
  indexVectorDim := 1
  wf := scatter_S100000x4_S1700000x1_S1700000x4_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v67) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v85) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v87) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v103) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v104) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S64x4.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v105) S10000x4.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x4 : Shape := ⟨2, ![100000, 4]⟩
abbrev S1700000x4 : Shape := ⟨2, ![1700000, 4]⟩
abbrev S1x4 : Shape := ⟨2, ![1, 4]⟩

abbrev nBuf : Space → Nat
  | .hbm => 209
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x4, .f32⟩
  | 13 => ⟨S4, .f32⟩
  | 14 => ⟨S100000, .i32⟩
  | 15 => ⟨S1x1600000, .i32⟩
  | 16 => ⟨S1600000, .i32⟩
  | 17 => ⟨S1700000, .i32⟩
  | 18 => ⟨S1x1600000, .i32⟩
  | 19 => ⟨S1600000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x64, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x1, .f32⟩
  | 65 => ⟨S1700000x64, .f32⟩
  | 66 => ⟨S1700000x64, .f32⟩
  | 67 => ⟨S_, .f32⟩
  | 68 => ⟨S100000x64, .f32⟩
  | 69 => ⟨S1700000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .i1⟩
  | 77 => ⟨S_, .f32⟩
  | 78 => ⟨S100000x64, .f32⟩
  | 79 => ⟨S100000x64, .f32⟩
  | 80 => ⟨S100000x64, .f32⟩
  | 81 => ⟨S100000x64, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000x64, .f32⟩
  | 91 => ⟨S1700000x1, .f32⟩
  | 92 => ⟨S1700000x64, .f32⟩
  | 93 => ⟨S1700000x64, .f32⟩
  | 94 => ⟨S_, .f32⟩
  | 95 => ⟨S100000x64, .f32⟩
  | 96 => ⟨S1700000x1, .i32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .i1⟩
  | 104 => ⟨S_, .f32⟩
  | 105 => ⟨S100000x64, .f32⟩
  | 106 => ⟨S100000x64, .f32⟩
  | 107 => ⟨S100000x64, .f32⟩
  | 108 => ⟨S100000x64, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x64, .f32⟩
  | 118 => ⟨S1700000x1, .f32⟩
  | 119 => ⟨S1700000x64, .f32⟩
  | 120 => ⟨S1700000x64, .f32⟩
  | 121 => ⟨S_, .f32⟩
  | 122 => ⟨S100000x64, .f32⟩
  | 123 => ⟨S1700000x1, .i32⟩
  | 124 => ⟨S100000x64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S_, .f32⟩
  | 1 => ⟨S100000x64, .f32⟩
  | 2 => ⟨S100000x64, .i1⟩
  | 3 => ⟨S_, .f32⟩
  | 4 => ⟨S100000x64, .f32⟩
  | 5 => ⟨S100000x64, .f32⟩
  | 6 => ⟨S100000x64, .f32⟩
  | 7 => ⟨S100000x64, .f32⟩
  | 8 => ⟨S_, .i32⟩
  | 9 => ⟨S1700000, .i32⟩
  | 10 => ⟨S1700000, .i1⟩
  | 11 => ⟨S_, .i32⟩
  | 12 => ⟨S1700000, .i32⟩
  | 13 => ⟨S1700000, .i32⟩
  | 14 => ⟨S1700000, .i32⟩
  | 15 => ⟨S1700000x1, .i32⟩
  | 16 => ⟨S1700000x64, .f32⟩
  | 17 => ⟨S1700000x1, .f32⟩
  | 18 => ⟨S1700000x64, .f32⟩
  | 19 => ⟨S1700000x64, .f32⟩
  | 20 => ⟨S_, .f32⟩
  | 21 => ⟨S100000x64, .f32⟩
  | 22 => ⟨S1700000x1, .i32⟩
  | 23 => ⟨S100000x64, .f32⟩
  | 24 => ⟨S1x64, .f32⟩
  | 25 => ⟨S100000x64, .f32⟩
  | 26 => ⟨S100000x64, .f32⟩
  | 27 => ⟨S_, .f32⟩
  | 28 => ⟨S100000x64, .f32⟩
  | 29 => ⟨S100000x64, .i1⟩
  | 30 => ⟨S_, .f32⟩
  | 31 => ⟨S100000x64, .f32⟩
  | 32 => ⟨S100000x64, .f32⟩
  | 33 => ⟨S100000x64, .f32⟩
  | 34 => ⟨S100000x64, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000x64, .f32⟩
  | 44 => ⟨S1700000x1, .f32⟩
  | 45 => ⟨S1700000x64, .f32⟩
  | 46 => ⟨S1700000x64, .f32⟩
  | 47 => ⟨S_, .f32⟩
  | 48 => ⟨S100000x64, .f32⟩
  | 49 => ⟨S1700000x1, .i32⟩
  | 50 => ⟨S100000x64, .f32⟩
  | 51 => ⟨S1x64, .f32⟩
  | 52 => ⟨S100000x64, .f32⟩
  | 53 => ⟨S100000x64, .f32⟩
  | 54 => ⟨S_, .f32⟩
  | 55 => ⟨S100000x64, .f32⟩
  | 56 => ⟨S100000x64, .i1⟩
  | 57 => ⟨S_, .f32⟩
  | 58 => ⟨S100000x64, .f32⟩
  | 59 => ⟨S100000x64, .f32⟩
  | 60 => ⟨S100000x64, .f32⟩
  | 61 => ⟨S100000x4, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x4, .f32⟩
  | 71 => ⟨S1700000x1, .f32⟩
  | 72 => ⟨S1700000x4, .f32⟩
  | 73 => ⟨S1700000x4, .f32⟩
  | 74 => ⟨S_, .f32⟩
  | 75 => ⟨S100000x4, .f32⟩
  | 76 => ⟨S1700000x1, .i32⟩
  | 77 => ⟨S100000x4, .f32⟩
  | 78 => ⟨S1x4, .f32⟩
  | 79 => ⟨S100000x4, .f32⟩
  | 80 => ⟨S100000x4, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_c_12 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_14 : Ref sig .tc := ⟨.hbm, 101, rfl⟩
abbrev main_v69 : Ref sig .tc := ⟨.hbm, 102, rfl⟩
abbrev main_v70 : Ref sig .tc := ⟨.hbm, 103, rfl⟩
abbrev main_cst_15 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_16 : Ref sig .tc := ⟨.hbm, 109, rfl⟩
abbrev main_v75 : Ref sig .tc := ⟨.hbm, 110, rfl⟩
abbrev main_v76 : Ref sig .tc := ⟨.hbm, 111, rfl⟩
abbrev main_c_17 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_18 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_19 : Ref sig .tc := ⟨.hbm, 128, rfl⟩
abbrev main_v91 : Ref sig .tc := ⟨.hbm, 129, rfl⟩
abbrev main_v92 : Ref sig .tc := ⟨.hbm, 130, rfl⟩
abbrev main_cst_20 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_c_21 : Ref sig .tc := ⟨.hbm, 136, rfl⟩
abbrev main_v97 : Ref sig .tc := ⟨.hbm, 137, rfl⟩
abbrev main_v98 : Ref sig .tc := ⟨.hbm, 138, rfl⟩
abbrev main_c_22 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_23 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_24 : Ref sig .tc := ⟨.hbm, 155, rfl⟩
abbrev main_v113 : Ref sig .tc := ⟨.hbm, 156, rfl⟩
abbrev main_v114 : Ref sig .tc := ⟨.hbm, 157, rfl⟩
abbrev main_cst_25 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_c_26 : Ref sig .tc := ⟨.hbm, 163, rfl⟩
abbrev main_v119 : Ref sig .tc := ⟨.hbm, 164, rfl⟩
abbrev main_v120 : Ref sig .tc := ⟨.hbm, 165, rfl⟩
abbrev main_c_27 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_28 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_29 : Ref sig .tc := ⟨.hbm, 182, rfl⟩
abbrev main_v135 : Ref sig .tc := ⟨.hbm, 183, rfl⟩
abbrev main_v136 : Ref sig .tc := ⟨.hbm, 184, rfl⟩
abbrev main_cst_30 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_c_31 : Ref sig .tc := ⟨.hbm, 190, rfl⟩
abbrev main_v141 : Ref sig .tc := ⟨.hbm, 191, rfl⟩
abbrev main_v142 : Ref sig .tc := ⟨.hbm, 192, rfl⟩
abbrev main_c_32 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_cst_33 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x4_0_1 : S1700000x1.BroadcastsInDim S1700000x4 (![0, 1] : Fin 2 → Fin S1700000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x4_S100000x4_1_0_0_1_n_n_wf : DotDims.WF S100000x64 S64x4 S100000x4 [1] [0] [0] [1] [] []
  gather_S100000x4_S1700000x1_S1700000x4_1_0_n_n_0_1_14_wf : GatherDims.WF S100000x4 S1700000x1 S1700000x4 [1] [0] [] [0] [] 1 ![1, 4]
  scatter_S100000x4_S1700000x1_S1700000x4_1_0_0_1_wf : ScatterDims.WF S100000x4 S1700000x1 S1700000x4 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf
def gather_S100000x4_S1700000x1_S1700000x4_1_0_n_n_0_1_14 : GatherDims S100000x4 S1700000x1 S1700000x4 where
  offsetDims := [1]
  collapsedSliceDims := [0]
  operandBatchingDims := []
  startIndicesBatchingDims := []
  startIndexMap := [0]
  indexVectorDim := 1
  sliceSizes := ![1, 4]
  wf := gather_S100000x4_S1700000x1_S1700000x4_1_0_n_n_0_1_14_wf
def scatter_S100000x4_S1700000x1_S1700000x4_1_0_0_1 : ScatterDims S100000x4 S1700000x1 S1700000x4 where
  updateWindowDims := [1]
  insertedWindowDims := [0]
  scatterDimsToOperandDims := [0]
  indexVectorDim := 1
  wf := scatter_S100000x4_S1700000x1_S1700000x4_1_0_0_1_wf

class Facts : Prop extends Facts₀ where

variable [Facts]
-- ==== Proof.KRun.lean ====
/-
  The kernel program's run with its result named.

  The program is six pipelined regions among seven stretches of host operations. Its frame certificate follows the
  buffer contents from the launch through every stretch and every region to the last boundary, and reads the argument
  arrays there. Read at the result buffer instead, the same run says: every weakly fair execution terminates, nothing
  faulting, with the result array at the last boundary's contents and the arguments as launched.
-/
import proofs.«171207_j26164940767513_2_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result array ends at the last
    boundary's contents and every argument array as launched. -/
theorem run_main : θ_run defs (onTc (τ := τ) (main (F := F))) ⟨m, fun _ => 0, ρ⟩ (fun r => ∀ c : Dev nD,
      r.2.mem ((c.tc : Thread nD τ).loc main_v124) = W14 m ρ c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v124 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c)⟩)

end Cert.KRun

end
-- ==== Proof.Spec.lean ====
/-
  The dense layers of the network, as functions of whole arrays read index by index.

  A node array  X : [100000, K]  meets a weight  W : [K, C]  row by row: entry (r, e) of the product is the sum over k of
  X[r, k] · W[k, e]. From the second layer on the row is first shifted by a bias row and passed through the leaky
  rectifier  x ↦ x  where  0 ≤ x,  slope · x  elsewhere, with slope the single-precision word nearest 0.2. Both programs
  print zero and the slope as the same words, so neither is ever evaluated here.
-/
import Idealize.ShloMosaic.Lib.ValueIdx
import Idealize.ShloMosaic.PureOps.Ideal
import Idealize.ShloMosaic.PureOps.Ideal.Laws

noncomputable section

namespace Cert.Spec

open Idealize.ShloMosaic Idealize.ShloMosaic.ValueIdx
open scoped BigOperators

/-- Zero, as the word both programs print. -/
abbrev zeroW : EReal := Ideal.ofBits .f32 0x00000000#32
/-- The rectifier's slope on the negative side, as the word both programs print (single precision's 0.2). -/
abbrev slopeW : EReal := Ideal.ofBits .f32 0x3E4CCCCD#32

/-- The leaky rectifier on the extended reals: x where 0 ≤ x, slope · x elsewhere. -/
def leaky (x : EReal) : EReal := Scalar.select (Ideal.cmp .oge x zeroW) x (slopeW * x)

/-- First layer, entry (r, e): the row r of X against the column e of W. -/
def dense0At (X : (⟨2, ![100000, 128]⟩ : Shape).Idx → EReal) (W : (⟨2, ![128, 64]⟩ : Shape).Idx → EReal)
    (r : Fin 100000) (e : Fin 64) : EReal :=
  ∑ k : Fin 128, X (ix2 r k) * W (ix2 k e)

/-- First layer as a whole array. -/
def dense0 (X : (⟨2, ![100000, 128]⟩ : Shape).Idx → EReal) (W : (⟨2, ![128, 64]⟩ : Shape).Idx → EReal) :
    (⟨2, ![100000, 64]⟩ : Shape).Idx → EReal :=
  fun i => dense0At X W ⟨(i 0).val, (i 0).isLt⟩ ⟨(i 1).val, (i 1).isLt⟩

theorem dense0_ix2 (X : (⟨2, ![100000, 128]⟩ : Shape).Idx → EReal) (W : (⟨2, ![128, 64]⟩ : Shape).Idx → EReal)
    (r : Fin 100000) (e : Fin 64) : dense0 X W (ix2 r e) = dense0At X W r e := rfl

/-- A later layer of width C, entry (r, e): the row r of A, shifted by the bias row and rectified, against the
    column e of W. -/
def denseActAt (C : ℕ) (A : (⟨2, ![100000, 64]⟩ : Shape).Idx → EReal) (b : (⟨2, ![1, 64]⟩ : Shape).Idx → EReal)
    (W : (⟨2, ![64, C]⟩ : Shape).Idx → EReal) (r : Fin 100000) (e : Fin C) : EReal :=
  ∑ k : Fin 64, leaky (A (ix2 r k) + b (ix2 (0 : Fin 1) k)) * W (ix2 k e)

/-- A later layer as a whole array. -/
def denseAct (C : ℕ) (A : (⟨2, ![100000, 64]⟩ : Shape).Idx → EReal) (b : (⟨2, ![1, 64]⟩ : Shape).Idx → EReal)
    (W : (⟨2, ![64, C]⟩ : Shape).Idx → EReal) : (⟨2, ![100000, C]⟩ : Shape).Idx → EReal :=
  fun i => denseActAt C A b W ⟨(i 0).val, (i 0).isLt⟩ ⟨(i 1).val, (i 1).isLt⟩

theorem denseAct_ix2 (C : ℕ) (A : (⟨2, ![100000, 64]⟩ : Shape).Idx → EReal) (b : (⟨2, ![1, 64]⟩ : Shape).Idx → EReal)
    (W : (⟨2, ![64, C]⟩ : Shape).Idx → EReal) (r : Fin 100000) (e : Fin C) :
    denseAct C A b W (ix2 r e) = denseActAt C A b W r e := rfl

end Cert.Spec

end
-- ==== Proof.KNet.lean ====
/-
  The host side of the kernel program, stretch by stretch.

  Between two dense regions the program aggregates over the graph: with  dinv  the per-node factor, every row of the
  previous region's output is scaled by its node's factor, the scaled rows travel along the edges (a row gather through
  the source column, a negative node number wrapped once by the number of nodes), the rows that arrive at a node are
  added up from zero (an accumulating row scatter through the target column), and each sum is scaled by its node's
  factor again. The source column, the target column and the factor are left as variables here: the stretches only
  read them. Each stretch is read back as this one function of the buffers it finds, and every buffer a stretch does
  not write keeps its contents.
-/
import proofs.«171207_j26164940767513_2_alg».proof.Proof.Gen.KernelIdeal.Launch
import Idealize.ShloMosaic.Lib.StableHlo.Run
import Idealize.ShloMosaic.PureOps.Ideal
import proofs.«171207_j26164940767513_2_alg».proof.Proof.Spec

noncomputable section

namespace Cert.KNet

open Cert.KernelIdeal Cert.KernelIdeal.Facts₀
open Idealize.ShloMosaic Idealize.ShloMosaic.TcCoe Idealize.SL.Sem

/-- The source column: a negative node number wrapped once by the number of nodes, one row per edge. -/
def srcCol (src : IVec S1700000 32) : IVec S1700000x1 32 :=
  broadcastInDim S1700000x1 ![0] bcast_S1700000_S1700000x1_0
    (select (cmpi .slt src (broadcastInDim S1700000 ![] bcast_S_S1700000 (constantI S_ 32 0#32)))
      (addi src (broadcastInDim S1700000 ![] bcast_S_S1700000 (constantI S_ 32 100000#32))) src)

/-- The target column, as it stands, one row per edge. -/
def dstCol (dst : IVec S1700000 32) : IVec S1700000x1 32 :=
  broadcastInDim S1700000x1 ![0] bcast_S1700000_S1700000x1_0 dst

/-- One node scaling spread over a row of width 64: entry (p, q) is the node factor of p. -/
def nodeScale64 (dinv : FVec Ideal S100000 .f32) : FVec Ideal S100000x64 .f32 :=
  broadcastInDim S100000x64 ![0, 1] bcast_S100000x1_S100000x64_0_1 (broadcastInDim S100000x1 ![0] bcast_S100000_S100000x1_0 dinv)

/-- The aggregation of a layer of width 64 as the kernel program spells it: every row scaled by its node's factor,
    the scaled rows gathered along the edges through the wrapped source column, added up from zero at each edge's
    target, and the sums scaled by their node's factor again. -/
def agg64 (H : FVec Ideal S100000x64 .f32) (src dst : IVec S1700000 32) (dinv : FVec Ideal S100000 .f32) :
    FVec Ideal S100000x64 .f32 :=
  mulf (Host.scatterAdd scatter_S100000x64_S1700000x1_S1700000x64_1_0_0_1
          (broadcastInDim S100000x64 ![] bcast_S_S100000x64 (constant (F := Ideal) S_ .f32 0x00000000#32))
          (dstCol dst)
          (Host.gather gather_S100000x64_S1700000x1_S1700000x64_1_0_n_n_0_1_164 (mulf H (nodeScale64 dinv)) (srcCol src)))
       (nodeScale64 dinv)

/-- One node scaling spread over a row of width 4: entry (p, q) is the node factor of p. -/
def nodeScale4 (dinv : FVec Ideal S100000 .f32) : FVec Ideal S100000x4 .f32 :=
  broadcastInDim S100000x4 ![0, 1] bcast_S100000x1_S100000x4_0_1 (broadcastInDim S100000x1 ![0] bcast_S100000_S100000x1_0 dinv)

/-- The aggregation of a layer of width 4 as the kernel program spells it: every row scaled by its node's factor,
    the scaled rows gathered along the edges through the wrapped source column, added up from zero at each edge's
    target, and the sums scaled by their node's factor again. -/
def agg4 (H : FVec Ideal S100000x4 .f32) (src dst : IVec S1700000 32) (dinv : FVec Ideal S100000 .f32) :
    FVec Ideal S100000x4 .f32 :=
  mulf (Host.scatterAdd scatter_S100000x4_S1700000x1_S1700000x4_1_0_0_1
          (broadcastInDim S100000x4 ![] bcast_S_S100000x4 (constant (F := Ideal) S_ .f32 0x00000000#32))
          (dstCol dst)
          (Host.gather gather_S100000x4_S1700000x1_S1700000x4_1_0_n_n_0_1_14 (mulf H (nodeScale4 dinv)) (srcCol src)))
       (nodeScale4 dinv)

/-- A bias vector as the one row the next region's window reads. -/
def biasRow (b : FVec Ideal S64 .f32) : FVec Ideal S1x64 .f32 := shapeCast S1x64 b shapeCasts_S64_S1x64

/-- The last bias spread over every row: entry (p, q) is the bias of column q. -/
def biasAll4 (b : FVec Ideal S4 .f32) : FVec Ideal S100000x4 .f32 :=
  broadcastInDim S100000x4 ![0, 1] bcast_S1x4_S100000x4_0_1 (broadcastInDim S1x4 ![1] bcast_S4_S1x4_1 b)

/-- The whole kernel program as one function of its argument arrays, with the graph's source column, target column and
    node factor as they stand after the graph preparation: a dense first layer, then five times an aggregation over
    the graph followed by a dense layer on the shifted, rectified rows, then a last aggregation and the last bias. -/
def kNet (x0 : FVec Ideal S100000x128 .f32) (src dst : IVec S1700000 32) (dinv : FVec Ideal S100000 .f32)
    (x2 : FVec Ideal S128x64 .f32) (x3 : FVec Ideal S64 .f32) (x4 : FVec Ideal S64x64 .f32) (x5 : FVec Ideal S64 .f32)
    (x6 : FVec Ideal S64x64 .f32) (x7 : FVec Ideal S64 .f32) (x8 : FVec Ideal S64x64 .f32) (x9 : FVec Ideal S64 .f32)
    (x10 : FVec Ideal S64x64 .f32) (x11 : FVec Ideal S64 .f32) (x12 : FVec Ideal S64x4 .f32) (x13 : FVec Ideal S4 .f32) :
    FVec Ideal S100000x4 .f32 :=
  let h0 : FVec Ideal S100000x64 .f32 := Cert.Spec.dense0 x0 x2
  let h1 : FVec Ideal S100000x64 .f32 := Cert.Spec.denseAct 64 (agg64 h0 src dst dinv) (biasRow x3) x4
  let h2 : FVec Ideal S100000x64 .f32 := Cert.Spec.denseAct 64 (agg64 h1 src dst dinv) (biasRow x5) x6
  let h3 : FVec Ideal S100000x64 .f32 := Cert.Spec.denseAct 64 (agg64 h2 src dst dinv) (biasRow x7) x8
  let h4 : FVec Ideal S100000x64 .f32 := Cert.Spec.denseAct 64 (agg64 h3 src dst dinv) (biasRow x9) x10
  let h5 : FVec Ideal S100000x4 .f32 := Cert.Spec.denseAct 4 (agg64 h4 src dst dinv) (biasRow x11) x12
  addf (agg4 h5 src dst dinv) (biasAll4 x13)

set_option maxHeartbeats 4000000 in
/-- Stretch 1: the aggregation of the previous region's output, and the next bias as a row. -/
theorem stretch1_agg (Vin : Valuation τ sig (Elt Ideal)) :
    StableHlo.after (Gen.hostOps1 (F := Ideal)) Vin (Proc.devRef .tc main_v31)
      = agg64 (Vin (Proc.devRef .tc main_v15)) (Vin (Proc.devRef .tc main_v3)) (Vin (Proc.devRef .tc main_v6)) (Vin (Proc.devRef .tc main_v14)) := by
  after_results_simp <;> rfl
set_option maxHeartbeats 4000000 in
theorem stretch1_bias (Vin : Valuation τ sig (Elt Ideal)) :
    StableHlo.after (Gen.hostOps1 (F := Ideal)) Vin (Proc.devRef .tc main_v32)
      = biasRow (Vin (Proc.devRef .tc main_arg3)) := by
  after_results_simp <;> rfl

set_option maxHeartbeats 4000000 in
/-- Stretch 2: the aggregation of the previous region's output, and the next bias as a row. -/
theorem stretch2_agg (Vin : Valuation τ sig (Elt Ideal)) :
    StableHlo.after (Gen.hostOps2 (F := Ideal)) Vin (Proc.devRef .tc main_v49)
      = agg64 (Vin (Proc.devRef .tc main_v33)) (Vin (Proc.devRef .tc main_v3)) (Vin (Proc.devRef .tc main_v6)) (Vin (Proc.devRef .tc main_v14)) := by
  after_results_simp <;> rfl
set_option maxHeartbeats 4000000 in
theorem stretch2_bias (Vin : Valuation τ sig (Elt Ideal)) :
    StableHlo.after (Gen.hostOps2 (F := Ideal)) Vin (Proc.devRef .tc main_v50)
      = biasRow (Vin (Proc.devRef .tc main_arg5)) := by
  after_results_simp <;> rfl

set_option maxHeartbeats 4000000 in
/-- Stretch 3: the aggregation of the previous region's output, and the next bias as a row. -/
theorem stretch3_agg (Vin : Valuation τ sig (Elt Ideal)) :
    StableHlo.after (Gen.hostOps3 (F := Ideal)) Vin (Proc.devRef .tc main_v67)
      = agg64 (Vin (Proc.devRef .tc main_v51)) (Vin (Proc.devRef .tc main_v3)) (Vin (Proc.devRef .tc main_v6)) (Vin (Proc.devRef .tc main_v14)) := by
  after_results_simp <;> rfl
set_option maxHeartbeats 4000000 in
theorem stretch3_bias (Vin : Valuation τ sig (Elt Ideal)) :
    StableHlo.after (Gen.hostOps3 (F := Ideal)) Vin (Proc.devRef .tc main_v68)
      = biasRow (Vin (Proc.devRef .tc main_arg7)) := by
  after_results_simp <;> rfl

set_option maxHeartbeats 4000000 in
/-- Stretch 4: the aggregation of the previous region's output, and the next bias as a row. -/
theorem stretch4_agg (Vin : Valuation τ sig (Elt Ideal)) :
    StableHlo.after (Gen.hostOps4 (F := Ideal)) Vin (Proc.devRef .tc main_v85)
      = agg64 (Vin (Proc.devRef .tc main_v69)) (Vin (Proc.devRef .tc main_v3)) (Vin (Proc.devRef .tc main_v6)) (Vin (Proc.devRef .tc main_v14)) := by
  after_results_simp <;> rfl
set_option maxHeartbeats 4000000 in
theorem stretch4_bias (Vin : Valuation τ sig (Elt Ideal)) :
    StableHlo.after (Gen.hostOps4 (F := Ideal)) Vin (Proc.devRef .tc main_v86)
      = biasRow (Vin (Proc.devRef .tc main_arg9)) := by
  after_results_simp <;> rfl

set_option maxHeartbeats 4000000 in
/-- Stretch 5: the aggregation of the previous region's output, and the next bias as a row. -/
theorem stretch5_agg (Vin : Valuation τ sig (Elt Ideal)) :
    StableHlo.after (Gen.hostOps5 (F := Ideal)) Vin (Proc.devRef .tc main_v103)
      = agg64 (Vin (Proc.devRef .tc main_v87)) (Vin (Proc.devRef .tc main_v3)) (Vin (Proc.devRef .tc main_v6)) (Vin (Proc.devRef .tc main_v14)) := by
  after_results_simp <;> rfl
set_option maxHeartbeats 4000000 in
theorem stretch5_bias (Vin : Valuation τ sig (Elt Ideal)) :
    StableHlo.after (Gen.hostOps5 (F := Ideal)) Vin (Proc.devRef .tc main_v104)
      = biasRow (Vin (Proc.devRef .tc main_arg11)) := by
  after_results_simp <;> rfl

set_option maxHeartbeats 4000000 in
/-- The last stretch: the aggregation of the last region's output, plus the last bias on every row. -/
theorem stretch6_out (Vin : Valuation τ sig (Elt Ideal)) :
    StableHlo.after (Gen.hostOps6 (F := Ideal)) Vin (Proc.devRef .tc main_v124)
      = addf (agg4 (Vin (Proc.devRef .tc main_v105)) (Vin (Proc.devRef .tc main_v3)) (Vin (Proc.devRef .tc main_v6)) (Vin (Proc.devRef .tc main_v14)))
          (biasAll4 (Vin (Proc.devRef .tc main_arg13))) := by
  after_results_simp <;> rfl

/-! ## What each stretch leaves alone -/

section Writes
variable {F : FTy → Type} [FloatOps F]

/-- The buffers stretch `hostOps0` writes. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (Gen.hostOps0 : List (HloOp τ sig (Elt F))).Forall fun op => op.writes ⊆ ((hostOps0_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem hostOps0_keep (V : Valuation τ sig (Elt F)) (r : Ref sig .tc) (h : r ∉ hostOps0_W) :
    StableHlo.after Gen.hostOps0 V (Proc.devRef .tc r) = V (Proc.devRef .tc r) :=
  StableHlo.after_of_writes_sub Gen.hostOps0 _ hostOps0_writes h

/-- The buffers stretch `hostOps0_1` writes. -/
abbrev hostOps0_1_W : List (Ref sig .tc) := [main_call0_v0, main_call0_v1, main_v14]
theorem hostOps0_1_writes : (Gen.hostOps0_1 : List (HloOp τ sig (Elt F))).Forall fun op => op.writes ⊆ ((hostOps0_1_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem hostOps0_1_keep (V : Valuation τ sig (Elt F)) (r : Ref sig .tc) (h : r ∉ hostOps0_1_W) :
    StableHlo.after Gen.hostOps0_1 V (Proc.devRef .tc r) = V (Proc.devRef .tc r) :=
  StableHlo.after_of_writes_sub Gen.hostOps0_1 _ hostOps0_1_writes h

/-- The buffers stretch `hostOps1` writes. -/
abbrev hostOps1_W : List (Ref sig .tc) := [main_v16, main_v17, main_v18, main_c, main_v19, main_v20, main_c_3, main_v21, main_v22, main_v23, main_v24, main_v25, main_cst_4, main_v26, main_v27, main_v28, main_v29, main_v30, main_v31, main_v32]
theorem hostOps1_writes : (Gen.hostOps1 : List (HloOp τ sig (Elt F))).Forall fun op => op.writes ⊆ ((hostOps1_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem hostOps1_keep (V : Valuation τ sig (Elt F)) (r : Ref sig .tc) (h : r ∉ hostOps1_W) :
    StableHlo.after Gen.hostOps1 V (Proc.devRef .tc r) = V (Proc.devRef .tc r) :=
  StableHlo.after_of_writes_sub Gen.hostOps1 _ hostOps1_writes h

/-- The buffers stretch `hostOps2` writes. -/
abbrev hostOps2_W : List (Ref sig .tc) := [main_v34, main_v35, main_v36, main_c_5, main_v37, main_v38, main_c_6, main_v39, main_v40, main_v41, main_v42, main_v43, main_cst_7, main_v44, main_v45, main_v46, main_v47, main_v48, main_v49, main_v50]
theorem hostOps2_writes : (Gen.hostOps2 : List (HloOp τ sig (Elt F))).Forall fun op => op.writes ⊆ ((hostOps2_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem hostOps2_keep (V : Valuation τ sig (Elt F)) (r : Ref sig .tc) (h : r ∉ hostOps2_W) :
    StableHlo.after Gen.hostOps2 V (Proc.devRef .tc r) = V (Proc.devRef .tc r) :=
  StableHlo.after_of_writes_sub Gen.hostOps2 _ hostOps2_writes h

/-- The buffers stretch `hostOps3` writes. -/
abbrev hostOps3_W : List (Ref sig .tc) := [main_v52, main_v53, main_v54, main_c_8, main_v55, main_v56, main_c_9, main_v57, main_v58, main_v59, main_v60, main_v61, main_cst_10, main_v62, main_v63, main_v64, main_v65, main_v66, main_v67, main_v68]
theorem hostOps3_writes : (Gen.hostOps3 : List (HloOp τ sig (Elt F))).Forall fun op => op.writes ⊆ ((hostOps3_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem hostOps3_keep (V : Valuation τ sig (Elt F)) (r : Ref sig .tc) (h : r ∉ hostOps3_W) :
    StableHlo.after Gen.hostOps3 V (Proc.devRef .tc r) = V (Proc.devRef .tc r) :=
  StableHlo.after_of_writes_sub Gen.hostOps3 _ hostOps3_writes h

/-- The buffers stretch `hostOps4` writes. -/
abbrev hostOps4_W : List (Ref sig .tc) := [main_v70, main_v71, main_v72, main_c_11, main_v73, main_v74, main_c_12, main_v75, main_v76, main_v77, main_v78, main_v79, main_cst_13, main_v80, main_v81, main_v82, main_v83, main_v84, main_v85, main_v86]
theorem hostOps4_writes : (Gen.hostOps4 : List (HloOp τ sig (Elt F))).Forall fun op => op.writes ⊆ ((hostOps4_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem hostOps4_keep (V : Valuation τ sig (Elt F)) (r : Ref sig .tc) (h : r ∉ hostOps4_W) :
    StableHlo.after Gen.hostOps4 V (Proc.devRef .tc r) = V (Proc.devRef .tc r) :=
  StableHlo.after_of_writes_sub Gen.hostOps4 _ hostOps4_writes h

/-- The buffers stretch `hostOps5` writes. -/
abbrev hostOps5_W : List (Ref sig .tc) := [main_v88, main_v89, main_v90, main_c_14, main_v91, main_v92, main_c_15, main_v93, main_v94, main_v95, main_v96, main_v97, main_cst_16, main_v98, main_v99, main_v100, main_v101, main_v102, main_v103, main_v104]
theorem hostOps5_writes : (Gen.hostOps5 : List (HloOp τ sig (Elt F))).Forall fun op => op.writes ⊆ ((hostOps5_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem hostOps5_keep (V : Valuation τ sig (Elt F)) (r : Ref sig .tc) (h : r ∉ hostOps5_W) :
    StableHlo.after Gen.hostOps5 V (Proc.devRef .tc r) = V (Proc.devRef .tc r) :=
  StableHlo.after_of_writes_sub Gen.hostOps5 _ hostOps5_writes h

/-- The buffers stretch `hostOps6` writes. -/
abbrev hostOps6_W : List (Ref sig .tc) := [main_v106, main_v107, main_v108, main_c_17, main_v109, main_v110, main_c_18, main_v111, main_v112, main_v113, main_v114, main_v115, main_cst_19, main_v116, main_v117, main_v118, main_v119, main_v120, main_v121, main_v122, main_v123, main_v124]
theorem hostOps6_writes : (Gen.hostOps6 : List (HloOp τ sig (Elt F))).Forall fun op => op.writes ⊆ ((hostOps6_W).map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write keeps its contents. -/
theorem hostOps6_keep (V : Valuation τ sig (Elt F)) (r : Ref sig .tc) (h : r ∉ hostOps6_W) :
    StableHlo.after Gen.hostOps6 V (Proc.devRef .tc r) = V (Proc.devRef .tc r) :=
  StableHlo.after_of_writes_sub Gen.hostOps6 _ hostOps6_writes h

end Writes

end Cert.KNet

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.KRegion0.lean ====
/-
  Region 0: what the ten row blocks leave in the output array, as one function of the region's input arrays.
-/
import proofs.«171207_j26164940767513_2_alg».proof.Proof.Gen.KernelIdeal.Frame
import proofs.«171207_j26164940767513_2_alg».proof.Proof.Spec
import proofs.«171207_j26164940767513_2_alg».proof.Proof.LibPlainMatmul
import Idealize.ShloMosaic.Lib.Pipeline.Value

set_option maxRecDepth 16384

noncomputable section

namespace Cert.KRegions

open Idealize.ShloMosaic Idealize.ShloMosaic.TcCoe Idealize.ShloMosaic.ValueIdx Cert.KernelIdeal Cert.KernelIdeal.Gen
open Idealize.ShloMosaic.Pipeline (Dat)
open scoped BigOperators

/-- Entry (r, e) of the body's result on a block: the row r of the block against the column e of the weight. -/
theorem pay0_apply (x0 : Vec Ideal S10000x128 .f32) (x1 : Vec Ideal S128x64 .f32) (r : Fin 10000) (e : Fin 64) :
    k0_pay1 (F := Ideal) x0 x1 (ix2 r e) = ∑ k : Fin 128, x0 (ix2 r k) * x1 (ix2 k e) := by
  unfold k0_pay1
  refine (matmul_plain_zero_apply (M := 10000) (K := 128) (N := 64) dot_S10000x128_S128x64_S10000x64_1_0_0_1_n_n rfl none _ _ r e).trans ?_
  refine Finset.sum_congr rfl fun k _ => ?_
  rw [truncf_apply, truncf_apply]

/-- The same entry as the layer's entry at an array index i, once each block entry it reads is known to be the
    array entry in row i 0 (of the node array) and in column i 1 (of the weight). -/
theorem pay0_at (x0 : Vec Ideal S10000x128 .f32) (x1 : Vec Ideal S128x64 .f32)
    (X : S100000x128.Idx → EReal) (W : S128x64.Idx → EReal)
    (p : Fin 10000) (q : Fin 64) (i : S100000x64.Idx)
    (h0 : ∀ k : Fin 128, x0 (ix2 p k) = X (ix2 ⟨(i 0).val, (i 0).isLt⟩ k))
    (h1 : ∀ k : Fin 128, x1 (ix2 k q) = W (ix2 k ⟨(i 1).val, (i 1).isLt⟩)) :
    k0_pay1 (F := Ideal) x0 x1 (ix2 p q) = Cert.Spec.dense0 X W i := by
  rw [pay0_apply]
  show _ = Cert.Spec.dense0At X W _ _
  unfold Cert.Spec.dense0At
  exact Finset.sum_congr rfl fun k _ => by rw [h0 k, h1 k]

theorem zero_offsets0 : (![0, 0] : Fin 2 → Nat) = fun _ => 0 := funext fun a => by fin_cases a <;> rfl

/-- The index maps over the ten points: the node array's and the output's row block is the point's number, the column
    block is 0; the weight is one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

set_option maxHeartbeats 1000000 in
/-- What point t writes back is block t of the layer applied to the whole input arrays: row p of block t is row
    10000 t + p of the node array, and the weight is read whole. -/
theorem flushed0_eq (c : Dev nD) (t : Fin cfg0.N) :
    (dat0 (F := Ideal) V c).flushed 2 t
      = ((cfg0.win 2).blk t).view.read (Elt Ideal) (Cert.Spec.dense0 (V c main_arg0) (V c main_arg2)) := by
  show (cfg0.win 2).cut (grid0.coords t) ((dat0 V c).after 2 t) = _
  rw [after0_2]
  unfold out0_2
  rw [View.canon_unit_zero zero_offsets0]
  simp only [View.ld_unit_zero (S := S10000x128) zero_offsets0, View.ld_unit_zero (S := S128x64) zero_offsets0]
  obtain ⟨e00, e01, e10, e11, e20, e21⟩ := idx_facts0 t
  funext j
  obtain ⟨p, q, rfl⟩ : ∃ (p : Fin 10000) (q : Fin 64), j = ix2 p q := ⟨j 0, j 1, eq_ix2 j⟩
  rw [View.read_apply]
  refine pay0_at _ _ _ _ p q _ (fun k => ?_) (fun k => ?_)
  · unfold iblk0
    rw [View.read_apply]
    show V c main_arg0 (((cfg0.win 0).blk t).view.emb (ix2 p k)) = V c main_arg0 _
    refine congrArg _ (funext fun a => Fin.ext ?_)
    match a with
    | ⟨0, _⟩ =>
      show win0_0.index t (0 : Fin 2) * 10000 + 1 * p.val = win0_2.index t (0 : Fin 2) * 10000 + 1 * p.val
      omega
    | ⟨1, _⟩ =>
      show win0_0.index t (1 : Fin 2) * 128 + 1 * k.val = k.val
      omega
  · unfold iblk0
    rw [View.read_apply]
    show V c main_arg2 (((cfg0.win 1).blk t).view.emb (ix2 k q)) = V c main_arg2 _
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 64 + 1 * q.val = win0_2.index t (1 : Fin 2) * 64 + 1 * q.val
      omega

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v15).slice (win0_2.rect t)).set ↔ _
  rw [View.set_slice_whole, Rect.mem_set_unit]
  exact Iff.rfl

/-- The ten row blocks tile the output array: row r lies in the block of point r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have ht : (i 0).val / 10000 < cfg0.N := by show _ < grid0.N; omega
  obtain ⟨-, -, -, -, e20, e21⟩ := idx_facts0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e20]
    show (i 0).val / 10000 * 10000 ≤ (i 0).val ∧ (i 0).val < (i 0).val / 10000 * 10000 + 10000
    omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    rw [e21]
    omega

/-- The output array after the region: the first layer applied to the region's input arrays. -/
theorem final0 (c : Dev nD) :
    (dat0 (F := Ideal) V c).arrAt 2 cfg0.N = Cert.Spec.dense0 (V c main_arg0) (V c main_arg2) :=
  (dat0 (F := Ideal) V c).arrAt_eq_of_cover 2 _ (fun t _ => flushed0_eq V c t) cover0

end Cert.KRegions

end
-- ==== Proof.KRegion1.lean ====
/-
  Region 1: what the ten row blocks leave in the output array, as one function of the region's input arrays.
-/
import proofs.«171207_j26164940767513_2_alg».proof.Proof.Gen.KernelIdeal.Frame
import proofs.«171207_j26164940767513_2_alg».proof.Proof.Spec
import proofs.«171207_j26164940767513_2_alg».proof.Proof.LibPlainMatmul
import Idealize.ShloMosaic.Lib.Pipeline.Value

set_option maxRecDepth 16384

noncomputable section

namespace Cert.KRegions

open Idealize.ShloMosaic Idealize.ShloMosaic.TcCoe Idealize.ShloMosaic.ValueIdx Cert.KernelIdeal Cert.KernelIdeal.Gen
open Idealize.ShloMosaic.Pipeline (Dat)
open scoped BigOperators

/-- Entry (r, e) of the body's result on a block: the row r of the block, shifted by the bias row and rectified,
    against the column e of the weight. -/
theorem pay1_apply (x0 : Vec Ideal S10000x64 .f32) (x1 : Vec Ideal S1x64 .f32) (x2 : Vec Ideal S64x64 .f32)
    (r : Fin 10000) (e : Fin 64) :
    k1_pay1 (F := Ideal) x0 x1 x2 (ix2 r e)
      = ∑ k : Fin 64, Cert.Spec.leaky (x0 (ix2 r k) + x1 (ix2 (0 : Fin 1) k)) * x2 (ix2 k e) := by
  unfold k1_pay1
  refine (matmul_plain_zero_apply (M := 10000) (K := 64) (N := 64) dot_S10000x64_S64x64_S10000x64_1_0_0_1_n_n rfl none _ _ r e).trans ?_
  refine Finset.sum_congr rfl fun k _ => ?_
  rw [truncf_apply, truncf_apply, select_apply, cmpf_apply, mulf_apply, addf_apply, broadcast_apply, broadcast_apply,
    shapeCast_self, shapeCast_self,
    broadcastTo_apply x1 broadcasts_S1x64_S10000x64 (ix2 r k) (ix2 (0 : Fin 1) k) (fun a => by
      match a with
      | ⟨0, _⟩ => rfl
      | ⟨1, _⟩ => rfl)]
  rfl

/-- The same entry as the layer's entry at an array index i, once each block entry it reads is known to be the
    array entry in row i 0 (of the node array), in the one bias row, and in column i 1 (of the weight). -/
theorem pay1_at (x0 : Vec Ideal S10000x64 .f32) (x1 : Vec Ideal S1x64 .f32) (x2 : Vec Ideal S64x64 .f32)
    (A : S100000x64.Idx → EReal) (b : S1x64.Idx → EReal) (W : S64x64.Idx → EReal)
    (p : Fin 10000) (q : Fin 64) (i : S100000x64.Idx)
    (h0 : ∀ k : Fin 64, x0 (ix2 p k) = A (ix2 ⟨(i 0).val, (i 0).isLt⟩ k))
    (h1 : ∀ k : Fin 64, x1 (ix2 (0 : Fin 1) k) = b (ix2 (0 : Fin 1) k))
    (h2 : ∀ k : Fin 64, x2 (ix2 k q) = W (ix2 k ⟨(i 1).val, (i 1).isLt⟩)) :
    k1_pay1 (F := Ideal) x0 x1 x2 (ix2 p q) = Cert.Spec.denseAct 64 A b W i := by
  rw [pay1_apply]
  show _ = Cert.Spec.denseActAt 64 A b W _ _
  unfold Cert.Spec.denseActAt
  exact Finset.sum_congr rfl fun k _ => by rw [h0 k, h1 k, h2 k]

theorem zero_offsets1 : (![0, 0] : Fin 2 → Nat) = fun _ => 0 := funext fun a => by fin_cases a <;> rfl

/-- The index maps over the ten points: the node array's and the output's row block is the point's number, the column
    block is 0; the bias row and the weight are one block each. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

set_option maxHeartbeats 1000000 in
/-- What point t writes back is block t of the layer applied to the whole input arrays: row p of block t is row
    10000 t + p of the node array, and the bias row and the weight are read whole. -/
theorem flushed1_eq (c : Dev nD) (t : Fin cfg1.N) :
    (dat1 (F := Ideal) V c).flushed 3 t
      = ((cfg1.win 3).blk t).view.read (Elt Ideal)
          (Cert.Spec.denseAct 64 (V c main_v31) (V c main_v32) (V c main_arg4)) := by
  show (cfg1.win 3).cut (grid1.coords t) ((dat1 V c).after 3 t) = _
  rw [after1_3]
  unfold out1_3
  rw [View.canon_unit_zero zero_offsets1]
  simp only [View.ld_unit_zero (S := S10000x64) zero_offsets1, View.ld_unit_zero (S := S1x64) zero_offsets1,
    View.ld_unit_zero (S := S64x64) zero_offsets1]
  obtain ⟨e00, e01, e10, e11, e20, e21, e30, e31⟩ := idx_facts1 t
  funext j
  obtain ⟨p, q, rfl⟩ : ∃ (p : Fin 10000) (q : Fin 64), j = ix2 p q := ⟨j 0, j 1, eq_ix2 j⟩
  rw [View.read_apply]
  refine pay1_at _ _ _ _ _ _ p q _ (fun k => ?_) (fun k => ?_) (fun k => ?_)
  · unfold iblk1
    rw [View.read_apply]
    show V c main_v31 (((cfg1.win 0).blk t).view.emb (ix2 p k)) = V c main_v31 _
    refine congrArg _ (funext fun a => Fin.ext ?_)
    match a with
    | ⟨0, _⟩ =>
      show win1_0.index t (0 : Fin 2) * 10000 + 1 * p.val = win1_3.index t (0 : Fin 2) * 10000 + 1 * p.val
      omega
    | ⟨1, _⟩ =>
      show win1_0.index t (1 : Fin 2) * 64 + 1 * k.val = k.val
      omega
  · unfold iblk1
    rw [View.read_apply]
    show V c main_v32 (((cfg1.win 1).blk t).view.emb (ix2 (0 : Fin 1) k)) = V c main_v32 _
    refine congrArg _ (funext fun a => Fin.ext ?_)
    match a with
    | ⟨0, _⟩ =>
      show win1_1.index t (0 : Fin 2) * 1 + 1 * 0 = 0
      omega
    | ⟨1, _⟩ =>
      show win1_1.index t (1 : Fin 2) * 64 + 1 * k.val = k.val
      omega
  · unfold iblk1
    rw [View.read_apply]
    show V c main_arg4 (((cfg1.win 2).blk t).view.emb (ix2 k q)) = V c main_arg4 _
    refine congrArg _ (funext fun a => Fin.ext ?_)
    match a with
    | ⟨0, _⟩ =>
      show win1_2.index t (0 : Fin 2) * 64 + 1 * k.val = k.val
      omega
    | ⟨1, _⟩ =>
      show win1_2.index t (1 : Fin 2) * 64 + 1 * q.val = win1_3.index t (1 : Fin 2) * 64 + 1 * q.val
      omega

/-- An index of the output array is in point t's block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v33).slice (win1_3.rect t)).set ↔ _
  rw [View.set_slice_whole, Rect.mem_set_unit]
  exact Iff.rfl

/-- The ten row blocks tile the output array: row r lies in the block of point r / 10000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 10 := N_1
  have ht : (i 0).val / 10000 < cfg1.N := by show _ < grid1.N; omega
  obtain ⟨-, -, -, -, -, -, e30, e31⟩ := idx_facts1 ⟨(i 0).val / 10000, ht⟩
  refine ⟨⟨(i 0).val / 10000, ht⟩, flush1_3 _, ?_⟩
  rw [mem_blk1]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    rw [e30]
    show (i 0).val / 10000 * 10000 ≤ (i 0).val ∧ (i 0).val < (i 0).val / 10000 * 10000 + 10000
    omega
  | ⟨1, _⟩ =>
    show win1_3.index ⟨(i 0).val / 10000, ht⟩ (1 : Fin 2) * 64 ≤ (i 1).val
      ∧ (i 1).val < win1_3.index ⟨(i 0).val / 10000, ht⟩ (1 : Fin 2) * 64 + 64
    rw [e31]
    omega

/-- The output array after the region: the layer applied to the region's input arrays. -/
theorem final1 (c : Dev nD) :
    (dat1 (F := Ideal) V c).arrAt 3 cfg1.N
      = Cert.Spec.denseAct 64 (V c main_v31) (V c main_v32) (V c main_arg4) :=
  (dat1 (F := Ideal) V c).arrAt_eq_of_cover 3 _ (fun t _ => flushed1_eq V c t) cover1

end Cert.KRegions

end
-- ==== Proof.KRegion2.lean ====
/-
  Region 2: what the ten row blocks leave in the output array, as one function of the region's input arrays.
-/
import proofs.«171207_j26164940767513_2_alg».proof.Proof.Gen.KernelIdeal.Frame
import proofs.«171207_j26164940767513_2_alg».proof.Proof.Spec
import proofs.«171207_j26164940767513_2_alg».proof.Proof.LibPlainMatmul
import Idealize.ShloMosaic.Lib.Pipeline.Value

set_option maxRecDepth 16384

noncomputable section

namespace Cert.KRegions

open Idealize.ShloMosaic Idealize.ShloMosaic.TcCoe Idealize.ShloMosaic.ValueIdx Cert.KernelIdeal Cert.KernelIdeal.Gen
open Idealize.ShloMosaic.Pipeline (Dat)
open scoped BigOperators

/-- Entry (r, e) of the body's result on a block: the row r of the block, shifted by the bias row and rectified,
    against the column e of the weight. -/
theorem pay2_apply (x0 : Vec Ideal S10000x64 .f32) (x1 : Vec Ideal S1x64 .f32) (x2 : Vec Ideal S64x64 .f32)
    (r : Fin 10000) (e : Fin 64) :
    k2_pay1 (F := Ideal) x0 x1 x2 (ix2 r e)
      = ∑ k : Fin 64, Cert.Spec.leaky (x0 (ix2 r k) + x1 (ix2 (0 : Fin 1) k)) * x2 (ix2 k e) := by
  unfold k2_pay1
  refine (matmul_plain_zero_apply (M := 10000) (K := 64) (N := 64) dot_S10000x64_S64x64_S10000x64_1_0_0_1_n_n rfl none _ _ r e).trans ?_
  refine Finset.sum_congr rfl fun k _ => ?_
  rw [truncf_apply, truncf_apply, select_apply, cmpf_apply, mulf_apply, addf_apply, broadcast_apply, broadcast_apply,
    shapeCast_self, shapeCast_self,
    broadcastTo_apply x1 broadcasts_S1x64_S10000x64 (ix2 r k) (ix2 (0 : Fin 1) k) (fun a => by
      match a with
      | ⟨0, _⟩ => rfl
      | ⟨1, _⟩ => rfl)]
  rfl

/-- The same entry as the layer's entry at an array index i, once each block entry it reads is known to be the
    array entry in row i 0 (of the node array), in the one bias row, and in column i 1 (of the weight). -/
theorem pay2_at (x0 : Vec Ideal S10000x64 .f32) (x1 : Vec Ideal S1x64 .f32) (x2 : Vec Ideal S64x64 .f32)
    (A : S100000x64.Idx → EReal) (b : S1x64.Idx → EReal) (W : S64x64.Idx → EReal)
    (p : Fin 10000) (q : Fin 64) (i : S100000x64.Idx)
    (h0 : ∀ k : Fin 64, x0 (ix2 p k) = A (ix2 ⟨(i 0).val, (i 0).isLt⟩ k))
    (h1 : ∀ k : Fin 64, x1 (ix2 (0 : Fin 1) k) = b (ix2 (0 : Fin 1) k))
    (h2 : ∀ k : Fin 64, x2 (ix2 k q) = W (ix2 k ⟨(i 1).val, (i 1).isLt⟩)) :
    k2_pay1 (F := Ideal) x0 x1 x2 (ix2 p q) = Cert.Spec.denseAct 64 A b W i := by
  rw [pay2_apply]
  show _ = Cert.Spec.denseActAt 64 A b W _ _
  unfold Cert.Spec.denseActAt
  exact Finset.sum_congr rfl fun k _ => by rw [h0 k, h1 k, h2 k]

theorem zero_offsets2 : (![0, 0] : Fin 2 → Nat) = fun _ => 0 := funext fun a => by fin_cases a <;> rfl

/-- The index maps over the ten points: the node array's and the output's row block is the point's number, the column
    block is 0; the bias row and the weight are one block each. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

set_option maxHeartbeats 1000000 in
/-- What point t writes back is block t of the layer applied to the whole input arrays: row p of block t is row
    10000 t + p of the node array, and the bias row and the weight are read whole. -/
theorem flushed2_eq (c : Dev nD) (t : Fin cfg2.N) :
    (dat2 (F := Ideal) V c).flushed 3 t
      = ((cfg2.win 3).blk t).view.read (Elt Ideal)
          (Cert.Spec.denseAct 64 (V c main_v49) (V c main_v50) (V c main_arg6)) := by
  show (cfg2.win 3).cut (grid2.coords t) ((dat2 V c).after 3 t) = _
  rw [after2_3]
  unfold out2_3
  rw [View.canon_unit_zero zero_offsets2]
  simp only [View.ld_unit_zero (S := S10000x64) zero_offsets2, View.ld_unit_zero (S := S1x64) zero_offsets2,
    View.ld_unit_zero (S := S64x64) zero_offsets2]
  obtain ⟨e00, e01, e10, e11, e20, e21, e30, e31⟩ := idx_facts2 t
  funext j
  obtain ⟨p, q, rfl⟩ : ∃ (p : Fin 10000) (q : Fin 64), j = ix2 p q := ⟨j 0, j 1, eq_ix2 j⟩
  rw [View.read_apply]
  refine pay2_at _ _ _ _ _ _ p q _ (fun k => ?_) (fun k => ?_) (fun k => ?_)
  · unfold iblk2
    rw [View.read_apply]
    show V c main_v49 (((cfg2.win 0).blk t).view.emb (ix2 p k)) = V c main_v49 _
    refine congrArg _ (funext fun a => Fin.ext ?_)
    match a with
    | ⟨0, _⟩ =>
      show win2_0.index t (0 : Fin 2) * 10000 + 1 * p.val = win2_3.index t (0 : Fin 2) * 10000 + 1 * p.val
      omega
    | ⟨1, _⟩ =>
      show win2_0.index t (1 : Fin 2) * 64 + 1 * k.val = k.val
      omega
  · unfold iblk2
    rw [View.read_apply]
    show V c main_v50 (((cfg2.win 1).blk t).view.emb (ix2 (0 : Fin 1) k)) = V c main_v50 _
    refine congrArg _ (funext fun a => Fin.ext ?_)
    match a with
    | ⟨0, _⟩ =>
      show win2_1.index t (0 : Fin 2) * 1 + 1 * 0 = 0
      omega
    | ⟨1, _⟩ =>
      show win2_1.index t (1 : Fin 2) * 64 + 1 * k.val = k.val
      omega
  · unfold iblk2
    rw [View.read_apply]
    show V c main_arg6 (((cfg2.win 2).blk t).view.emb (ix2 k q)) = V c main_arg6 _
    refine congrArg _ (funext fun a => Fin.ext ?_)
    match a with
    | ⟨0, _⟩ =>
      show win2_2.index t (0 : Fin 2) * 64 + 1 * k.val = k.val
      omega
    | ⟨1, _⟩ =>
      show win2_2.index t (1 : Fin 2) * 64 + 1 * q.val = win2_3.index t (1 : Fin 2) * 64 + 1 * q.val
      omega

/-- An index of the output array is in point t's block iff each coordinate is in the block's range on its axis. -/
theorem mem_blk2 (t : Fin cfg2.N) (i : S100000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v51).slice (win2_3.rect t)).set ↔ _
  rw [View.set_slice_whole, Rect.mem_set_unit]
  exact Iff.rfl

/-- The ten row blocks tile the output array: row r lies in the block of point r / 10000. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : grid2.N = 10 := N_2
  have ht : (i 0).val / 10000 < cfg2.N := by show _ < grid2.N; omega
  obtain ⟨-, -, -, -, -, -, e30, e31⟩ := idx_facts2 ⟨(i 0).val / 10000, ht⟩
  refine ⟨⟨(i 0).val / 10000, ht⟩, flush2_3 _, ?_⟩
  rw [mem_blk2]
  intro a
  match a with
  | ⟨0, _⟩ =>
    show win2_3.index ⟨(i 0).val / 10000, ht⟩ (0 : Fin 2) * 10000 ≤ (i 0).val
      ∧ (i 0).val < win2_3.index ⟨(i 0).val / 10000, ht⟩ (0 : Fin 2) * 10000 + 10000
    rw [e30]
    show (i 0).val / 10000 * 10000 ≤ (i 0).val ∧ (i 0).val < (i 0).val / 10000 * 10000 + 10000
    omega
  | ⟨1, _⟩ =>
    show win2_3.index ⟨(i 0).val / 10000, ht⟩ (1 : Fin 2) * 64 ≤ (i 1).val
      ∧ (i 1).val < win2_3.index ⟨(i 0).val / 10000, ht⟩ (1 : Fin 2) * 64 + 64
    rw [e31]
    omega

/-- The output array after the region: the layer applied to the region's input arrays. -/
theorem final2 (c : Dev nD) :
    (dat2 (F := Ideal) V c).arrAt 3 cfg2.N
      = Cert.Spec.denseAct 64 (V c main_v49) (V c main_v50) (V c main_arg6) :=
  (dat2 (F := Ideal) V c).arrAt_eq_of_cover 3 _ (fun t _ => flushed2_eq V c t) cover2

end Cert.KRegions

end
-- ==== Proof.KRegion3.lean ====
/-
  Region 3: what the ten row blocks leave in the output array, as one function of the region's input arrays.
-/
import proofs.«171207_j26164940767513_2_alg».proof.Proof.Gen.KernelIdeal.Frame
import proofs.«171207_j26164940767513_2_alg».proof.Proof.Spec
import proofs.«171207_j26164940767513_2_alg».proof.Proof.LibPlainMatmul
import Idealize.ShloMosaic.Lib.Pipeline.Value

set_option maxRecDepth 16384

noncomputable section

namespace Cert.KRegions

open Idealize.ShloMosaic Idealize.ShloMosaic.TcCoe Idealize.ShloMosaic.ValueIdx Cert.KernelIdeal Cert.KernelIdeal.Gen
open Idealize.ShloMosaic.Pipeline (Dat)
open scoped BigOperators

/-- Entry (r, e) of the body's result on a block: the row r of the block, shifted by the bias row and rectified,
    against the column e of the weight. -/
theorem pay3_apply (x0 : Vec Ideal S10000x64 .f32) (x1 : Vec Ideal S1x64 .f32) (x2 : Vec Ideal S64x64 .f32)
    (r : Fin 10000) (e : Fin 64) :
    k3_pay1 (F := Ideal) x0 x1 x2 (ix2 r e)
      = ∑ k : Fin 64, Cert.Spec.leaky (x0 (ix2 r k) + x1 (ix2 (0 : Fin 1) k)) * x2 (ix2 k e) := by
  unfold k3_pay1
  refine (matmul_plain_zero_apply (M := 10000) (K := 64) (N := 64) dot_S10000x64_S64x64_S10000x64_1_0_0_1_n_n rfl none _ _ r e).trans ?_
  refine Finset.sum_congr rfl fun k _ => ?_
  rw [truncf_apply, truncf_apply, select_apply, cmpf_apply, mulf_apply, addf_apply, broadcast_apply, broadcast_apply,
    shapeCast_self, shapeCast_self,
    broadcastTo_apply x1 broadcasts_S1x64_S10000x64 (ix2 r k) (ix2 (0 : Fin 1) k) (fun a => by
      match a with
      | ⟨0, _⟩ => rfl
      | ⟨1, _⟩ => rfl)]
  rfl

/-- The same entry as the layer's entry at an array index i, once each block entry it reads is known to be the
    array entry in row i 0 (of the node array), in the one bias row, and in column i 1 (of the weight). -/
theorem pay3_at (x0 : Vec Ideal S10000x64 .f32) (x1 : Vec Ideal S1x64 .f32) (x2 : Vec Ideal S64x64 .f32)
    (A : S100000x64.Idx → EReal) (b : S1x64.Idx → EReal) (W : S64x64.Idx → EReal)
    (p : Fin 10000) (q : Fin 64) (i : S100000x64.Idx)
    (h0 : ∀ k : Fin 64, x0 (ix2 p k) = A (ix2 ⟨(i 0).val, (i 0).isLt⟩ k))
    (h1 : ∀ k : Fin 64, x1 (ix2 (0 : Fin 1) k) = b (ix2 (0 : Fin 1) k))
    (h2 : ∀ k : Fin 64, x2 (ix2 k q) = W (ix2 k ⟨(i 1).val, (i 1).isLt⟩)) :
    k3_pay1 (F := Ideal) x0 x1 x2 (ix2 p q) = Cert.Spec.denseAct 64 A b W i := by
  rw [pay3_apply]
  show _ = Cert.Spec.denseActAt 64 A b W _ _
  unfold Cert.Spec.denseActAt
  exact Finset.sum_congr rfl fun k _ => by rw [h0 k, h1 k, h2 k]

theorem zero_offsets3 : (![0, 0] : Fin 2 → Nat) = fun _ => 0 := funext fun a => by fin_cases a <;> rfl

/-- The index maps over the ten points: the node array's and the output's row block is the point's number, the column
    block is 0; the bias row and the weight are one block each. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

set_option maxHeartbeats 1000000 in
/-- What point t writes back is block t of the layer applied to the whole input arrays: row p of block t is row
    10000 t + p of the node array, and the bias row and the weight are read whole. -/
theorem flushed3_eq (c : Dev nD) (t : Fin cfg3.N) :
    (dat3 (F := Ideal) V c).flushed 3 t
      = ((cfg3.win 3).blk t).view.read (Elt Ideal)
          (Cert.Spec.denseAct 64 (V c main_v67) (V c main_v68) (V c main_arg8)) := by
  show (cfg3.win 3).cut (grid3.coords t) ((dat3 V c).after 3 t) = _
  rw [after3_3]
  unfold out3_3
  rw [View.canon_unit_zero zero_offsets3]
  simp only [View.ld_unit_zero (S := S10000x64) zero_offsets3, View.ld_unit_zero (S := S1x64) zero_offsets3,
    View.ld_unit_zero (S := S64x64) zero_offsets3]
  obtain ⟨e00, e01, e10, e11, e20, e21, e30, e31⟩ := idx_facts3 t
  funext j
  obtain ⟨p, q, rfl⟩ : ∃ (p : Fin 10000) (q : Fin 64), j = ix2 p q := ⟨j 0, j 1, eq_ix2 j⟩
  rw [View.read_apply]
  refine pay3_at _ _ _ _ _ _ p q _ (fun k => ?_) (fun k => ?_) (fun k => ?_)
  · unfold iblk3
    rw [View.read_apply]
    show V c main_v67 (((cfg3.win 0).blk t).view.emb (ix2 p k)) = V c main_v67 _
    refine congrArg _ (funext fun a => Fin.ext ?_)
    match a with
    | ⟨0, _⟩ =>
      show win3_0.index t (0 : Fin 2) * 10000 + 1 * p.val = win3_3.index t (0 : Fin 2) * 10000 + 1 * p.val
      omega
    | ⟨1, _⟩ =>
      show win3_0.index t (1 : Fin 2) * 64 + 1 * k.val = k.val
      omega
  · unfold iblk3
    rw [View.read_apply]
    show V c main_v68 (((cfg3.win 1).blk t).view.emb (ix2 (0 : Fin 1) k)) = V c main_v68 _
    refine congrArg _ (funext fun a => Fin.ext ?_)
    match a with
    | ⟨0, _⟩ =>
      show win3_1.index t (0 : Fin 2) * 1 + 1 * 0 = 0
      omega
    | ⟨1, _⟩ =>
      show win3_1.index t (1 : Fin 2) * 64 + 1 * k.val = k.val
      omega
  · unfold iblk3
    rw [View.read_apply]
    show V c main_arg8 (((cfg3.win 2).blk t).view.emb (ix2 k q)) = V c main_arg8 _
    refine congrArg _ (funext fun a => Fin.ext ?_)
    match a with
    | ⟨0, _⟩ =>
      show win3_2.index t (0 : Fin 2) * 64 + 1 * k.val = k.val
      omega
    | ⟨1, _⟩ =>
      show win3_2.index t (1 : Fin 2) * 64 + 1 * q.val = win3_3.index t (1 : Fin 2) * 64 + 1 * q.val
      omega

/-- An index of the output array is in point t's block iff each coordinate is in the block's range on its axis. -/
theorem mem_blk3 (t : Fin cfg3.N) (i : S100000x64.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v69).slice (win3_3.rect t)).set ↔ _
  rw [View.set_slice_whole, Rect.mem_set_unit]
  exact Iff.rfl

/-- The ten row blocks tile the output array: row r lies in the block of point r / 10000. -/
theorem cover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : grid3.N = 10 := N_3
  have ht : (i 0).val / 10000 < cfg3.N := by show _ < grid3.N; omega
  obtain ⟨-, -, -, -, -, -, e30, e31⟩ := idx_facts3 ⟨(i 0).val / 10000, ht⟩
  refine ⟨⟨(i 0).val / 10000, ht⟩, flush3_3 _, ?_⟩
  rw [mem_blk3]
  intro a
  match a with
  | ⟨0, _⟩ =>
    show win3_3.index ⟨(i 0).val / 10000, ht⟩ (0 : Fin 2) * 10000 ≤ (i 0).val
      ∧ (i 0).val < win3_3.index ⟨(i 0).val / 10000, ht⟩ (0 : Fin 2) * 10000 + 10000
    rw [e30]
    show (i 0).val / 10000 * 10000 ≤ (i 0).val ∧ (i 0).val < (i 0).val / 10000 * 10000 + 10000
    omega
  | ⟨1, _⟩ =>
    show win3_3.index ⟨(i 0).val / 10000, ht⟩ (1 : Fin 2) * 64 ≤ (i 1).val
      ∧ (i 1).val < win3_3.index ⟨(i 0).val / 10000, ht⟩ (1 : Fin 2) * 64 + 64
    rw [e31]
    omega

/-- The output array after the region: the layer applied to the region's input arrays. -/
theorem final3 (c : Dev nD) :
    (dat3 (F := Ideal) V c).arrAt 3 cfg3.N
      = Cert.Spec.denseAct 64 (V c main_v67) (V c main_v68) (V c main_arg8) :=
  (dat3 (F := Ideal) V c).arrAt_eq_of_cover 3 _ (fun t _ => flushed3_eq V c t) cover3

end Cert.KRegions

end
-- ==== Proof.KRegion4.lean ====
/-
  Region 4: what the ten row blocks leave in the output array, as one function of the region's input arrays.
-/
import proofs.«171207_j26164940767513_2_alg».proof.Proof.Gen.KernelIdeal.Frame
import proofs.«171207_j26164940767513_2_alg».proof.Proof.Spec
import proofs.«171207_j26164940767513_2_alg».proof.Proof.LibPlainMatmul
import Idealize.ShloMosaic.Lib.Pipeline.Value

set_option maxRecDepth 16384

noncomputable section

namespace Cert.KRegions

open Idealize.ShloMosaic Idealize.ShloMosaic.TcCoe Idealize.ShloMosaic.ValueIdx Cert.KernelIdeal Cert.KernelIdeal.Gen
open Idealize.ShloMosaic.Pipeline (Dat)
open scoped BigOperators

/-- Entry (r, e) of the body's result on a block: the row r of the block, shifted by the bias row and rectified,
    against the column e of the weight. -/
theorem pay4_apply (x0 : Vec Ideal S10000x64 .f32) (x1 : Vec Ideal S1x64 .f32) (x2 : Vec Ideal S64x64 .f32)
    (r : Fin 10000) (e : Fin 64) :
    k4_pay1 (F := Ideal) x0 x1 x2 (ix2 r e)
      = ∑ k : Fin 64, Cert.Spec.leaky (x0 (ix2 r k) + x1 (ix2 (0 : Fin 1) k)) * x2 (ix2 k e) := by
  unfold k4_pay1
  refine (matmul_plain_zero_apply (M := 10000) (K := 64) (N := 64) dot_S10000x64_S64x64_S10000x64_1_0_0_1_n_n rfl none _ _ r e).trans ?_
  refine Finset.sum_congr rfl fun k _ => ?_
  rw [truncf_apply, truncf_apply, select_apply, cmpf_apply, mulf_apply, addf_apply, broadcast_apply, broadcast_apply,
    shapeCast_self, shapeCast_self,
    broadcastTo_apply x1 broadcasts_S1x64_S10000x64 (ix2 r k) (ix2 (0 : Fin 1) k) (fun a => by
      match a with
      | ⟨0, _⟩ => rfl
      | ⟨1, _⟩ => rfl)]
  rfl

/-- The same entry as the layer's entry at an array index i, once each block entry it reads is known to be the
    array entry in row i 0 (of the node array), in the one bias row, and in column i 1 (of the weight). -/
theorem pay4_at (x0 : Vec Ideal S10000x64 .f32) (x1 : Vec Ideal S1x64 .f32) (x2 : Vec Ideal S64x64 .f32)
    (A : S100000x64.Idx → EReal) (b : S1x64.Idx → EReal) (W : S64x64.Idx → EReal)
    (p : Fin 10000) (q : Fin 64) (i : S100000x64.Idx)
    (h0 : ∀ k : Fin 64, x0 (ix2 p k) = A (ix2 ⟨(i 0).val, (i 0).isLt⟩ k))
    (h1 : ∀ k : Fin 64, x1 (ix2 (0 : Fin 1) k) = b (ix2 (0 : Fin 1) k))
    (h2 : ∀ k : Fin 64, x2 (ix2 k q) = W (ix2 k ⟨(i 1).val, (i 1).isLt⟩)) :
    k4_pay1 (F := Ideal) x0 x1 x2 (ix2 p q) = Cert.Spec.denseAct 64 A b W i := by
  rw [pay4_apply]
  show _ = Cert.Spec.denseActAt 64 A b W _ _
  unfold Cert.Spec.denseActAt
  exact Finset.sum_congr rfl fun k _ => by rw [h0 k, h1 k, h2 k]

theorem zero_offsets4 : (![0, 0] : Fin 2 → Nat) = fun _ => 0 := funext fun a => by fin_cases a <;> rfl

/-- The index maps over the ten points: the node array's and the output's row block is the point's number, the column
    block is 0; the bias row and the weight are one block each. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

set_option maxHeartbeats 1000000 in
/-- What point t writes back is block t of the layer applied to the whole input arrays: row p of block t is row
    10000 t + p of the node array, and the bias row and the weight are read whole. -/
theorem flushed4_eq (c : Dev nD) (t : Fin cfg4.N) :
    (dat4 (F := Ideal) V c).flushed 3 t
      = ((cfg4.win 3).blk t).view.read (Elt Ideal)
          (Cert.Spec.denseAct 64 (V c main_v85) (V c main_v86) (V c main_arg10)) := by
  show (cfg4.win 3).cut (grid4.coords t) ((dat4 V c).after 3 t) = _
  rw [after4_3]
  unfold out4_3
  rw [View.canon_unit_zero zero_offsets4]
  simp only [View.ld_unit_zero (S := S10000x64) zero_offsets4, View.ld_unit_zero (S := S1x64) zero_offsets4,
    View.ld_unit_zero (S := S64x64) zero_offsets4]
  obtain ⟨e00, e01, e10, e11, e20, e21, e30, e31⟩ := idx_facts4 t
  funext j
  obtain ⟨p, q, rfl⟩ : ∃ (p : Fin 10000) (q : Fin 64), j = ix2 p q := ⟨j 0, j 1, eq_ix2 j⟩
  rw [View.read_apply]
  refine pay4_at _ _ _ _ _ _ p q _ (fun k => ?_) (fun k => ?_) (fun k => ?_)
  · unfold iblk4
    rw [View.read_apply]
    show V c main_v85 (((cfg4.win 0).blk t).view.emb (ix2 p k)) = V c main_v85 _
    refine congrArg _ (funext fun a => Fin.ext ?_)
    match a with
    | ⟨0, _⟩ =>
      show win4_0.index t (0 : Fin 2) * 10000 + 1 * p.val = win4_3.index t (0 : Fin 2) * 10000 + 1 * p.val
      omega
    | ⟨1, _⟩ =>
      show win4_0.index t (1 : Fin 2) * 64 + 1 * k.val = k.val
      omega
  · unfold iblk4
    rw [View.read_apply]
    show V c main_v86 (((cfg4.win 1).blk t).view.emb (ix2 (0 : Fin 1) k)) = V c main_v86 _
    refine congrArg _ (funext fun a => Fin.ext ?_)
    match a with
    | ⟨0, _⟩ =>
      show win4_1.index t (0 : Fin 2) * 1 + 1 * 0 = 0
      omega
    | ⟨1, _⟩ =>
      show win4_1.index t (1 : Fin 2) * 64 + 1 * k.val = k.val
      omega
  · unfold iblk4
    rw [View.read_apply]
    show V c main_arg10 (((cfg4.win 2).blk t).view.emb (ix2 k q)) = V c main_arg10 _
    refine congrArg _ (funext fun a => Fin.ext ?_)
    match a with
    | ⟨0, _⟩ =>
      show win4_2.index t (0 : Fin 2) * 64 + 1 * k.val = k.val
      omega
    | ⟨1, _⟩ =>
      show win4_2.index t (1 : Fin 2) * 64 + 1 * q.val = win4_3.index t (1 : Fin 2) * 64 + 1 * q.val
      omega

/-- An index of the output array is in point t's block iff each coordinate is in the block's range on its axis. -/
theorem mem_blk4 (t : Fin cfg4.N) (i : S100000x64.Idx) :
    i ∈ ((cfg4.win 3).blk t).view.set ↔ ∀ a : Fin 2, win4_3.index t a * S10000x64.size a ≤ (i a).val
      ∧ (i a).val < win4_3.index t a * S10000x64.size a + S10000x64.size a := by
  show i ∈ ((View.whole main_v87).slice (win4_3.rect t)).set ↔ _
  rw [View.set_slice_whole, Rect.mem_set_unit]
  exact Iff.rfl

/-- The ten row blocks tile the output array: row r lies in the block of point r / 10000. -/
theorem cover4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : grid4.N = 10 := N_4
  have ht : (i 0).val / 10000 < cfg4.N := by show _ < grid4.N; omega
  obtain ⟨-, -, -, -, -, -, e30, e31⟩ := idx_facts4 ⟨(i 0).val / 10000, ht⟩
  refine ⟨⟨(i 0).val / 10000, ht⟩, flush4_3 _, ?_⟩
  rw [mem_blk4]
  intro a
  match a with
  | ⟨0, _⟩ =>
    show win4_3.index ⟨(i 0).val / 10000, ht⟩ (0 : Fin 2) * 10000 ≤ (i 0).val
      ∧ (i 0).val < win4_3.index ⟨(i 0).val / 10000, ht⟩ (0 : Fin 2) * 10000 + 10000
    rw [e30]
    show (i 0).val / 10000 * 10000 ≤ (i 0).val ∧ (i 0).val < (i 0).val / 10000 * 10000 + 10000
    omega
  | ⟨1, _⟩ =>
    show win4_3.index ⟨(i 0).val / 10000, ht⟩ (1 : Fin 2) * 64 ≤ (i 1).val
      ∧ (i 1).val < win4_3.index ⟨(i 0).val / 10000, ht⟩ (1 : Fin 2) * 64 + 64
    rw [e31]
    omega

/-- The output array after the region: the layer applied to the region's input arrays. -/
theorem final4 (c : Dev nD) :
    (dat4 (F := Ideal) V c).arrAt 3 cfg4.N
      = Cert.Spec.denseAct 64 (V c main_v85) (V c main_v86) (V c main_arg10) :=
  (dat4 (F := Ideal) V c).arrAt_eq_of_cover 3 _ (fun t _ => flushed4_eq V c t) cover4

end Cert.KRegions

end
-- ==== Proof.KRegion5.lean ====
/-
  Region 5: what the ten row blocks leave in the output array, as one function of the region's input arrays.
-/
import proofs.«171207_j26164940767513_2_alg».proof.Proof.Gen.KernelIdeal.Frame
import proofs.«171207_j26164940767513_2_alg».proof.Proof.Spec
import proofs.«171207_j26164940767513_2_alg».proof.Proof.LibPlainMatmul
import Idealize.ShloMosaic.Lib.Pipeline.Value

set_option maxRecDepth 16384

noncomputable section

namespace Cert.KRegions

open Idealize.ShloMosaic Idealize.ShloMosaic.TcCoe Idealize.ShloMosaic.ValueIdx Cert.KernelIdeal Cert.KernelIdeal.Gen
open Idealize.ShloMosaic.Pipeline (Dat)
open scoped BigOperators

/-- Entry (r, e) of the body's result on a block: the row r of the block, shifted by the bias row and rectified,
    against the column e of the weight. -/
theorem pay5_apply (x0 : Vec Ideal S10000x64 .f32) (x1 : Vec Ideal S1x64 .f32) (x2 : Vec Ideal S64x4 .f32)
    (r : Fin 10000) (e : Fin 4) :
    k5_pay1 (F := Ideal) x0 x1 x2 (ix2 r e)
      = ∑ k : Fin 64, Cert.Spec.leaky (x0 (ix2 r k) + x1 (ix2 (0 : Fin 1) k)) * x2 (ix2 k e) := by
  unfold k5_pay1
  refine (matmul_plain_zero_apply (M := 10000) (K := 64) (N := 4) dot_S10000x64_S64x4_S10000x4_1_0_0_1_n_n rfl none _ _ r e).trans ?_
  refine Finset.sum_congr rfl fun k _ => ?_
  rw [truncf_apply, truncf_apply, select_apply, cmpf_apply, mulf_apply, addf_apply, broadcast_apply, broadcast_apply,
    shapeCast_self, shapeCast_self,
    broadcastTo_apply x1 broadcasts_S1x64_S10000x64 (ix2 r k) (ix2 (0 : Fin 1) k) (fun a => by
      match a with
      | ⟨0, _⟩ => rfl
      | ⟨1, _⟩ => rfl)]
  rfl

/-- The same entry as the layer's entry at an array index i, once each block entry it reads is known to be the
    array entry in row i 0 (of the node array), in the one bias row, and in column i 1 (of the weight). -/
theorem pay5_at (x0 : Vec Ideal S10000x64 .f32) (x1 : Vec Ideal S1x64 .f32) (x2 : Vec Ideal S64x4 .f32)
    (A : S100000x64.Idx → EReal) (b : S1x64.Idx → EReal) (W : S64x4.Idx → EReal)
    (p : Fin 10000) (q : Fin 4) (i : S100000x4.Idx)
    (h0 : ∀ k : Fin 64, x0 (ix2 p k) = A (ix2 ⟨(i 0).val, (i 0).isLt⟩ k))
    (h1 : ∀ k : Fin 64, x1 (ix2 (0 : Fin 1) k) = b (ix2 (0 : Fin 1) k))
    (h2 : ∀ k : Fin 64, x2 (ix2 k q) = W (ix2 k ⟨(i 1).val, (i 1).isLt⟩)) :
    k5_pay1 (F := Ideal) x0 x1 x2 (ix2 p q) = Cert.Spec.denseAct 4 A b W i := by
  rw [pay5_apply]
  show _ = Cert.Spec.denseActAt 4 A b W _ _
  unfold Cert.Spec.denseActAt
  exact Finset.sum_congr rfl fun k _ => by rw [h0 k, h1 k, h2 k]

theorem zero_offsets5 : (![0, 0] : Fin 2 → Nat) = fun _ => 0 := funext fun a => by fin_cases a <;> rfl

/-- The index maps over the ten points: the node array's and the output's row block is the point's number, the column
    block is 0; the bias row and the weight are one block each. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b))

set_option maxHeartbeats 1000000 in
/-- What point t writes back is block t of the layer applied to the whole input arrays: row p of block t is row
    10000 t + p of the node array, and the bias row and the weight are read whole. -/
theorem flushed5_eq (c : Dev nD) (t : Fin cfg5.N) :
    (dat5 (F := Ideal) V c).flushed 3 t
      = ((cfg5.win 3).blk t).view.read (Elt Ideal)
          (Cert.Spec.denseAct 4 (V c main_v103) (V c main_v104) (V c main_arg12)) := by
  show (cfg5.win 3).cut (grid5.coords t) ((dat5 V c).after 3 t) = _
  rw [after5_3]
  unfold out5_3
  rw [View.canon_unit_zero zero_offsets5]
  simp only [View.ld_unit_zero (S := S10000x64) zero_offsets5, View.ld_unit_zero (S := S1x64) zero_offsets5,
    View.ld_unit_zero (S := S64x4) zero_offsets5]
  obtain ⟨e00, e01, e10, e11, e20, e21, e30, e31⟩ := idx_facts5 t
  funext j
  obtain ⟨p, q, rfl⟩ : ∃ (p : Fin 10000) (q : Fin 4), j = ix2 p q := ⟨j 0, j 1, eq_ix2 j⟩
  rw [View.read_apply]
  refine pay5_at _ _ _ _ _ _ p q _ (fun k => ?_) (fun k => ?_) (fun k => ?_)
  · unfold iblk5
    rw [View.read_apply]
    show V c main_v103 (((cfg5.win 0).blk t).view.emb (ix2 p k)) = V c main_v103 _
    refine congrArg _ (funext fun a => Fin.ext ?_)
    match a with
    | ⟨0, _⟩ =>
      show win5_0.index t (0 : Fin 2) * 10000 + 1 * p.val = win5_3.index t (0 : Fin 2) * 10000 + 1 * p.val
      omega
    | ⟨1, _⟩ =>
      show win5_0.index t (1 : Fin 2) * 64 + 1 * k.val = k.val
      omega
  · unfold iblk5
    rw [View.read_apply]
    show V c main_v104 (((cfg5.win 1).blk t).view.emb (ix2 (0 : Fin 1) k)) = V c main_v104 _
    refine congrArg _ (funext fun a => Fin.ext ?_)
    match a with
    | ⟨0, _⟩ =>
      show win5_1.index t (0 : Fin 2) * 1 + 1 * 0 = 0
      omega
    | ⟨1, _⟩ =>
      show win5_1.index t (1 : Fin 2) * 64 + 1 * k.val = k.val
      omega
  · unfold iblk5
    rw [View.read_apply]
    show V c main_arg12 (((cfg5.win 2).blk t).view.emb (ix2 k q)) = V c main_arg12 _
    refine congrArg _ (funext fun a => Fin.ext ?_)
    match a with
    | ⟨0, _⟩ =>
      show win5_2.index t (0 : Fin 2) * 64 + 1 * k.val = k.val
      omega
    | ⟨1, _⟩ =>
      show win5_2.index t (1 : Fin 2) * 4 + 1 * q.val = win5_3.index t (1 : Fin 2) * 4 + 1 * q.val
      omega

/-- An index of the output array is in point t's block iff each coordinate is in the block's range on its axis. -/
theorem mem_blk5 (t : Fin cfg5.N) (i : S100000x4.Idx) :
    i ∈ ((cfg5.win 3).blk t).view.set ↔ ∀ a : Fin 2, win5_3.index t a * S10000x4.size a ≤ (i a).val
      ∧ (i a).val < win5_3.index t a * S10000x4.size a + S10000x4.size a := by
  show i ∈ ((View.whole main_v105).slice (win5_3.rect t)).set ↔ _
  rw [View.set_slice_whole, Rect.mem_set_unit]
  exact Iff.rfl

/-- The ten row blocks tile the output array: row r lies in the block of point r / 10000. -/
theorem cover5 (i : S100000x4.Idx) :
    ∃ t : Fin cfg5.N, (cfg5.win 3).flush t = true ∧ i ∈ ((cfg5.win 3).blk t).view.set := by
  have hi0 : (i 0).val < 100000 := (i 0).isLt
  have hi1 : (i 1).val < 4 := (i 1).isLt
  have hN : grid5.N = 10 := N_5
  have ht : (i 0).val / 10000 < cfg5.N := by show _ < grid5.N; omega
  obtain ⟨-, -, -, -, -, -, e30, e31⟩ := idx_facts5 ⟨(i 0).val / 10000, ht⟩
  refine ⟨⟨(i 0).val / 10000, ht⟩, flush5_3 _, ?_⟩
  rw [mem_blk5]
  intro a
  match a with
  | ⟨0, _⟩ =>
    show win5_3.index ⟨(i 0).val / 10000, ht⟩ (0 : Fin 2) * 10000 ≤ (i 0).val
      ∧ (i 0).val < win5_3.index ⟨(i 0).val / 10000, ht⟩ (0 : Fin 2) * 10000 + 10000
    rw [e30]
    show (i 0).val / 10000 * 10000 ≤ (i 0).val ∧ (i 0).val < (i 0).val / 10000 * 10000 + 10000
    omega
  | ⟨1, _⟩ =>
    show win5_3.index ⟨(i 0).val / 10000, ht⟩ (1 : Fin 2) * 4 ≤ (i 1).val
      ∧ (i 1).val < win5_3.index ⟨(i 0).val / 10000, ht⟩ (1 : Fin 2) * 4 + 4
    rw [e31]
    omega

/-- The output array after the region: the layer applied to the region's input arrays. -/
theorem final5 (c : Dev nD) :
    (dat5 (F := Ideal) V c).arrAt 3 cfg5.N
      = Cert.Spec.denseAct 4 (V c main_v103) (V c main_v104) (V c main_arg12) :=
  (dat5 (F := Ideal) V c).arrAt_eq_of_cover 3 _ (fun t _ => flushed5_eq V c t) cover5

end Cert.KRegions

end
-- ==== Proof.KChain.lean ====
/-
  The kernel program's result as one function of what the graph preparation leaves.

  From the launch the buffer contents pass through seven stretches of host operations and six regions. The source
  column, the target column and the node factor are written once, before the first region, and every later stretch
  and region leaves them and the argument arrays alone; each region's output array is its dense layer of the arrays
  it finds; each stretch aggregates the previous output over the graph and sets the next bias out as a row. Read from
  the last boundary back to the first, the result array is the whole network applied to the arguments and to the
  graph preparation's three arrays.
-/
import proofs.«171207_j26164940767513_2_alg».proof.Proof.Gen.KernelIdeal.Frame
import proofs.«171207_j26164940767513_2_alg».proof.Proof.KNet
import proofs.«171207_j26164940767513_2_alg».proof.Proof.KRegion0
import proofs.«171207_j26164940767513_2_alg».proof.Proof.KRegion1
import proofs.«171207_j26164940767513_2_alg».proof.Proof.KRegion2
import proofs.«171207_j26164940767513_2_alg».proof.Proof.KRegion3
import proofs.«171207_j26164940767513_2_alg».proof.Proof.KRegion4
import proofs.«171207_j26164940767513_2_alg».proof.Proof.KRegion5

set_option maxRecDepth 16384

noncomputable section

namespace Cert.KChain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## What survives: the graph's three arrays and the arguments, from the first region's entry on -/

theorem st3_v3 : W3 (F := Ideal) m ρ c (Proc.devRef .tc main_v3) = W2 (F := Ideal) m ρ c (Proc.devRef .tc main_v3) :=
  W3_of_ne m ρ c main_v3 (by decide)
theorem st4_v3 : W4 (F := Ideal) m ρ c (Proc.devRef .tc main_v3) = W2 (F := Ideal) m ρ c (Proc.devRef .tc main_v3) :=
  (Cert.KNet.hostOps1_keep (W3 (F := Ideal) m ρ c) main_v3 (by decide)).trans (st3_v3 m ρ c)
theorem st5_v3 : W5 (F := Ideal) m ρ c (Proc.devRef .tc main_v3) = W2 (F := Ideal) m ρ c (Proc.devRef .tc main_v3) :=
  (W5_of_ne m ρ c main_v3 (by decide)).trans (st4_v3 m ρ c)
theorem st6_v3 : W6 (F := Ideal) m ρ c (Proc.devRef .tc main_v3) = W2 (F := Ideal) m ρ c (Proc.devRef .tc main_v3) :=
  (Cert.KNet.hostOps2_keep (W5 (F := Ideal) m ρ c) main_v3 (by decide)).trans (st5_v3 m ρ c)
theorem st7_v3 : W7 (F := Ideal) m ρ c (Proc.devRef .tc main_v3) = W2 (F := Ideal) m ρ c (Proc.devRef .tc main_v3) :=
  (W7_of_ne m ρ c main_v3 (by decide)).trans (st6_v3 m ρ c)
theorem st8_v3 : W8 (F := Ideal) m ρ c (Proc.devRef .tc main_v3) = W2 (F := Ideal) m ρ c (Proc.devRef .tc main_v3) :=
  (Cert.KNet.hostOps3_keep (W7 (F := Ideal) m ρ c) main_v3 (by decide)).trans (st7_v3 m ρ c)
theorem st9_v3 : W9 (F := Ideal) m ρ c (Proc.devRef .tc main_v3) = W2 (F := Ideal) m ρ c (Proc.devRef .tc main_v3) :=
  (W9_of_ne m ρ c main_v3 (by decide)).trans (st8_v3 m ρ c)
theorem st10_v3 : W10 (F := Ideal) m ρ c (Proc.devRef .tc main_v3) = W2 (F := Ideal) m ρ c (Proc.devRef .tc main_v3) :=
  (Cert.KNet.hostOps4_keep (W9 (F := Ideal) m ρ c) main_v3 (by decide)).trans (st9_v3 m ρ c)
theorem st11_v3 : W11 (F := Ideal) m ρ c (Proc.devRef .tc main_v3) = W2 (F := Ideal) m ρ c (Proc.devRef .tc main_v3) :=
  (W11_of_ne m ρ c main_v3 (by decide)).trans (st10_v3 m ρ c)
theorem st12_v3 : W12 (F := Ideal) m ρ c (Proc.devRef .tc main_v3) = W2 (F := Ideal) m ρ c (Proc.devRef .tc main_v3) :=
  (Cert.KNet.hostOps5_keep (W11 (F := Ideal) m ρ c) main_v3 (by decide)).trans (st11_v3 m ρ c)
theorem st13_v3 : W13 (F := Ideal) m ρ c (Proc.devRef .tc main_v3) = W2 (F := Ideal) m ρ c (Proc.devRef .tc main_v3) :=
  (W13_of_ne m ρ c main_v3 (by decide)).trans (st12_v3 m ρ c)
theorem st3_v6 : W3 (F := Ideal) m ρ c (Proc.devRef .tc main_v6) = W2 (F := Ideal) m ρ c (Proc.devRef .tc main_v6) :=
  W3_of_ne m ρ c main_v6 (by decide)
theorem st4_v6 : W4 (F := Ideal) m ρ c (Proc.devRef .tc main_v6) = W2 (F := Ideal) m ρ c (Proc.devRef .tc main_v6) :=
  (Cert.KNet.hostOps1_keep (W3 (F := Ideal) m ρ c) main_v6 (by decide)).trans (st3_v6 m ρ c)
theorem st5_v6 : W5 (F := Ideal) m ρ c (Proc.devRef .tc main_v6) = W2 (F := Ideal) m ρ c (Proc.devRef .tc main_v6) :=
  (W5_of_ne m ρ c main_v6 (by decide)).trans (st4_v6 m ρ c)
theorem st6_v6 : W6 (F := Ideal) m ρ c (Proc.devRef .tc main_v6) = W2 (F := Ideal) m ρ c (Proc.devRef .tc main_v6) :=
  (Cert.KNet.hostOps2_keep (W5 (F := Ideal) m ρ c) main_v6 (by decide)).trans (st5_v6 m ρ c)
theorem st7_v6 : W7 (F := Ideal) m ρ c (Proc.devRef .tc main_v6) = W2 (F := Ideal) m ρ c (Proc.devRef .tc main_v6) :=
  (W7_of_ne m ρ c main_v6 (by decide)).trans (st6_v6 m ρ c)
theorem st8_v6 : W8 (F := Ideal) m ρ c (Proc.devRef .tc main_v6) = W2 (F := Ideal) m ρ c (Proc.devRef .tc main_v6) :=
  (Cert.KNet.hostOps3_keep (W7 (F := Ideal) m ρ c) main_v6 (by decide)).trans (st7_v6 m ρ c)
theorem st9_v6 : W9 (F := Ideal) m ρ c (Proc.devRef .tc main_v6) = W2 (F := Ideal) m ρ c (Proc.devRef .tc main_v6) :=
  (W9_of_ne m ρ c main_v6 (by decide)).trans (st8_v6 m ρ c)
theorem st10_v6 : W10 (F := Ideal) m ρ c (Proc.devRef .tc main_v6) = W2 (F := Ideal) m ρ c (Proc.devRef .tc main_v6) :=
  (Cert.KNet.hostOps4_keep (W9 (F := Ideal) m ρ c) main_v6 (by decide)).trans (st9_v6 m ρ c)
theorem st11_v6 : W11 (F := Ideal) m ρ c (Proc.devRef .tc main_v6) = W2 (F := Ideal) m ρ c (Proc.devRef .tc main_v6) :=
  (W11_of_ne m ρ c main_v6 (by decide)).trans (st10_v6 m ρ c)
theorem st12_v6 : W12 (F := Ideal) m ρ c (Proc.devRef .tc main_v6) = W2 (F := Ideal) m ρ c (Proc.devRef .tc main_v6) :=
  (Cert.KNet.hostOps5_keep (W11 (F := Ideal) m ρ c) main_v6 (by decide)).trans (st11_v6 m ρ c)
theorem st13_v6 : W13 (F := Ideal) m ρ c (Proc.devRef .tc main_v6) = W2 (F := Ideal) m ρ c (Proc.devRef .tc main_v6) :=
  (W13_of_ne m ρ c main_v6 (by decide)).trans (st12_v6 m ρ c)
theorem st3_v14 : W3 (F := Ideal) m ρ c (Proc.devRef .tc main_v14) = W2 (F := Ideal) m ρ c (Proc.devRef .tc main_v14) :=
  W3_of_ne m ρ c main_v14 (by decide)
theorem st4_v14 : W4 (F := Ideal) m ρ c (Proc.devRef .tc main_v14) = W2 (F := Ideal) m ρ c (Proc.devRef .tc main_v14) :=
  (Cert.KNet.hostOps1_keep (W3 (F := Ideal) m ρ c) main_v14 (by decide)).trans (st3_v14 m ρ c)
theorem st5_v14 : W5 (F := Ideal) m ρ c (Proc.devRef .tc main_v14) = W2 (F := Ideal) m ρ c (Proc.devRef .tc main_v14) :=
  (W5_of_ne m ρ c main_v14 (by decide)).trans (st4_v14 m ρ c)
theorem st6_v14 : W6 (F := Ideal) m ρ c (Proc.devRef .tc main_v14) = W2 (F := Ideal) m ρ c (Proc.devRef .tc main_v14) :=
  (Cert.KNet.hostOps2_keep (W5 (F := Ideal) m ρ c) main_v14 (by decide)).trans (st5_v14 m ρ c)
theorem st7_v14 : W7 (F := Ideal) m ρ c (Proc.devRef .tc main_v14) = W2 (F := Ideal) m ρ c (Proc.devRef .tc main_v14) :=
  (W7_of_ne m ρ c main_v14 (by decide)).trans (st6_v14 m ρ c)
theorem st8_v14 : W8 (F := Ideal) m ρ c (Proc.devRef .tc main_v14) = W2 (F := Ideal) m ρ c (Proc.devRef .tc main_v14) :=
  (Cert.KNet.hostOps3_keep (W7 (F := Ideal) m ρ c) main_v14 (by decide)).trans (st7_v14 m ρ c)
theorem st9_v14 : W9 (F := Ideal) m ρ c (Proc.devRef .tc main_v14) = W2 (F := Ideal) m ρ c (Proc.devRef .tc main_v14) :=
  (W9_of_ne m ρ c main_v14 (by decide)).trans (st8_v14 m ρ c)
theorem st10_v14 : W10 (F := Ideal) m ρ c (Proc.devRef .tc main_v14) = W2 (F := Ideal) m ρ c (Proc.devRef .tc main_v14) :=
  (Cert.KNet.hostOps4_keep (W9 (F := Ideal) m ρ c) main_v14 (by decide)).trans (st9_v14 m ρ c)
theorem st11_v14 : W11 (F := Ideal) m ρ c (Proc.devRef .tc main_v14) = W2 (F := Ideal) m ρ c (Proc.devRef .tc main_v14) :=
  (W11_of_ne m ρ c main_v14 (by decide)).trans (st10_v14 m ρ c)
theorem st12_v14 : W12 (F := Ideal) m ρ c (Proc.devRef .tc main_v14) = W2 (F := Ideal) m ρ c (Proc.devRef .tc main_v14) :=
  (Cert.KNet.hostOps5_keep (W11 (F := Ideal) m ρ c) main_v14 (by decide)).trans (st11_v14 m ρ c)
theorem st13_v14 : W13 (F := Ideal) m ρ c (Proc.devRef .tc main_v14) = W2 (F := Ideal) m ρ c (Proc.devRef .tc main_v14) :=
  (W13_of_ne m ρ c main_v14 (by decide)).trans (st12_v14 m ρ c)
theorem st3_arg3 : W3 (F := Ideal) m ρ c (Proc.devRef .tc main_arg3) = W2 (F := Ideal) m ρ c (Proc.devRef .tc main_arg3) :=
  W3_of_ne m ρ c main_arg3 (by decide)
theorem st3_arg4 : W3 (F := Ideal) m ρ c (Proc.devRef .tc main_arg4) = W2 (F := Ideal) m ρ c (Proc.devRef .tc main_arg4) :=
  W3_of_ne m ρ c main_arg4 (by decide)
theorem st4_arg4 : W4 (F := Ideal) m ρ c (Proc.devRef .tc main_arg4) = W2 (F := Ideal) m ρ c (Proc.devRef .tc main_arg4) :=
  (Cert.KNet.hostOps1_keep (W3 (F := Ideal) m ρ c) main_arg4 (by decide)).trans (st3_arg4 m ρ c)
theorem st3_arg5 : W3 (F := Ideal) m ρ c (Proc.devRef .tc main_arg5) = W2 (F := Ideal) m ρ c (Proc.devRef .tc main_arg5) :=
  W3_of_ne m ρ c main_arg5 (by decide)
theorem st4_arg5 : W4 (F := Ideal) m ρ c (Proc.devRef .tc main_arg5) = W2 (F := Ideal) m ρ c (Proc.devRef .tc main_arg5) :=
  (Cert.KNet.hostOps1_keep (W3 (F := Ideal) m ρ c) main_arg5 (by decide)).trans (st3_arg5 m ρ c)
theorem st5_arg5 : W5 (F := Ideal) m ρ c (Proc.devRef .tc main_arg5) = W2 (F := Ideal) m ρ c (Proc.devRef .tc main_arg5) :=
  (W5_of_ne m ρ c main_arg5 (by decide)).trans (st4_arg5 m ρ c)
theorem st3_arg6 : W3 (F := Ideal) m ρ c (Proc.devRef .tc main_arg6) = W2 (F := Ideal) m ρ c (Proc.devRef .tc main_arg6) :=
  W3_of_ne m ρ c main_arg6 (by decide)
theorem st4_arg6 : W4 (F := Ideal) m ρ c (Proc.devRef .tc main_arg6) = W2 (F := Ideal) m ρ c (Proc.devRef .tc main_arg6) :=
  (Cert.KNet.hostOps1_keep (W3 (F := Ideal) m ρ c) main_arg6 (by decide)).trans (st3_arg6 m ρ c)
theorem st5_arg6 : W5 (F := Ideal) m ρ c (Proc.devRef .tc main_arg6) = W2 (F := Ideal) m ρ c (Proc.devRef .tc main_arg6) :=
  (W5_of_ne m ρ c main_arg6 (by decide)).trans (st4_arg6 m ρ c)
theorem st6_arg6 : W6 (F := Ideal) m ρ c (Proc.devRef .tc main_arg6) = W2 (F := Ideal) m ρ c (Proc.devRef .tc main_arg6) :=
  (Cert.KNet.hostOps2_keep (W5 (F := Ideal) m ρ c) main_arg6 (by decide)).trans (st5_arg6 m ρ c)
theorem st3_arg7 : W3 (F := Ideal) m ρ c (Proc.devRef .tc main_arg7) = W2 (F := Ideal) m ρ c (Proc.devRef .tc main_arg7) :=
  W3_of_ne m ρ c main_arg7 (by decide)
theorem st4_arg7 : W4 (F := Ideal) m ρ c (Proc.devRef .tc main_arg7) = W2 (F := Ideal) m ρ c (Proc.devRef .tc main_arg7) :=
  (Cert.KNet.hostOps1_keep (W3 (F := Ideal) m ρ c) main_arg7 (by decide)).trans (st3_arg7 m ρ c)
theorem st5_arg7 : W5 (F := Ideal) m ρ c (Proc.devRef .tc main_arg7) = W2 (F := Ideal) m ρ c (Proc.devRef .tc main_arg7) :=
  (W5_of_ne m ρ c main_arg7 (by decide)).trans (st4_arg7 m ρ c)
theorem st6_arg7 : W6 (F := Ideal) m ρ c (Proc.devRef .tc main_arg7) = W2 (F := Ideal) m ρ c (Proc.devRef .tc main_arg7) :=
  (Cert.KNet.hostOps2_keep (W5 (F := Ideal) m ρ c) main_arg7 (by decide)).trans (st5_arg7 m ρ c)
theorem st7_arg7 : W7 (F := Ideal) m ρ c (Proc.devRef .tc main_arg7) = W2 (F := Ideal) m ρ c (Proc.devRef .tc main_arg7) :=
  (W7_of_ne m ρ c main_arg7 (by decide)).trans (st6_arg7 m ρ c)
theorem st3_arg8 : W3 (F := Ideal) m ρ c (Proc.devRef .tc main_arg8) = W2 (F := Ideal) m ρ c (Proc.devRef .tc main_arg8) :=
  W3_of_ne m ρ c main_arg8 (by decide)
theorem st4_arg8 : W4 (F := Ideal) m ρ c (Proc.devRef .tc main_arg8) = W2 (F := Ideal) m ρ c (Proc.devRef .tc main_arg8) :=
  (Cert.KNet.hostOps1_keep (W3 (F := Ideal) m ρ c) main_arg8 (by decide)).trans (st3_arg8 m ρ c)
theorem st5_arg8 : W5 (F := Ideal) m ρ c (Proc.devRef .tc main_arg8) = W2 (F := Ideal) m ρ c (Proc.devRef .tc main_arg8) :=
  (W5_of_ne m ρ c main_arg8 (by decide)).trans (st4_arg8 m ρ c)
theorem st6_arg8 : W6 (F := Ideal) m ρ c (Proc.devRef .tc main_arg8) = W2 (F := Ideal) m ρ c (Proc.devRef .tc main_arg8) :=
  (Cert.KNet.hostOps2_keep (W5 (F := Ideal) m ρ c) main_arg8 (by decide)).trans (st5_arg8 m ρ c)
theorem st7_arg8 : W7 (F := Ideal) m ρ c (Proc.devRef .tc main_arg8) = W2 (F := Ideal) m ρ c (Proc.devRef .tc main_arg8) :=
  (W7_of_ne m ρ c main_arg8 (by decide)).trans (st6_arg8 m ρ c)
theorem st8_arg8 : W8 (F := Ideal) m ρ c (Proc.devRef .tc main_arg8) = W2 (F := Ideal) m ρ c (Proc.devRef .tc main_arg8) :=
  (Cert.KNet.hostOps3_keep (W7 (F := Ideal) m ρ c) main_arg8 (by decide)).trans (st7_arg8 m ρ c)
theorem st3_arg9 : W3 (F := Ideal) m ρ c (Proc.devRef .tc main_arg9) = W2 (F := Ideal) m ρ c (Proc.devRef .tc main_arg9) :=
  W3_of_ne m ρ c main_arg9 (by decide)
theorem st4_arg9 : W4 (F := Ideal) m ρ c (Proc.devRef .tc main_arg9) = W2 (F := Ideal) m ρ c (Proc.devRef .tc main_arg9) :=
  (Cert.KNet.hostOps1_keep (W3 (F := Ideal) m ρ c) main_arg9 (by decide)).trans (st3_arg9 m ρ c)
theorem st5_arg9 : W5 (F := Ideal) m ρ c (Proc.devRef .tc main_arg9) = W2 (F := Ideal) m ρ c (Proc.devRef .tc main_arg9) :=
  (W5_of_ne m ρ c main_arg9 (by decide)).trans (st4_arg9 m ρ c)
theorem st6_arg9 : W6 (F := Ideal) m ρ c (Proc.devRef .tc main_arg9) = W2 (F := Ideal) m ρ c (Proc.devRef .tc main_arg9) :=
  (Cert.KNet.hostOps2_keep (W5 (F := Ideal) m ρ c) main_arg9 (by decide)).trans (st5_arg9 m ρ c)
theorem st7_arg9 : W7 (F := Ideal) m ρ c (Proc.devRef .tc main_arg9) = W2 (F := Ideal) m ρ c (Proc.devRef .tc main_arg9) :=
  (W7_of_ne m ρ c main_arg9 (by decide)).trans (st6_arg9 m ρ c)
theorem st8_arg9 : W8 (F := Ideal) m ρ c (Proc.devRef .tc main_arg9) = W2 (F := Ideal) m ρ c (Proc.devRef .tc main_arg9) :=
  (Cert.KNet.hostOps3_keep (W7 (F := Ideal) m ρ c) main_arg9 (by decide)).trans (st7_arg9 m ρ c)
theorem st9_arg9 : W9 (F := Ideal) m ρ c (Proc.devRef .tc main_arg9) = W2 (F := Ideal) m ρ c (Proc.devRef .tc main_arg9) :=
  (W9_of_ne m ρ c main_arg9 (by decide)).trans (st8_arg9 m ρ c)
theorem st3_arg10 : W3 (F := Ideal) m ρ c (Proc.devRef .tc main_arg10) = W2 (F := Ideal) m ρ c (Proc.devRef .tc main_arg10) :=
  W3_of_ne m ρ c main_arg10 (by decide)
theorem st4_arg10 : W4 (F := Ideal) m ρ c (Proc.devRef .tc main_arg10) = W2 (F := Ideal) m ρ c (Proc.devRef .tc main_arg10) :=
  (Cert.KNet.hostOps1_keep (W3 (F := Ideal) m ρ c) main_arg10 (by decide)).trans (st3_arg10 m ρ c)
theorem st5_arg10 : W5 (F := Ideal) m ρ c (Proc.devRef .tc main_arg10) = W2 (F := Ideal) m ρ c (Proc.devRef .tc main_arg10) :=
  (W5_of_ne m ρ c main_arg10 (by decide)).trans (st4_arg10 m ρ c)
theorem st6_arg10 : W6 (F := Ideal) m ρ c (Proc.devRef .tc main_arg10) = W2 (F := Ideal) m ρ c (Proc.devRef .tc main_arg10) :=
  (Cert.KNet.hostOps2_keep (W5 (F := Ideal) m ρ c) main_arg10 (by decide)).trans (st5_arg10 m ρ c)
theorem st7_arg10 : W7 (F := Ideal) m ρ c (Proc.devRef .tc main_arg10) = W2 (F := Ideal) m ρ c (Proc.devRef .tc main_arg10) :=
  (W7_of_ne m ρ c main_arg10 (by decide)).trans (st6_arg10 m ρ c)
theorem st8_arg10 : W8 (F := Ideal) m ρ c (Proc.devRef .tc main_arg10) = W2 (F := Ideal) m ρ c (Proc.devRef .tc main_arg10) :=
  (Cert.KNet.hostOps3_keep (W7 (F := Ideal) m ρ c) main_arg10 (by decide)).trans (st7_arg10 m ρ c)
theorem st9_arg10 : W9 (F := Ideal) m ρ c (Proc.devRef .tc main_arg10) = W2 (F := Ideal) m ρ c (Proc.devRef .tc main_arg10) :=
  (W9_of_ne m ρ c main_arg10 (by decide)).trans (st8_arg10 m ρ c)
theorem st10_arg10 : W10 (F := Ideal) m ρ c (Proc.devRef .tc main_arg10) = W2 (F := Ideal) m ρ c (Proc.devRef .tc main_arg10) :=
  (Cert.KNet.hostOps4_keep (W9 (F := Ideal) m ρ c) main_arg10 (by decide)).trans (st9_arg10 m ρ c)
theorem st3_arg11 : W3 (F := Ideal) m ρ c (Proc.devRef .tc main_arg11) = W2 (F := Ideal) m ρ c (Proc.devRef .tc main_arg11) :=
  W3_of_ne m ρ c main_arg11 (by decide)
theorem st4_arg11 : W4 (F := Ideal) m ρ c (Proc.devRef .tc main_arg11) = W2 (F := Ideal) m ρ c (Proc.devRef .tc main_arg11) :=
  (Cert.KNet.hostOps1_keep (W3 (F := Ideal) m ρ c) main_arg11 (by decide)).trans (st3_arg11 m ρ c)
theorem st5_arg11 : W5 (F := Ideal) m ρ c (Proc.devRef .tc main_arg11) = W2 (F := Ideal) m ρ c (Proc.devRef .tc main_arg11) :=
  (W5_of_ne m ρ c main_arg11 (by decide)).trans (st4_arg11 m ρ c)
theorem st6_arg11 : W6 (F := Ideal) m ρ c (Proc.devRef .tc main_arg11) = W2 (F := Ideal) m ρ c (Proc.devRef .tc main_arg11) :=
  (Cert.KNet.hostOps2_keep (W5 (F := Ideal) m ρ c) main_arg11 (by decide)).trans (st5_arg11 m ρ c)
theorem st7_arg11 : W7 (F := Ideal) m ρ c (Proc.devRef .tc main_arg11) = W2 (F := Ideal) m ρ c (Proc.devRef .tc main_arg11) :=
  (W7_of_ne m ρ c main_arg11 (by decide)).trans (st6_arg11 m ρ c)
theorem st8_arg11 : W8 (F := Ideal) m ρ c (Proc.devRef .tc main_arg11) = W2 (F := Ideal) m ρ c (Proc.devRef .tc main_arg11) :=
  (Cert.KNet.hostOps3_keep (W7 (F := Ideal) m ρ c) main_arg11 (by decide)).trans (st7_arg11 m ρ c)
theorem st9_arg11 : W9 (F := Ideal) m ρ c (Proc.devRef .tc main_arg11) = W2 (F := Ideal) m ρ c (Proc.devRef .tc main_arg11) :=
  (W9_of_ne m ρ c main_arg11 (by decide)).trans (st8_arg11 m ρ c)
theorem st10_arg11 : W10 (F := Ideal) m ρ c (Proc.devRef .tc main_arg11) = W2 (F := Ideal) m ρ c (Proc.devRef .tc main_arg11) :=
  (Cert.KNet.hostOps4_keep (W9 (F := Ideal) m ρ c) main_arg11 (by decide)).trans (st9_arg11 m ρ c)
theorem st11_arg11 : W11 (F := Ideal) m ρ c (Proc.devRef .tc main_arg11) = W2 (F := Ideal) m ρ c (Proc.devRef .tc main_arg11) :=
  (W11_of_ne m ρ c main_arg11 (by decide)).trans (st10_arg11 m ρ c)
theorem st3_arg12 : W3 (F := Ideal) m ρ c (Proc.devRef .tc main_arg12) = W2 (F := Ideal) m ρ c (Proc.devRef .tc main_arg12) :=
  W3_of_ne m ρ c main_arg12 (by decide)
theorem st4_arg12 : W4 (F := Ideal) m ρ c (Proc.devRef .tc main_arg12) = W2 (F := Ideal) m ρ c (Proc.devRef .tc main_arg12) :=
  (Cert.KNet.hostOps1_keep (W3 (F := Ideal) m ρ c) main_arg12 (by decide)).trans (st3_arg12 m ρ c)
theorem st5_arg12 : W5 (F := Ideal) m ρ c (Proc.devRef .tc main_arg12) = W2 (F := Ideal) m ρ c (Proc.devRef .tc main_arg12) :=
  (W5_of_ne m ρ c main_arg12 (by decide)).trans (st4_arg12 m ρ c)
theorem st6_arg12 : W6 (F := Ideal) m ρ c (Proc.devRef .tc main_arg12) = W2 (F := Ideal) m ρ c (Proc.devRef .tc main_arg12) :=
  (Cert.KNet.hostOps2_keep (W5 (F := Ideal) m ρ c) main_arg12 (by decide)).trans (st5_arg12 m ρ c)
theorem st7_arg12 : W7 (F := Ideal) m ρ c (Proc.devRef .tc main_arg12) = W2 (F := Ideal) m ρ c (Proc.devRef .tc main_arg12) :=
  (W7_of_ne m ρ c main_arg12 (by decide)).trans (st6_arg12 m ρ c)
theorem st8_arg12 : W8 (F := Ideal) m ρ c (Proc.devRef .tc main_arg12) = W2 (F := Ideal) m ρ c (Proc.devRef .tc main_arg12) :=
  (Cert.KNet.hostOps3_keep (W7 (F := Ideal) m ρ c) main_arg12 (by decide)).trans (st7_arg12 m ρ c)
theorem st9_arg12 : W9 (F := Ideal) m ρ c (Proc.devRef .tc main_arg12) = W2 (F := Ideal) m ρ c (Proc.devRef .tc main_arg12) :=
  (W9_of_ne m ρ c main_arg12 (by decide)).trans (st8_arg12 m ρ c)
theorem st10_arg12 : W10 (F := Ideal) m ρ c (Proc.devRef .tc main_arg12) = W2 (F := Ideal) m ρ c (Proc.devRef .tc main_arg12) :=
  (Cert.KNet.hostOps4_keep (W9 (F := Ideal) m ρ c) main_arg12 (by decide)).trans (st9_arg12 m ρ c)
theorem st11_arg12 : W11 (F := Ideal) m ρ c (Proc.devRef .tc main_arg12) = W2 (F := Ideal) m ρ c (Proc.devRef .tc main_arg12) :=
  (W11_of_ne m ρ c main_arg12 (by decide)).trans (st10_arg12 m ρ c)
theorem st12_arg12 : W12 (F := Ideal) m ρ c (Proc.devRef .tc main_arg12) = W2 (F := Ideal) m ρ c (Proc.devRef .tc main_arg12) :=
  (Cert.KNet.hostOps5_keep (W11 (F := Ideal) m ρ c) main_arg12 (by decide)).trans (st11_arg12 m ρ c)
theorem st3_arg13 : W3 (F := Ideal) m ρ c (Proc.devRef .tc main_arg13) = W2 (F := Ideal) m ρ c (Proc.devRef .tc main_arg13) :=
  W3_of_ne m ρ c main_arg13 (by decide)
theorem st4_arg13 : W4 (F := Ideal) m ρ c (Proc.devRef .tc main_arg13) = W2 (F := Ideal) m ρ c (Proc.devRef .tc main_arg13) :=
  (Cert.KNet.hostOps1_keep (W3 (F := Ideal) m ρ c) main_arg13 (by decide)).trans (st3_arg13 m ρ c)
theorem st5_arg13 : W5 (F := Ideal) m ρ c (Proc.devRef .tc main_arg13) = W2 (F := Ideal) m ρ c (Proc.devRef .tc main_arg13) :=
  (W5_of_ne m ρ c main_arg13 (by decide)).trans (st4_arg13 m ρ c)
theorem st6_arg13 : W6 (F := Ideal) m ρ c (Proc.devRef .tc main_arg13) = W2 (F := Ideal) m ρ c (Proc.devRef .tc main_arg13) :=
  (Cert.KNet.hostOps2_keep (W5 (F := Ideal) m ρ c) main_arg13 (by decide)).trans (st5_arg13 m ρ c)
theorem st7_arg13 : W7 (F := Ideal) m ρ c (Proc.devRef .tc main_arg13) = W2 (F := Ideal) m ρ c (Proc.devRef .tc main_arg13) :=
  (W7_of_ne m ρ c main_arg13 (by decide)).trans (st6_arg13 m ρ c)
theorem st8_arg13 : W8 (F := Ideal) m ρ c (Proc.devRef .tc main_arg13) = W2 (F := Ideal) m ρ c (Proc.devRef .tc main_arg13) :=
  (Cert.KNet.hostOps3_keep (W7 (F := Ideal) m ρ c) main_arg13 (by decide)).trans (st7_arg13 m ρ c)
theorem st9_arg13 : W9 (F := Ideal) m ρ c (Proc.devRef .tc main_arg13) = W2 (F := Ideal) m ρ c (Proc.devRef .tc main_arg13) :=
  (W9_of_ne m ρ c main_arg13 (by decide)).trans (st8_arg13 m ρ c)
theorem st10_arg13 : W10 (F := Ideal) m ρ c (Proc.devRef .tc main_arg13) = W2 (F := Ideal) m ρ c (Proc.devRef .tc main_arg13) :=
  (Cert.KNet.hostOps4_keep (W9 (F := Ideal) m ρ c) main_arg13 (by decide)).trans (st9_arg13 m ρ c)
theorem st11_arg13 : W11 (F := Ideal) m ρ c (Proc.devRef .tc main_arg13) = W2 (F := Ideal) m ρ c (Proc.devRef .tc main_arg13) :=
  (W11_of_ne m ρ c main_arg13 (by decide)).trans (st10_arg13 m ρ c)
theorem st12_arg13 : W12 (F := Ideal) m ρ c (Proc.devRef .tc main_arg13) = W2 (F := Ideal) m ρ c (Proc.devRef .tc main_arg13) :=
  (Cert.KNet.hostOps5_keep (W11 (F := Ideal) m ρ c) main_arg13 (by decide)).trans (st11_arg13 m ρ c)
theorem st13_arg13 : W13 (F := Ideal) m ρ c (Proc.devRef .tc main_arg13) = W2 (F := Ideal) m ρ c (Proc.devRef .tc main_arg13) :=
  (W13_of_ne m ρ c main_arg13 (by decide)).trans (st12_arg13 m ρ c)

/-! ## The boundaries, first to last -/

/-- The result array at the last boundary is the whole network of the arguments and the graph's three arrays as the
    first region finds them. -/
theorem result_eq : W14 (F := Ideal) m ρ c (Proc.devRef .tc main_v124)
    = Cert.KNet.kNet (W2 (F := Ideal) m ρ c (Proc.devRef .tc main_arg0)) (W2 (F := Ideal) m ρ c (Proc.devRef .tc main_v3)) (W2 (F := Ideal) m ρ c (Proc.devRef .tc main_v6)) (W2 (F := Ideal) m ρ c (Proc.devRef .tc main_v14)) (W2 (F := Ideal) m ρ c (Proc.devRef .tc main_arg2)) (W2 (F := Ideal) m ρ c (Proc.devRef .tc main_arg3)) (W2 (F := Ideal) m ρ c (Proc.devRef .tc main_arg4)) (W2 (F := Ideal) m ρ c (Proc.devRef .tc main_arg5)) (W2 (F := Ideal) m ρ c (Proc.devRef .tc main_arg6)) (W2 (F := Ideal) m ρ c (Proc.devRef .tc main_arg7)) (W2 (F := Ideal) m ρ c (Proc.devRef .tc main_arg8)) (W2 (F := Ideal) m ρ c (Proc.devRef .tc main_arg9)) (W2 (F := Ideal) m ρ c (Proc.devRef .tc main_arg10)) (W2 (F := Ideal) m ρ c (Proc.devRef .tc main_arg11)) (W2 (F := Ideal) m ρ c (Proc.devRef .tc main_arg12)) (W2 (F := Ideal) m ρ c (Proc.devRef .tc main_arg13)) := by
  have e3 : W3 (F := Ideal) m ρ c (Proc.devRef .tc main_v15) = Cert.Spec.dense0 (W2 (F := Ideal) m ρ c (Proc.devRef .tc main_arg0)) (W2 (F := Ideal) m ρ c (Proc.devRef .tc main_arg2)) :=
    (W3_arr m ρ c 2).trans (Cert.KRegions.final0 (V2 m ρ) c)
  have a1 : W4 (F := Ideal) m ρ c (Proc.devRef .tc main_v31) = Cert.KNet.agg64 (W3 (F := Ideal) m ρ c (Proc.devRef .tc main_v15)) (W2 (F := Ideal) m ρ c (Proc.devRef .tc main_v3)) (W2 (F := Ideal) m ρ c (Proc.devRef .tc main_v6)) (W2 (F := Ideal) m ρ c (Proc.devRef .tc main_v14)) := by
    rw [← st3_v3 m ρ c, ← st3_v6 m ρ c, ← st3_v14 m ρ c]; exact Cert.KNet.stretch1_agg (W3 (F := Ideal) m ρ c)
  have b1 : W4 (F := Ideal) m ρ c (Proc.devRef .tc main_v32) = Cert.KNet.biasRow (W2 (F := Ideal) m ρ c (Proc.devRef .tc main_arg3)) := by
    rw [← st3_arg3 m ρ c]; exact Cert.KNet.stretch1_bias (W3 (F := Ideal) m ρ c)
  have e5 : W5 (F := Ideal) m ρ c (Proc.devRef .tc main_v33) = Cert.Spec.denseAct 64 (W4 (F := Ideal) m ρ c (Proc.devRef .tc main_v31)) (W4 (F := Ideal) m ρ c (Proc.devRef .tc main_v32)) (W2 (F := Ideal) m ρ c (Proc.devRef .tc main_arg4)) := by
    rw [← st4_arg4 m ρ c]; exact (W5_arr m ρ c 3).trans (Cert.KRegions.final1 (V4 m ρ) c)
  have a2 : W6 (F := Ideal) m ρ c (Proc.devRef .tc main_v49) = Cert.KNet.agg64 (W5 (F := Ideal) m ρ c (Proc.devRef .tc main_v33)) (W2 (F := Ideal) m ρ c (Proc.devRef .tc main_v3)) (W2 (F := Ideal) m ρ c (Proc.devRef .tc main_v6)) (W2 (F := Ideal) m ρ c (Proc.devRef .tc main_v14)) := by
    rw [← st5_v3 m ρ c, ← st5_v6 m ρ c, ← st5_v14 m ρ c]; exact Cert.KNet.stretch2_agg (W5 (F := Ideal) m ρ c)
  have b2 : W6 (F := Ideal) m ρ c (Proc.devRef .tc main_v50) = Cert.KNet.biasRow (W2 (F := Ideal) m ρ c (Proc.devRef .tc main_arg5)) := by
    rw [← st5_arg5 m ρ c]; exact Cert.KNet.stretch2_bias (W5 (F := Ideal) m ρ c)
  have e7 : W7 (F := Ideal) m ρ c (Proc.devRef .tc main_v51) = Cert.Spec.denseAct 64 (W6 (F := Ideal) m ρ c (Proc.devRef .tc main_v49)) (W6 (F := Ideal) m ρ c (Proc.devRef .tc main_v50)) (W2 (F := Ideal) m ρ c (Proc.devRef .tc main_arg6)) := by
    rw [← st6_arg6 m ρ c]; exact (W7_arr m ρ c 3).trans (Cert.KRegions.final2 (V6 m ρ) c)
  have a3 : W8 (F := Ideal) m ρ c (Proc.devRef .tc main_v67) = Cert.KNet.agg64 (W7 (F := Ideal) m ρ c (Proc.devRef .tc main_v51)) (W2 (F := Ideal) m ρ c (Proc.devRef .tc main_v3)) (W2 (F := Ideal) m ρ c (Proc.devRef .tc main_v6)) (W2 (F := Ideal) m ρ c (Proc.devRef .tc main_v14)) := by
    rw [← st7_v3 m ρ c, ← st7_v6 m ρ c, ← st7_v14 m ρ c]; exact Cert.KNet.stretch3_agg (W7 (F := Ideal) m ρ c)
  have b3 : W8 (F := Ideal) m ρ c (Proc.devRef .tc main_v68) = Cert.KNet.biasRow (W2 (F := Ideal) m ρ c (Proc.devRef .tc main_arg7)) := by
    rw [← st7_arg7 m ρ c]; exact Cert.KNet.stretch3_bias (W7 (F := Ideal) m ρ c)
  have e9 : W9 (F := Ideal) m ρ c (Proc.devRef .tc main_v69) = Cert.Spec.denseAct 64 (W8 (F := Ideal) m ρ c (Proc.devRef .tc main_v67)) (W8 (F := Ideal) m ρ c (Proc.devRef .tc main_v68)) (W2 (F := Ideal) m ρ c (Proc.devRef .tc main_arg8)) := by
    rw [← st8_arg8 m ρ c]; exact (W9_arr m ρ c 3).trans (Cert.KRegions.final3 (V8 m ρ) c)
  have a4 : W10 (F := Ideal) m ρ c (Proc.devRef .tc main_v85) = Cert.KNet.agg64 (W9 (F := Ideal) m ρ c (Proc.devRef .tc main_v69)) (W2 (F := Ideal) m ρ c (Proc.devRef .tc main_v3)) (W2 (F := Ideal) m ρ c (Proc.devRef .tc main_v6)) (W2 (F := Ideal) m ρ c (Proc.devRef .tc main_v14)) := by
    rw [← st9_v3 m ρ c, ← st9_v6 m ρ c, ← st9_v14 m ρ c]; exact Cert.KNet.stretch4_agg (W9 (F := Ideal) m ρ c)
  have b4 : W10 (F := Ideal) m ρ c (Proc.devRef .tc main_v86) = Cert.KNet.biasRow (W2 (F := Ideal) m ρ c (Proc.devRef .tc main_arg9)) := by
    rw [← st9_arg9 m ρ c]; exact Cert.KNet.stretch4_bias (W9 (F := Ideal) m ρ c)
  have e11 : W11 (F := Ideal) m ρ c (Proc.devRef .tc main_v87) = Cert.Spec.denseAct 64 (W10 (F := Ideal) m ρ c (Proc.devRef .tc main_v85)) (W10 (F := Ideal) m ρ c (Proc.devRef .tc main_v86)) (W2 (F := Ideal) m ρ c (Proc.devRef .tc main_arg10)) := by
    rw [← st10_arg10 m ρ c]; exact (W11_arr m ρ c 3).trans (Cert.KRegions.final4 (V10 m ρ) c)
  have a5 : W12 (F := Ideal) m ρ c (Proc.devRef .tc main_v103) = Cert.KNet.agg64 (W11 (F := Ideal) m ρ c (Proc.devRef .tc main_v87)) (W2 (F := Ideal) m ρ c (Proc.devRef .tc main_v3)) (W2 (F := Ideal) m ρ c (Proc.devRef .tc main_v6)) (W2 (F := Ideal) m ρ c (Proc.devRef .tc main_v14)) := by
    rw [← st11_v3 m ρ c, ← st11_v6 m ρ c, ← st11_v14 m ρ c]; exact Cert.KNet.stretch5_agg (W11 (F := Ideal) m ρ c)
  have b5 : W12 (F := Ideal) m ρ c (Proc.devRef .tc main_v104) = Cert.KNet.biasRow (W2 (F := Ideal) m ρ c (Proc.devRef .tc main_arg11)) := by
    rw [← st11_arg11 m ρ c]; exact Cert.KNet.stretch5_bias (W11 (F := Ideal) m ρ c)
  have e13 : W13 (F := Ideal) m ρ c (Proc.devRef .tc main_v105) = Cert.Spec.denseAct 4 (W12 (F := Ideal) m ρ c (Proc.devRef .tc main_v103)) (W12 (F := Ideal) m ρ c (Proc.devRef .tc main_v104)) (W2 (F := Ideal) m ρ c (Proc.devRef .tc main_arg12)) := by
    rw [← st12_arg12 m ρ c]; exact (W13_arr m ρ c 3).trans (Cert.KRegions.final5 (V12 m ρ) c)
  have e14 : W14 (F := Ideal) m ρ c (Proc.devRef .tc main_v124) = addf (Cert.KNet.agg4 (W13 (F := Ideal) m ρ c (Proc.devRef .tc main_v105)) (W2 (F := Ideal) m ρ c (Proc.devRef .tc main_v3)) (W2 (F := Ideal) m ρ c (Proc.devRef .tc main_v6)) (W2 (F := Ideal) m ρ c (Proc.devRef .tc main_v14))) (Cert.KNet.biasAll4 (W2 (F := Ideal) m ρ c (Proc.devRef .tc main_arg13))) := by
    rw [← st13_v3 m ρ c, ← st13_v6 m ρ c, ← st13_v14 m ρ c, ← st13_arg13 m ρ c]; exact Cert.KNet.stretch6_out (W13 (F := Ideal) m ρ c)
  unfold Cert.KNet.kNet
  rw [e14, e13, a5, b5, e11, a4, b4, e9, a3, b3, e7, a2, b2, e5, a1, b1, e3]

end Cert.KChain

end
-- ==== Proof.KGraph.lean ====
/-
  What the graph preparation leaves when the first dense layer is entered.

  Before the first layer the program computes, from the edge list alone, the two endpoint lists with one self loop per
  node appended, and each node's normalisation factor: the reciprocal square root of its degree where the degree is
  positive, zero elsewhere. These are the same operations, in the same order, as the reference's first stages, so
  each buffer holds the reference's stage of the same edge list. No argument of the program is written.
-/
import proofs.«171207_j26164940767513_2_alg».proof.Proof.Gen.KernelIdeal.Frame
import proofs.«171207_j26164940767513_2_alg».proof.Proof.KNet
import proofs.«171207_j26164940767513_2_alg».proof.Proof.RefStages

noncomputable section

namespace Cert.KGraph

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments are as launched -/

theorem W2_arg0 : W2 (F := Ideal) m ρ c (Proc.devRef .tc main_arg0) = m ((c.tc : Thread nD τ).loc main_arg0) :=
  (Cert.KNet.hostOps0_1_keep (W1 (F := Ideal) m ρ c) main_arg0 (by decide)).trans
    ((Cert.KNet.hostOps0_keep (W0 (F := Ideal) m ρ c) main_arg0 (by decide)).trans rfl)

theorem W2_arg2 : W2 (F := Ideal) m ρ c (Proc.devRef .tc main_arg2) = m ((c.tc : Thread nD τ).loc main_arg2) :=
  (Cert.KNet.hostOps0_1_keep (W1 (F := Ideal) m ρ c) main_arg2 (by decide)).trans
    ((Cert.KNet.hostOps0_keep (W0 (F := Ideal) m ρ c) main_arg2 (by decide)).trans rfl)

theorem W2_arg3 : W2 (F := Ideal) m ρ c (Proc.devRef .tc main_arg3) = m ((c.tc : Thread nD τ).loc main_arg3) :=
  (Cert.KNet.hostOps0_1_keep (W1 (F := Ideal) m ρ c) main_arg3 (by decide)).trans
    ((Cert.KNet.hostOps0_keep (W0 (F := Ideal) m ρ c) main_arg3 (by decide)).trans rfl)

theorem W2_arg4 : W2 (F := Ideal) m ρ c (Proc.devRef .tc main_arg4) = m ((c.tc : Thread nD τ).loc main_arg4) :=
  (Cert.KNet.hostOps0_1_keep (W1 (F := Ideal) m ρ c) main_arg4 (by decide)).trans
    ((Cert.KNet.hostOps0_keep (W0 (F := Ideal) m ρ c) main_arg4 (by decide)).trans rfl)

theorem W2_arg5 : W2 (F := Ideal) m ρ c (Proc.devRef .tc main_arg5) = m ((c.tc : Thread nD τ).loc main_arg5) :=
  (Cert.KNet.hostOps0_1_keep (W1 (F := Ideal) m ρ c) main_arg5 (by decide)).trans
    ((Cert.KNet.hostOps0_keep (W0 (F := Ideal) m ρ c) main_arg5 (by decide)).trans rfl)

theorem W2_arg6 : W2 (F := Ideal) m ρ c (Proc.devRef .tc main_arg6) = m ((c.tc : Thread nD τ).loc main_arg6) :=
  (Cert.KNet.hostOps0_1_keep (W1 (F := Ideal) m ρ c) main_arg6 (by decide)).trans
    ((Cert.KNet.hostOps0_keep (W0 (F := Ideal) m ρ c) main_arg6 (by decide)).trans rfl)

theorem W2_arg7 : W2 (F := Ideal) m ρ c (Proc.devRef .tc main_arg7) = m ((c.tc : Thread nD τ).loc main_arg7) :=
  (Cert.KNet.hostOps0_1_keep (W1 (F := Ideal) m ρ c) main_arg7 (by decide)).trans
    ((Cert.KNet.hostOps0_keep (W0 (F := Ideal) m ρ c) main_arg7 (by decide)).trans rfl)

theorem W2_arg8 : W2 (F := Ideal) m ρ c (Proc.devRef .tc main_arg8) = m ((c.tc : Thread nD τ).loc main_arg8) :=
  (Cert.KNet.hostOps0_1_keep (W1 (F := Ideal) m ρ c) main_arg8 (by decide)).trans
    ((Cert.KNet.hostOps0_keep (W0 (F := Ideal) m ρ c) main_arg8 (by decide)).trans rfl)

theorem W2_arg9 : W2 (F := Ideal) m ρ c (Proc.devRef .tc main_arg9) = m ((c.tc : Thread nD τ).loc main_arg9) :=
  (Cert.KNet.hostOps0_1_keep (W1 (F := Ideal) m ρ c) main_arg9 (by decide)).trans
    ((Cert.KNet.hostOps0_keep (W0 (F := Ideal) m ρ c) main_arg9 (by decide)).trans rfl)

theorem W2_arg10 : W2 (F := Ideal) m ρ c (Proc.devRef .tc main_arg10) = m ((c.tc : Thread nD τ).loc main_arg10) :=
  (Cert.KNet.hostOps0_1_keep (W1 (F := Ideal) m ρ c) main_arg10 (by decide)).trans
    ((Cert.KNet.hostOps0_keep (W0 (F := Ideal) m ρ c) main_arg10 (by decide)).trans rfl)

theorem W2_arg11 : W2 (F := Ideal) m ρ c (Proc.devRef .tc main_arg11) = m ((c.tc : Thread nD τ).loc main_arg11) :=
  (Cert.KNet.hostOps0_1_keep (W1 (F := Ideal) m ρ c) main_arg11 (by decide)).trans
    ((Cert.KNet.hostOps0_keep (W0 (F := Ideal) m ρ c) main_arg11 (by decide)).trans rfl)

theorem W2_arg12 : W2 (F := Ideal) m ρ c (Proc.devRef .tc main_arg12) = m ((c.tc : Thread nD τ).loc main_arg12) :=
  (Cert.KNet.hostOps0_1_keep (W1 (F := Ideal) m ρ c) main_arg12 (by decide)).trans
    ((Cert.KNet.hostOps0_keep (W0 (F := Ideal) m ρ c) main_arg12 (by decide)).trans rfl)

theorem W2_arg13 : W2 (F := Ideal) m ρ c (Proc.devRef .tc main_arg13) = m ((c.tc : Thread nD τ).loc main_arg13) :=
  (Cert.KNet.hostOps0_1_keep (W1 (F := Ideal) m ρ c) main_arg13 (by decide)).trans
    ((Cert.KNet.hostOps0_keep (W0 (F := Ideal) m ρ c) main_arg13 (by decide)).trans rfl)

/-! ## The endpoint lists and the normalisation factor -/

set_option maxHeartbeats 4000000 in
/-- The source endpoints, one self loop per node appended. -/
theorem W2_v3 : W2 (F := Ideal) m ρ c (Proc.devRef .tc main_v3)
    = Cert.ReferenceIdeal.ReadP.val_main_v3 (F := Ideal) (m ((c.tc : Thread nD τ).loc main_arg1)) := by
  refine (Cert.KNet.hostOps0_1_keep (W1 (F := Ideal) m ρ c) main_v3 (by decide)).trans ?_
  show StableHlo.after (hostOps0 (F := Ideal)) (W0 m ρ c) (Proc.devRef .tc main_v3) = _
  after_results_simp <;> rfl

set_option maxHeartbeats 4000000 in
/-- The target endpoints, one self loop per node appended. -/
theorem W2_v6 : W2 (F := Ideal) m ρ c (Proc.devRef .tc main_v6)
    = Cert.ReferenceIdeal.ReadP.val_main_v6 (F := Ideal) (m ((c.tc : Thread nD τ).loc main_arg1)) := by
  refine (Cert.KNet.hostOps0_1_keep (W1 (F := Ideal) m ρ c) main_v6 (by decide)).trans ?_
  show StableHlo.after (hostOps0 (F := Ideal)) (W0 m ρ c) (Proc.devRef .tc main_v6) = _
  after_results_simp <;> rfl

set_option maxHeartbeats 4000000 in
/-- Each node's normalisation factor: the reciprocal square root of its degree where that is positive, zero elsewhere. -/
theorem W2_v14 : W2 (F := Ideal) m ρ c (Proc.devRef .tc main_v14)
    = Cert.ReferenceIdeal.ReadP.val_main_v14 (F := Ideal) (m ((c.tc : Thread nD τ).loc main_arg1)) := by
  show StableHlo.after (hostOps0_1 (F := Ideal)) (StableHlo.after (hostOps0 (F := Ideal)) (W0 m ρ c)) (Proc.devRef .tc main_v14) = _
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  unfold Cert.ReferenceIdeal.ReadP.val_main_v14 Cert.ReferenceIdeal.ReadP.val_main_v12 Cert.ReferenceIdeal.ReadP.val_main_v13
    Cert.ReferenceIdeal.ReadP.val_main_call0_v1 Cert.ReferenceIdeal.ReadP.val_main_call0_v0 Cert.ReferenceIdeal.ReadP.val_main_cst_2
    Cert.ReferenceIdeal.ReadP.val_main_v10 Cert.ReferenceIdeal.ReadP.val_main_v11 Cert.ReferenceIdeal.ReadP.val_main_cst_1
    Cert.ReferenceIdeal.ReadP.val_main_v8 Cert.ReferenceIdeal.ReadP.val_main_cst_0 Cert.ReferenceIdeal.ReadP.val_main_v9
    Cert.ReferenceIdeal.ReadP.val_main_v6 Cert.ReferenceIdeal.ReadP.val_main_v5 Cert.ReferenceIdeal.ReadP.val_main_v4
    Cert.ReferenceIdeal.ReadP.val_main_v0 Cert.ReferenceIdeal.ReadP.val_main_v7 Cert.ReferenceIdeal.ReadP.val_main_cst
  have hx : W0 (F := Ideal) m ρ c (Proc.devRef .tc main_arg1) = m ((c.tc : Thread nD τ).loc main_arg1) := rfl
  rw [hx]
  generalize m ((c.tc : Thread nD τ).loc main_arg1) = x
  -- a value moved to or from its buffer's own type is unchanged: the two types are the same
  rw [show ∀ v, (TRef.of (T := ⟨S100000, .f32⟩) main_v14).toBuf (Val := Elt Ideal) v = v from fun _ => rfl,
    show ∀ v, (TRef.of (T := ⟨S100000, .i1⟩) main_v12).ofBuf (Val := Elt Ideal) v = v from fun _ => rfl,
    show ∀ v, (TRef.of (T := ⟨S100000, .f32⟩) main_v13).ofBuf (Val := Elt Ideal) v = v from fun _ => rfl,
    show ∀ v, (TRef.of (T := ⟨S100000, .f32⟩) main_call0_v1).toBuf (Val := Elt Ideal) v = v from fun _ => rfl,
    show ∀ v, (TRef.of (T := ⟨S100000, .f32⟩) main_call0_v1).ofBuf (Val := Elt Ideal) v = v from fun _ => rfl,
    show ∀ v, (TRef.of (T := ⟨S_, .f32⟩) main_call0_v0).toBuf (Val := Elt Ideal) v = v from fun _ => rfl,
    show ∀ v, (TRef.of (T := ⟨S_, .f32⟩) main_call0_v0).ofBuf (Val := Elt Ideal) v = v from fun _ => rfl,
    show ∀ v, (TRef.of (T := ⟨S_, .f32⟩) main_cst_2).ofBuf (Val := Elt Ideal) v = v from fun _ => rfl]
  rfl

end Cert.KGraph

end
-- ==== Proof.LibEdgeReads.lean ====
/-
  GENERAL LEMMAS: the three host operations of a message-passing layer, READ AT AN INDEX.

  A layer that sends a message along every edge of a graph with N nodes and E edges, features of width C, reads its
  node arrays through a column  idx : [E, 1]  of node numbers (one per edge) and writes its messages back through such
  a column. For ANY extents N, E, C, any index width w and any element type:

  * ROW GATHER  h[idx]  of  h : [N, C]  (stablehlo.gather with offset_dims [1], collapsed_slice_dims [0],
    start_index_map [0], index_vector_dim 1, slice_sizes [1, C]): result entry (e, f) is h at row
    min (idx[e, 0] read signed).toNat (N − 1)  and column f. On operand axis 0 the slice has size 1, so the start
    index is clamped into [0, N − 1], and the axis is collapsed, so nothing is added to it; operand axis 1 is not in
    the start index map, so its start is 0, and it is the one offset axis, read by result axis 1.
  * ELEMENT GATHER  v[idx]  of  v : [N]  (offset_dims [], collapsed_slice_dims [0], start_index_map [0],
    index_vector_dim 1, slice_sizes [1]): result entry e is v at that same clamped row.
  * ROW SCATTER into an [N, C] operand from updates [E, C] (update_window_dims [1], inserted_window_dims [0],
    scatter_dims_to_operand_dims [0], index_vector_dim 1): when update index j lands on operand index i, then
    idx[j 0, 0] read signed IS i 0 — a scatter index is not clamped; an update whose row leaves the operand is
    dropped — and the columns agree, j 1 = i 1: operand axis 0 is inserted (window coordinate 0) and is the axis the
    scatter index names; operand axis 1 is the one window axis (start 0), read by update axis 1.

  In each case the start-indices index the operation reads for edge e is (e, 0): result (update) axis 0 is the one
  batch (scatter) axis and reads start-indices axis 0; axis 1 of the start indices is the index vector's, of size 1.
  Nothing here enumerates an axis: every step is over the variables N, E, C, coordinates by the axis literal.
-/
import Idealize.ShloMosaic.Lib.ValueIdx

noncomputable section

namespace Cert.LibEdgeReads

open Idealize.ShloMosaic Idealize.ShloMosaic.ValueIdx

/-! ## Row gather `h[idx]` of an `[N, C]` operand at an `[E, 1]` column of start indices -/

section RowGather
variable {α : Type}

/-- The dimension numbers of a row gather: operand `[N, C]`, start indices `[E, 1]`, result `[E, C]`; their
    conditions `wf` are decided on a program's literal shapes. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at row `idx[e, 0]`, read signed and clamped into `[0, N − 1]`, and
    column `f`. -/
theorem gather_rows_apply {N E C w : ℕ} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = rowGatherDims N E C wf)
    (x : (⟨2, ![N, C]⟩ : Shape).Idx → α) (idx : IVec ⟨2, ![E, 1]⟩ w) (e : Fin E) (f : Fin C) :
    Host.gather d x idx (ix2 e f)
      = x (ix2 ⟨min (idx (ix2 e (0 : Fin 1))).toInt.toNat (N - 1), by omega⟩ f) := by
  subst hd
  unfold Host.gather
  congr 1
  funext a
  refine Fin.ext ?_
  match a with
  | ⟨0, _⟩ =>
    -- axis 0: the clamped start index; no batching coordinate, and no offset (the axis is collapsed)
    show (rowGatherDims N E C wf).start (ix2 e f) idx 0 + (rowGatherDims N E C wf).batchCoord (ix2 e f) 0
      + (rowGatherDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e f) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: start 0 (not in the start index map), no batching coordinate; the offset is result coordinate 1
    show (rowGatherDims N E C wf).start (ix2 e f) idx 1 + (rowGatherDims N E C wf).batchCoord (ix2 e f) 1
      + (rowGatherDims N E C wf).offCoord (ix2 e f) 1 = f.val
    rw [GatherDims.batchCoord_eq_zero _ _ _ List.not_mem_nil]
    have hst : (rowGatherDims N E C wf).start (ix2 e f) idx 1 = 0 := by
      unfold GatherDims.start
      rw [dif_neg (fun h => absurd (List.mem_singleton.mp h) (by decide : (1 : Fin 2) ≠ 0))]
    rw [hst]
    simp only [Nat.add_zero, Nat.zero_add]
    have hk : (1 : Fin 2) ∈ (rowGatherDims N E C wf).sKept :=
      (GatherDims.mem_sKept _ _).mpr ⟨fun h => absurd (List.mem_singleton.mp h) (by decide : (1 : Fin 2) ≠ 0), List.not_mem_nil⟩
    unfold GatherDims.offCoord
    rw [dif_pos hk]
    rfl

end RowGather

/-! ## Element gather `v[idx]` of an `[N]` operand at an `[E, 1]` column of start indices -/

section EltGather
variable {α : Type}

/-- The dimension numbers of an element gather: operand `[N]`, start indices `[E, 1]`, result `[E]`. -/
abbrev eltGatherDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at `idx[e, 0]`, read signed and clamped into `[0, N − 1]`. -/
theorem gather_elts_apply {N E w : ℕ} (hN : 0 < N)
    (wf : GatherDims.WF ⟨1, ![N]⟩ ⟨2, ![E, 1]⟩ ⟨1, ![E]⟩ [] [0] [] [0] [] 1 ![1])
    (d : GatherDims ⟨1, ![N]⟩ ⟨2, ![E, 1]⟩ ⟨1, ![E]⟩) (hd : d = eltGatherDims N E wf)
    (v : (⟨1, ![N]⟩ : Shape).Idx → α) (idx : IVec ⟨2, ![E, 1]⟩ w) (e : Fin E) :
    Host.gather d v idx (ix1 e)
      = v (ix1 ⟨min (idx (ix2 e (0 : Fin 1))).toInt.toNat (N - 1), by omega⟩) := by
  subst hd
  unfold Host.gather
  congr 1
  funext a
  obtain rfl : a = 0 := Subsingleton.elim _ _
  refine Fin.ext ?_
  show (eltGatherDims N E wf).start (ix1 e) idx 0 + (eltGatherDims N E wf).batchCoord (ix1 e) 0
    + (eltGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N E wf).startIndexMap from List.mem_singleton.mpr rfl)]
  have hsi : (eltGatherDims N E wf).siIdx (ix1 e) ⟨List.idxOf (0 : Fin 1) (eltGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EltGather

/-! ## Row scatter into an `[N, C]` operand from `[E, C]` updates at an `[E, 1]` column of scatter indices -/

section RowScatter

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- WHERE AN UPDATE LANDS: if update index `j` lands on operand index `i`, its scatter index `idx[j 0, 0]`, read
    signed (not clamped), is the row `i 0`, and the columns agree. -/
theorem scatter_rows_lands {N E C w : ℕ}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatterDims N E C wf)
    (idx : IVec ⟨2, ![E, 1]⟩ w) (j : (⟨2, ![E, C]⟩ : Shape).Idx) (i : (⟨2, ![N, C]⟩ : Shape).Idx)
    (h : d.resultIdx? j idx = some i) :
    (idx (ix2 (j 0) (0 : Fin 1))).toInt = ((i 0).val : ℤ) ∧ (j 1).val = (i 1).val := by
  subst hd
  have h0 : (0 : Fin 2) ∈ (rowScatterDims N E C wf).scatterDimsToOperandDims := List.mem_singleton.mpr rfl
  have hst0 : (rowScatterDims N E C wf).start j idx 0 = (idx (ix2 (j 0) (0 : Fin 1))).toInt := by
    unfold ScatterDims.start
    rw [dif_pos h0]
    have hsi : (rowScatterDims N E C wf).siIdx j ⟨List.idxOf (0 : Fin 2) (rowScatterDims N E C wf).scatterDimsToOperandDims,
        List.idxOf_lt_length_iff.2 h0⟩ = ix2 (j 0) (0 : Fin 1) := by
      funext b; refine Fin.ext ?_
      match b with
      | ⟨0, _⟩ => rfl
      | ⟨1, _⟩ => rfl
    rw [hsi]
    rfl
  have hst1 : (rowScatterDims N E C wf).start j idx 1 = 0 := by
    unfold ScatterDims.start
    rw [dif_neg (fun hm => absurd (List.mem_singleton.mp hm) (by decide : (1 : Fin 2) ≠ 0))]
  have hw0 : (rowScatterDims N E C wf).window j 0 = 0 := by
    unfold ScatterDims.window
    rw [dif_neg (fun hm => by
      have := (List.mem_filter.mp hm).2
      simp at this)]
  have hw1 : (rowScatterDims N E C wf).window j 1 = (j 1).val := by
    unfold ScatterDims.window
    rw [dif_pos (show (1 : Fin 2) ∈ (rowScatterDims N E C wf).sKept from
      List.mem_filter.mpr ⟨List.mem_finRange _, by simp⟩)]
    rfl
  -- landing inside the operand: i is start + window on each axis, a natural number there
  unfold ScatterDims.resultIdx? at h
  split at h
  · rename_i hin
    have hi := Option.some.inj h
    subst hi
    have a0 := hin 0
    have a1 := hin 1
    rw [hst0, hw0] at a0
    constructor
    · show _ = (((rowScatterDims N E C wf).start j idx 0 + ((rowScatterDims N E C wf).window j 0 : ℕ)).toNat : ℤ)
      rw [hst0, hw0]
      omega
    · show _ = ((rowScatterDims N E C wf).start j idx 1 + ((rowScatterDims N E C wf).window j 1 : ℕ)).toNat
      rw [hst1, hw1]
      omega
  · exact absurd h (by simp)

end RowScatter

end Cert.LibEdgeReads

end
-- ==== Proof.LibScaledAggregate.lean ====
/-
  GENERAL LEMMA: a per-node scaling of a message-passing layer's aggregation MOVES ONTO THE EDGES.

  In a layer over a graph with N nodes and E edges, features of width C, every edge e carries the row of its source
  node  src e  to its destination node  dst e, where the rows that arrive are added up: a row gather  H[src]  followed
  by an accumulating row scatter, from zero, through the column  dst. Let  s : [N]  be a per-node factor. Scaling the
  rows per SOURCE node before they travel and the sum per DESTINATION node after it,

      s p · Σ_{e : dst e = p}  H[src e, q] · s[src e],

  is the same as scattering the unscaled rows, each multiplied by its edge's weight  s[src e] · s[dst e]:

      Σ_{e : dst e = p}  H[src e, q] · (s[src e] · s[dst e]).

  Here  s[dst e]  is itself gathered, through a second column  dwrap  that agrees with the scatter's column  dcol
  wherever the scatter's index is in range [0, N) — which is every edge that contributes: a scatter index is not
  clamped, an update whose row leaves the operand is dropped, so for a contributing edge  dcol e = p  exactly, the
  gather of  s  at  dwrap e = dcol e  is not clamped either, and it reads  s p.

  On the extended reals this needs only that every  s i  is a nonnegative real: such a factor distributes over any
  finite sum, infinite terms included (by induction on the sum, from the two-term law); multiplication there is
  commutative and associative. No finiteness of  H  is assumed. Any extents N, E, C, any index width w.
-/
import proofs.«171207_j26164940767513_2_alg».proof.Proof.LibEdgeReads

noncomputable section

namespace Cert.LibScaledAggregate

open Idealize.ShloMosaic Idealize.ShloMosaic.ValueIdx Cert.LibEdgeReads
open scoped BigOperators

/-- A nonnegative real factor distributes over any finite sum of extended reals (infinite terms included). -/
theorem mul_sum_of_nonneg_of_ne_top {ι : Type} (c : EReal) (hc : 0 ≤ c) (hc' : c ≠ ⊤) (S : Finset ι) (f : ι → EReal) :
    c * ∑ j ∈ S, f j = ∑ j ∈ S, c * f j := by
  classical
  induction S using Finset.induction_on with
  | empty => simp
  | insert a S ha ih =>
    rw [Finset.sum_insert ha, Finset.sum_insert ha, EReal.left_distrib_of_nonneg_of_ne_top hc hc', ih]

/-- SCALING OUT OF THE AGGREGATION: the destination's factor times the scattered sum of source-scaled gathered rows is
    the scattered sum of the gathered rows each times its edge weight `s[src e] · s[dwrap e]`, for a nonnegative real
    factor `s` and a column `dwrap` that agrees with the scatter's column wherever that one is in range. -/
theorem aggregate_scale_out {N E C w : ℕ} (hN : 0 < N)
    (wfS wfS' : ScatterDims.WF ⟨2, ![N, C]⟩ ⟨2, ![E, 1]⟩ ⟨2, ![E, C]⟩ [1] [0] [0] 1)
    (wfG wfG' : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (dS dS' : ScatterDims ⟨2, ![N, C]⟩ ⟨2, ![E, 1]⟩ ⟨2, ![E, C]⟩)
    (hS : dS = rowScatterDims N E C wfS) (hS' : dS' = rowScatterDims N E C wfS')
    (dG dG' : GatherDims ⟨2, ![N, C]⟩ ⟨2, ![E, 1]⟩ ⟨2, ![E, C]⟩)
    (hG : dG = rowGatherDims N E C wfG) (hG' : dG' = rowGatherDims N E C wfG')
    (dg : GatherDims ⟨1, ![N]⟩ ⟨2, ![E, 1]⟩ ⟨1, ![E]⟩) (hg : dg = eltGatherDims N E wfg)
    (H : (⟨2, ![N, C]⟩ : Shape).Idx → EReal) (s : (⟨1, ![N]⟩ : Shape).Idx → EReal)
    (hs : ∀ i, 0 ≤ s i ∧ s i ≠ ⊤)
    (z z' : (⟨2, ![N, C]⟩ : Shape).Idx → EReal) (hz : ∀ i, z i = 0) (hz' : ∀ i, z' i = 0)
    (src dcol dwrap : IVec ⟨2, ![E, 1]⟩ w)
    (hwrap : ∀ e : Fin E, 0 ≤ (dcol (ix2 e (0 : Fin 1))).toInt → (dcol (ix2 e (0 : Fin 1))).toInt < (N : ℤ) →
      dwrap (ix2 e (0 : Fin 1)) = dcol (ix2 e (0 : Fin 1)))
    (p : Fin N) (q : Fin C) :
    s (ix1 p) * Ideal.hostScatterAdd dS z dcol (Host.gather dG (fun i => H i * s (ix1 (i 0))) src) (ix2 p q)
      = Ideal.hostScatterAdd dS' z' dcol (fun j => Host.gather dG' H src j
          * (Host.gather dg s src (ix1 (j 0)) * Host.gather dg s dwrap (ix1 (j 0)))) (ix2 p q) := by
  subst hS hS' hG hG' hg
  -- both sides: zero plus the sum over the updates that land on (p, q); the factor goes inside the sum
  unfold Ideal.hostScatterAdd
  rw [hz, hz', zero_add, zero_add, mul_sum_of_nonneg_of_ne_top _ (hs _).1 (hs _).2]
  refine Finset.sum_congr rfl ?_
  intro j hj
  -- an update that lands on row p has scatter index exactly p: in range, so the second column agrees there
  obtain ⟨hrow, -⟩ := scatter_rows_lands wfS _ rfl dcol j (ix2 p q) (Finset.mem_filter.mp hj).2
  have hrow' : (dcol (ix2 (j 0) (0 : Fin 1))).toInt = (p.val : ℤ) := hrow
  have hp := p.isLt
  have hw := hwrap (j 0) (by rw [hrow']; omega) (by rw [hrow']; omega)
  -- the two row gathers and the two element gathers, read at the update's index
  have g1 := (congrArg (Host.gather (rowGatherDims N E C wfG) (fun i => H i * s (ix1 (i 0))) src) (eq_ix2 j)).trans
    (gather_rows_apply hN wfG _ rfl (fun i => H i * s (ix1 (i 0))) src (j 0) (j 1))
  have g2 := (congrArg (Host.gather (rowGatherDims N E C wfG') H src) (eq_ix2 j)).trans
    (gather_rows_apply hN wfG' _ rfl H src (j 0) (j 1))
  have g3 := gather_elts_apply hN wfg _ rfl s src (j 0)
  have g4 := gather_elts_apply hN wfg _ rfl s dwrap (j 0)
  -- the clamped row of the second column is p itself
  have hrowp : (⟨min (dwrap (ix2 (j 0) (0 : Fin 1))).toInt.toNat (N - 1), by omega⟩ : Fin N) = p := by
    refine Fin.ext ?_
    show min (dwrap (ix2 (j 0) (0 : Fin 1))).toInt.toNat (N - 1) = p.val
    rw [hw, hrow']
    omega
  rw [hrowp] at g4
  beta_reduce
  rw [g1, g2, g3, g4]
  show s (ix1 p) * (H _ * s _) = H _ * (s _ * s (ix1 p))
  rw [mul_comm (s (ix1 p)), mul_assoc]
  rfl

end Cert.LibScaledAggregate

end
-- ==== Proof.LibHostAggregate.lean ====
/-
  GENERAL LEMMA: a per-node scaling of a message-passing layer's aggregation moves onto the edges, with both
  aggregations spelt as the host's accumulating scatter `Host.scatterAdd`.

  In a layer over a graph with N nodes and E edges, features of width C, a row gather `H[src]` is followed by an
  accumulating row scatter, from zero, through the destination column. For a per-node factor `s` that is a nonnegative
  real,

      s p · Σ_{e : dst e = p}  (H · s)[src e, q]   =   Σ_{e : dst e = p}  H[src e, q] · (s[src e] · s[dst e]),

  where the right side gathers `s` at the destinations through a second column that agrees with the scatter's wherever
  that one is in range [0, N). This is LibScaledAggregate's `aggregate_scale_out` with the two sums written as a
  printed host program writes them, `Host.scatterAdd d x idx upd`, and not as the extended reals' `Ideal.hostScatterAdd`.
  The two spellings are the same function by definition; the point of stating the law in this one, over VARIABLE
  extents N, E, C and index width w, is that it then applies to a program's scatter at literal extents by matching
  the statement as written, with nothing to unfold at those extents.
-/
import proofs.«171207_j26164940767513_2_alg».proof.Proof.LibScaledAggregate

noncomputable section

namespace Cert.LibHostAggregate

open Idealize.ShloMosaic Idealize.ShloMosaic.ValueIdx Cert.LibEdgeReads Cert.LibScaledAggregate

/-- The aggregation law with both aggregations spelt as the host's accumulating scatter: the destination's factor
    times the scattered sum of source-scaled gathered rows is the scattered sum of the gathered rows each times its
    edge's weight, for a nonnegative real per-node factor and a second destination column that agrees with the
    scatter's wherever that one is in range. -/
theorem layer_law {N E C w : ℕ} (hN : 0 < N)
    (wfS wfS' : ScatterDims.WF ⟨2, ![N, C]⟩ ⟨2, ![E, 1]⟩ ⟨2, ![E, C]⟩ [1] [0] [0] 1)
    (wfG wfG' : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (dS dS' : ScatterDims ⟨2, ![N, C]⟩ ⟨2, ![E, 1]⟩ ⟨2, ![E, C]⟩)
    (hS : dS = rowScatterDims N E C wfS) (hS' : dS' = rowScatterDims N E C wfS')
    (dG dG' : GatherDims ⟨2, ![N, C]⟩ ⟨2, ![E, 1]⟩ ⟨2, ![E, C]⟩)
    (hG : dG = rowGatherDims N E C wfG) (hG' : dG' = rowGatherDims N E C wfG')
    (dg : GatherDims ⟨1, ![N]⟩ ⟨2, ![E, 1]⟩ ⟨1, ![E]⟩) (hg : dg = eltGatherDims N E wfg)
    (H : FVec Ideal ⟨2, ![N, C]⟩ .f32) (s : FVec Ideal ⟨1, ![N]⟩ .f32)
    (hs : ∀ i, 0 ≤ s i ∧ s i ≠ ⊤)
    (z z' : FVec Ideal ⟨2, ![N, C]⟩ .f32) (hz : ∀ i, z i = 0) (hz' : ∀ i, z' i = 0)
    (src dcol dwrap : IVec ⟨2, ![E, 1]⟩ w)
    (hwrap : ∀ e : Fin E, 0 ≤ (dcol (ix2 e (0 : Fin 1))).toInt → (dcol (ix2 e (0 : Fin 1))).toInt < (N : ℤ) →
      dwrap (ix2 e (0 : Fin 1)) = dcol (ix2 e (0 : Fin 1)))
    (p : Fin N) (q : Fin C) :
    s (ix1 p) * Host.scatterAdd (F := Ideal) dS z dcol (Host.gather dG (fun i => H i * s (ix1 (i 0))) src) (ix2 p q)
      = Host.scatterAdd (F := Ideal) dS' z' dcol (fun j => Host.gather dG' H src j
          * (Host.gather dg s src (ix1 (j 0)) * Host.gather dg s dwrap (ix1 (j 0)))) (ix2 p q) :=
  aggregate_scale_out hN wfS wfS' wfG wfG' wfg dS dS' hS hS' dG dG' hG hG' dg hg H s hs z z' hz hz' src dcol dwrap hwrap p q

end Cert.LibHostAggregate

end
-- ==== Proof.LibAxisReads.lean ====
/-
  Broadcasts of scalars, vectors, rows and columns, and sums over either axis of a matrix, read at an index on the
  extended reals, for any extents.

  * A scalar (a rank-0 array) broadcast to any shape reads, at every index, its one entry; a constant scalar reads the
    value its word denotes.
  * A vector [a] made a column [a, 1] reads its entry of the row; a column [a, 1] spread over c columns reads the
    column's entry of the row. A vector [b] made a row [1, b] reads its entry of the column; a row [1, b] spread over
    a rows reads the row's entry of the column. (The host's `broadcast_in_dim` spellings: what `jnp.mean(axis=0)`,
    `jnp.var`, a bias add and a softmax's keepdims print as.)
  * A host sum of an [a, b] matrix over its first axis reads, at column e, the initial value plus the sum of the
    column's entries; over its last axis, at row i, the initial value plus the sum of the row's entries: the index
    with the summed coordinate put back is (r, e), respectively (i, f).
  * A vector sum (`multi_reduction <add>`) over the LEADING axis of an [a, b] matrix reads, at column e, the sum of
    that column (the accumulator word being the sum's neutral element, no initial term appears).
-/
import Idealize.ShloMosaic.Lib.ValueIdx
import Idealize.ShloMosaic.Lib.Pipeline.Value
import Idealize.ShloMosaic.PureOps.Ideal.Laws

noncomputable section

open scoped BigOperators

namespace Cert.LibAxisReads

open Idealize.ShloMosaic Idealize.ShloMosaic.ValueIdx

variable {α : Type}

/-- A rank-0 array broadcast to any shape reads its one entry everywhere. -/
theorem scalar_broadcast_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A constant scalar broadcast to any shape reads, at every index, the value the constant's word denotes. -/
theorem const_broadcast_apply {t : Shape} {φ : FTy} (dims : Fin 0 → Fin t.rank) (h : (⟨0, ![]⟩ : Shape).BroadcastsInDim t dims)
    (b : BitVec φ.bits) (j : t.Idx) :
    broadcastInDim t dims h (constant (F := Ideal) ⟨0, ![]⟩ φ b) j = Ideal.ofBits φ b :=
  scalar_broadcast_apply dims h _ j

/-- A vector [a] made a column [a, 1] reads, at (r, u), the vector at r. -/
theorem vec_column_apply {a : ℕ} (v : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h v (ix2 r u) = v (ix1 r) :=
  broadcastInDim_apply ![0] h v (ix2 r u) (ix1 r) (fun d => by
    match d with
    | ⟨0, _⟩ =>
      show r.val = if a = 1 then 0 else r.val
      split
      · have := r.isLt; omega
      · rfl)

/-- A vector [b] made a row [1, b] reads, at (u, e), the vector at e. -/
theorem vec_row_apply {b : ℕ} (v : (⟨1, ![b]⟩ : Shape).Idx → α)
    (h : (⟨1, ![b]⟩ : Shape).BroadcastsInDim ⟨2, ![1, b]⟩ ![1]) (u : Fin 1) (e : Fin b) :
    broadcastInDim ⟨2, ![1, b]⟩ ![1] h v (ix2 u e) = v (ix1 e) :=
  broadcastInDim_apply ![1] h v (ix2 u e) (ix1 e) (fun d => by
    match d with
    | ⟨0, _⟩ =>
      show e.val = if b = 1 then 0 else e.val
      split
      · have := e.isLt; omega
      · rfl)

/-- A row [1, b] spread over a rows reads, at (r, e), the row's entry of column e. -/
theorem row_spread_apply {a b : ℕ} (v : (⟨2, ![1, b]⟩ : Shape).Idx → α)
    (h : (⟨2, ![1, b]⟩ : Shape).BroadcastsInDim ⟨2, ![a, b]⟩ ![0, 1]) (r : Fin a) (e : Fin b) :
    broadcastInDim ⟨2, ![a, b]⟩ ![0, 1] h v (ix2 r e) = v (ix2 (0 : Fin 1) e) :=
  broadcastInDim_apply ![0, 1] h v (ix2 r e) (ix2 (0 : Fin 1) e) (fun d => by
    match d with
    | ⟨0, _⟩ =>
      show (0 : ℕ) = if (1 : ℕ) = 1 then 0 else r.val
      rw [if_pos rfl]
    | ⟨1, _⟩ =>
      show e.val = if b = 1 then 0 else e.val
      split
      · have := e.isLt; omega
      · rfl)

/-- A column [a, 1] spread over c columns reads, at (r, e), the column's entry of row r. -/
theorem column_spread_apply {a c : ℕ} (v : (⟨2, ![a, 1]⟩ : Shape).Idx → α)
    (h : (⟨2, ![a, 1]⟩ : Shape).BroadcastsInDim ⟨2, ![a, c]⟩ ![0, 1]) (r : Fin a) (e : Fin c) :
    broadcastInDim ⟨2, ![a, c]⟩ ![0, 1] h v (ix2 r e) = v (ix2 r (0 : Fin 1)) :=
  broadcastInDim_apply ![0, 1] h v (ix2 r e) (ix2 r (0 : Fin 1)) (fun d => by
    match d with
    | ⟨0, _⟩ =>
      show r.val = if a = 1 then 0 else r.val
      split
      · have := r.isLt; omega
      · rfl
    | ⟨1, _⟩ =>
      show (0 : ℕ) = if (1 : ℕ) = 1 then 0 else e.val
      rw [if_pos rfl])

/-- A host sum over the first axis of an [a, b] matrix reads, at column e, the initial value plus the sum of the
    column's entries. -/
theorem hostReduceAdd_firstAxis_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (e : Fin b) :
    Host.reduceAdd (F := Ideal) x init h' hu (ix1 e) = init (Shape.Idx.first hu) + ∑ r : Fin a, x (ix2 r e) := by
  refine (Ideal.hostReduceAdd_single h' h x (init (Shape.Idx.first hu)) (ix1 e)).trans ?_
  refine congrArg (fun z => init (Shape.Idx.first hu) + z) ?_
  exact Finset.sum_congr rfl fun r _ => congrArg x (funext fun d => Fin.ext (by
    match d with
    | ⟨0, _⟩ => rfl
    | ⟨1, _⟩ => rfl))

/-- A host sum over the last axis of an [a, b] matrix reads, at row i, the initial value plus the sum of the row's
    entries. -/
theorem hostReduceAdd_lastAxis_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd (F := Ideal) x init h' hu (ix1 i) = init (Shape.Idx.first hu) + ∑ f : Fin b, x (ix2 i f) := by
  refine (Ideal.hostReduceAdd_single h' h x (init (Shape.Idx.first hu)) (ix1 i)).trans ?_
  refine congrArg (fun z => init (Shape.Idx.first hu) + z) ?_
  exact Finset.sum_congr rfl fun f _ => congrArg x (funext fun d => Fin.ext (by
    match d with
    | ⟨0, _⟩ => rfl
    | ⟨1, _⟩ => rfl))

/-- On the extended reals a vector sum over the leading axis of an `[a, b]` matrix reads, at column `e`, the sum of
    that column's entries: the index over `e` with coordinate `r` put back on the summed axis is `(r, e)`. -/
theorem multiReduction_add_firstAxis_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (e : Fin b) :
    multiReduction .add [0] ⟨1, ![b]⟩ src acc h hφ hacc (ix1 e) = ∑ r : Fin a, src (ix2 r e) := by
  refine (Ideal.multiReduction_add_single src acc h hφ hacc (ix1 e)).trans ?_
  exact Finset.sum_congr rfl fun r _ => congrArg src (funext fun d => Fin.ext (by
    match d with
    | ⟨0, _⟩ => rfl
    | ⟨1, _⟩ => rfl))

end Cert.LibAxisReads

end
-- ==== Proof.AggLaw.lean ====
/-
  The aggregation over the graph, kernel against reference, as one law between arrays.

  The kernel program scales every row by its node's factor  dinv  before the rows travel along the edges and scales
  every sum by its node's factor after they arrive; the reference gathers the unscaled rows and multiplies each by its
  edge's weight  dinv[src e] · dinv[dst e]  before adding them up. On the extended reals a nonnegative real factor
  distributes over any finite sum, infinite terms included, so the two are the same array. The factor is a
  nonnegative real at every node: it is  1/√deg  where  deg > 0  (a positive real for a real degree, 0 for an infinite
  one) and 0 elsewhere. A target index that the scatter accepts is nonnegative, so wrapping it changes nothing.
-/
import proofs.«171207_j26164940767513_2_alg».proof.Proof.KNet
import proofs.«171207_j26164940767513_2_alg».proof.Proof.LibHostAggregate
import proofs.«171207_j26164940767513_2_alg».proof.Proof.LibAxisReads
import Idealize.ShloMosaic.Lib.Affine

noncomputable section

namespace Cert.AggLaw

open Cert.KernelIdeal Cert.KernelIdeal.Facts₀ Cert.KNet Cert.LibEdgeReads
open Idealize.ShloMosaic Idealize.ShloMosaic.ValueIdx

/-- The inverse square root of a positive extended real is a nonnegative real: 0 at +∞, 1/√r at a positive real r. -/
theorem rsqrt_bound (x : EReal) (hx : 0 < x) : 0 ≤ Ideal.rsqrt x ∧ Ideal.rsqrt x ≠ ⊤ := by
  induction x using EReal.rec with
  | bot => exact absurd hx (not_lt_bot)
  | top => exact ⟨le_of_eq Ideal.rsqrt_top.symm, by rw [Ideal.rsqrt_top]; exact EReal.zero_ne_top⟩
  | coe r =>
    have hr : 0 < r := by exact_mod_cast hx
    rw [Ideal.rsqrt_coe, if_neg (not_lt.mpr hr.le), if_neg (ne_of_gt hr)]
    exact ⟨by exact_mod_cast (inv_nonneg.mpr (Real.sqrt_nonneg r)), EReal.coe_ne_top _⟩

/-- The node factor, where the degree is positive its inverse square root and zero elsewhere, is a nonnegative real at
    every node, whatever the degree array holds. -/
theorem factor_bound (deg zc zb : FVec Ideal S100000 .f32) (hzc : ∀ i, zc i = 0) (hzb : ∀ i, zb i = 0) (i : S100000.Idx) :
    0 ≤ select (cmpf .ogt deg zc) (Host.rsqrt deg) zb i ∧ select (cmpf .ogt deg zc) (Host.rsqrt deg) zb i ≠ ⊤ := by
  have e : select (cmpf .ogt deg zc) (Host.rsqrt deg) zb i
      = Scalar.select (Ideal.cmp .ogt (deg i) (zc i)) (Ideal.rsqrt (deg i)) (zb i) := rfl
  rw [e, hzc, hzb]
  unfold Scalar.select Ideal.cmp
  by_cases h : (0 : EReal) < deg i
  · rw [if_pos (by simp [h])]; exact rsqrt_bound _ h
  · rw [if_neg (by simp [h])]; exact ⟨le_refl _, EReal.zero_ne_top⟩

/-- Wrapping a node number that is not negative leaves it as it is: the wrapped column agrees with the raw one
    wherever the raw entry, read signed, is nonnegative. -/
theorem wrap_of_nonneg (d : IVec S1700000 32) (e : Fin 1700000) (h : 0 ≤ (dstCol d (ix2 e (0 : Fin 1))).toInt) :
    srcCol d (ix2 e (0 : Fin 1)) = dstCol d (ix2 e (0 : Fin 1)) := by
  have hd : dstCol d (ix2 e (0 : Fin 1)) = d (ix1 e) := by
    unfold dstCol; exact Cert.LibAxisReads.vec_column_apply _ _ e (0 : Fin 1)
  rw [hd] at h ⊢
  unfold srcCol
  rw [Cert.LibAxisReads.vec_column_apply]
  have hz : (broadcastInDim S1700000 ![] bcast_S_S1700000 (constantI S_ 32 0#32) : IVec S1700000 32) (ix1 e) = 0#32 :=
    Cert.LibAxisReads.scalar_broadcast_apply _ _ _ _
  show Scalar.select (IntOp.cmpi .slt (d (ix1 e))
      ((broadcastInDim S1700000 ![] bcast_S_S1700000 (constantI S_ 32 0#32) : IVec S1700000 32) (ix1 e))) _ (d (ix1 e)) = d (ix1 e)
  rw [hz]
  unfold Scalar.select
  rw [if_neg]
  intro hc
  have hlt : (d (ix1 e)).toInt < (0#32 : BitVec 32).toInt := IntOp.cmpi_slt.mp hc
  have h0 : (0#32 : BitVec 32).toInt = 0 := by decide
  omega

/-- The node scaling spread over a row of width 64, read at (p, q): the factor of node p. -/
theorem nodeScale64_apply (dinv : FVec Ideal S100000 .f32) (p : Fin 100000) (q : Fin 64) :
    nodeScale64 dinv (ix2 p q) = dinv (ix1 p) := by
  unfold nodeScale64
  exact (Cert.LibAxisReads.column_spread_apply _ _ p q).trans (Cert.LibAxisReads.vec_column_apply _ _ p (0 : Fin 1))

/-- THE AGGREGATION LAW at width 64, array by array. Scaling the rows by the node factor before they travel and the
    sums by the node factor after they arrive is scattering the unscaled gathered rows each times its edge's weight,
    the product of the factor at the edge's source and at its target. The factor is a nonnegative real at every node,
    which is all that moving it across a finite sum of extended reals needs; the target's factor is gathered through
    the wrapped target column, which agrees with the scatter's raw one wherever that one is in range. -/
theorem agg64_law (H : FVec Ideal S100000x64 .f32) (src dst : IVec S1700000 32) (dinv : FVec Ideal S100000 .f32)
    (hs : ∀ i, 0 ≤ dinv i ∧ dinv i ≠ ⊤)
    (dS' : ScatterDims S100000x64 S1700000x1 S1700000x64)
    (wfS' : ScatterDims.WF ⟨2, ![100000, 64]⟩ ⟨2, ![1700000, 1]⟩ ⟨2, ![1700000, 64]⟩ [1] [0] [0] 1)
    (hS' : dS' = rowScatterDims 100000 1700000 64 wfS')
    (dG' : GatherDims S100000x64 S1700000x1 S1700000x64)
    (wfG' : GatherDims.WF ⟨2, ![100000, 64]⟩ ⟨2, ![1700000, 1]⟩ ⟨2, ![1700000, 64]⟩ [1] [0] [] [0] [] 1 ![1, 64])
    (hG' : dG' = rowGatherDims 100000 1700000 64 wfG')
    (dg : GatherDims S100000 S1700000x1 S1700000)
    (wfg : GatherDims.WF ⟨1, ![100000]⟩ ⟨2, ![1700000, 1]⟩ ⟨1, ![1700000]⟩ [] [0] [] [0] [] 1 ![1])
    (hg : dg = eltGatherDims 100000 1700000 wfg)
    (z' : FVec Ideal S100000x64 .f32) (hz' : ∀ i, z' i = 0)
    (srcC dstC : IVec S1700000x1 32) (hsrcC : srcC = srcCol src) (hdstC : dstC = dstCol dst)
    (NB : FVec Ideal S1700000x64 .f32)
    (hNB : ∀ (e : Fin 1700000) (q : Fin 64), NB (ix2 e q)
      = Host.gather dg dinv (srcCol src) (ix1 e) * Host.gather dg dinv (srcCol dst) (ix1 e)) :
    agg64 H src dst dinv = Host.scatterAdd (F := Ideal) dS' z' dstC (mulf (Host.gather dG' H srcC) NB) := by
  subst hsrcC hdstC
  funext i
  obtain ⟨p, q, rfl⟩ : ∃ (p : Fin 100000) (q : Fin 64), i = ix2 p q := ⟨i 0, i 1, eq_ix2 i⟩
  unfold agg64
  rw [mulf_apply, nodeScale64_apply]
  refine (mul_comm _ _).trans ?_
  have hL : mulf H (nodeScale64 dinv) = fun i => H i * dinv (ix1 (i 0)) := funext fun i => by
    obtain ⟨p, q, rfl⟩ : ∃ (p : Fin 100000) (q : Fin 64), i = ix2 p q := ⟨i 0, i 1, eq_ix2 i⟩
    rw [mulf_apply, nodeScale64_apply]
  have hR : mulf (Host.gather dG' H (srcCol src)) NB = fun j => Host.gather dG' H (srcCol src) j
      * (Host.gather dg dinv (srcCol src) (ix1 (j 0)) * Host.gather dg dinv (srcCol dst) (ix1 (j 0))) := funext fun j => by
    obtain ⟨e, q, rfl⟩ : ∃ (e : Fin 1700000) (q : Fin 64), j = ix2 e q := ⟨j 0, j 1, eq_ix2 j⟩
    rw [mulf_apply, hNB]
  rw [hL, hR]
  exact Cert.LibHostAggregate.layer_law (N := 100000) (E := 1700000) (C := 64) (w := 32) (by norm_num)
    scatter_S100000x64_S1700000x1_S1700000x64_1_0_0_1_wf wfS'
    gather_S100000x64_S1700000x1_S1700000x64_1_0_n_n_0_1_164_wf wfG' wfg
    scatter_S100000x64_S1700000x1_S1700000x64_1_0_0_1 dS' rfl hS'
    gather_S100000x64_S1700000x1_S1700000x64_1_0_n_n_0_1_164 dG' rfl hG' dg hg H dinv hs
    _ z' (fun i => (Cert.LibAxisReads.const_broadcast_apply _ _ _ i).trans Ideal.ofBits_zero_f32) hz'
    (srcCol src) (dstCol dst) (srcCol dst) (fun e h _ => wrap_of_nonneg dst e h) p q

/-- The node scaling spread over a row of width 4, read at (p, q): the factor of node p. -/
theorem nodeScale4_apply (dinv : FVec Ideal S100000 .f32) (p : Fin 100000) (q : Fin 4) :
    nodeScale4 dinv (ix2 p q) = dinv (ix1 p) := by
  unfold nodeScale4
  exact (Cert.LibAxisReads.column_spread_apply _ _ p q).trans (Cert.LibAxisReads.vec_column_apply _ _ p (0 : Fin 1))

/-- THE AGGREGATION LAW at width 4, array by array. Scaling the rows by the node factor before they travel and the
    sums by the node factor after they arrive is scattering the unscaled gathered rows each times its edge's weight,
    the product of the factor at the edge's source and at its target. The factor is a nonnegative real at every node,
    which is all that moving it across a finite sum of extended reals needs; the target's factor is gathered through
    the wrapped target column, which agrees with the scatter's raw one wherever that one is in range. -/
theorem agg4_law (H : FVec Ideal S100000x4 .f32) (src dst : IVec S1700000 32) (dinv : FVec Ideal S100000 .f32)
    (hs : ∀ i, 0 ≤ dinv i ∧ dinv i ≠ ⊤)
    (dS' : ScatterDims S100000x4 S1700000x1 S1700000x4)
    (wfS' : ScatterDims.WF ⟨2, ![100000, 4]⟩ ⟨2, ![1700000, 1]⟩ ⟨2, ![1700000, 4]⟩ [1] [0] [0] 1)
    (hS' : dS' = rowScatterDims 100000 1700000 4 wfS')
    (dG' : GatherDims S100000x4 S1700000x1 S1700000x4)
    (wfG' : GatherDims.WF ⟨2, ![100000, 4]⟩ ⟨2, ![1700000, 1]⟩ ⟨2, ![1700000, 4]⟩ [1] [0] [] [0] [] 1 ![1, 4])
    (hG' : dG' = rowGatherDims 100000 1700000 4 wfG')
    (dg : GatherDims S100000 S1700000x1 S1700000)
    (wfg : GatherDims.WF ⟨1, ![100000]⟩ ⟨2, ![1700000, 1]⟩ ⟨1, ![1700000]⟩ [] [0] [] [0] [] 1 ![1])
    (hg : dg = eltGatherDims 100000 1700000 wfg)
    (z' : FVec Ideal S100000x4 .f32) (hz' : ∀ i, z' i = 0)
    (srcC dstC : IVec S1700000x1 32) (hsrcC : srcC = srcCol src) (hdstC : dstC = dstCol dst)
    (NB : FVec Ideal S1700000x4 .f32)
    (hNB : ∀ (e : Fin 1700000) (q : Fin 4), NB (ix2 e q)
      = Host.gather dg dinv (srcCol src) (ix1 e) * Host.gather dg dinv (srcCol dst) (ix1 e)) :
    agg4 H src dst dinv = Host.scatterAdd (F := Ideal) dS' z' dstC (mulf (Host.gather dG' H srcC) NB) := by
  subst hsrcC hdstC
  funext i
  obtain ⟨p, q, rfl⟩ : ∃ (p : Fin 100000) (q : Fin 4), i = ix2 p q := ⟨i 0, i 1, eq_ix2 i⟩
  unfold agg4
  rw [mulf_apply, nodeScale4_apply]
  refine (mul_comm _ _).trans ?_
  have hL : mulf H (nodeScale4 dinv) = fun i => H i * dinv (ix1 (i 0)) := funext fun i => by
    obtain ⟨p, q, rfl⟩ : ∃ (p : Fin 100000) (q : Fin 4), i = ix2 p q := ⟨i 0, i 1, eq_ix2 i⟩
    rw [mulf_apply, nodeScale4_apply]
  have hR : mulf (Host.gather dG' H (srcCol src)) NB = fun j => Host.gather dG' H (srcCol src) j
      * (Host.gather dg dinv (srcCol src) (ix1 (j 0)) * Host.gather dg dinv (srcCol dst) (ix1 (j 0))) := funext fun j => by
    obtain ⟨e, q, rfl⟩ : ∃ (e : Fin 1700000) (q : Fin 4), j = ix2 e q := ⟨j 0, j 1, eq_ix2 j⟩
    rw [mulf_apply, hNB]
  rw [hL, hR]
  exact Cert.LibHostAggregate.layer_law (N := 100000) (E := 1700000) (C := 4) (w := 32) (by norm_num)
    scatter_S100000x4_S1700000x1_S1700000x4_1_0_0_1_wf wfS'
    gather_S100000x4_S1700000x1_S1700000x4_1_0_n_n_0_1_14_wf wfG' wfg
    scatter_S100000x4_S1700000x1_S1700000x4_1_0_0_1 dS' rfl hS'
    gather_S100000x4_S1700000x1_S1700000x4_1_0_n_n_0_1_14 dG' rfl hG' dg hg H dinv hs
    _ z' (fun i => (Cert.LibAxisReads.const_broadcast_apply _ _ _ i).trans Ideal.ofBits_zero_f32) hz'
    (srcCol src) (dstCol dst) (srcCol dst) (fun e h _ => wrap_of_nonneg dst e h) p q

end Cert.AggLaw

end
-- ==== Proof.Bridge.lean ====
/-
  The reference program's stages against the kernel program's network.

  Layer by layer the reference gathers the rows of the previous dense product along the edges, multiplies each by its
  edge's weight, the node factor at the wrapped source times the node factor at the wrapped target, adds the rows up at
  their targets, adds the bias on every row, rectifies, and takes the next dense product. By the aggregation law the
  weighted sum is the kernel's aggregation (rows scaled by the node factor before they travel, sums scaled after they
  arrive), and the product of the shifted rectified rows with the weight is, entry by entry, the dense layer the
  kernel's region computes. So the reference's last stage is the kernel's whole network of the same arguments, with the
  source column, the target column and the node factor the reference's own.
-/
import proofs.«171207_j26164940767513_2_alg».proof.Proof.RefStages
import proofs.«171207_j26164940767513_2_alg».proof.Proof.AggLaw
import Idealize.ShloMosaic.Lib.ValueLayout

noncomputable section

namespace Cert.Bridge

open Cert.ReferenceIdeal Cert.ReferenceIdeal.Facts₀ Cert.ReferenceIdeal.ReadP
open Idealize.ShloMosaic Idealize.ShloMosaic.ValueIdx

/-- The reference's node factor is a nonnegative real at every node. -/
theorem factor_nonneg (x1 : IVec S2x1600000 32) (i : S100000.Idx) :
    0 ≤ val_main_v14 (F := Ideal) x1 i ∧ val_main_v14 (F := Ideal) x1 i ≠ ⊤ :=
  Cert.AggLaw.factor_bound (val_main_v10 (F := Ideal) x1) (val_main_v11 (F := Ideal)) (val_main_call0_v1 (F := Ideal))
    (fun i => (Cert.LibAxisReads.const_broadcast_apply _ _ _ i).trans Ideal.ofBits_zero_f32)
    (fun i => (Cert.LibAxisReads.const_broadcast_apply _ _ _ i).trans Ideal.ofBits_zero_f32) i

/-- The reference's wrapped source column is the kernel's. -/
theorem src_col (x1 : IVec S2x1600000 32) : val_main_v20 (F := Ideal) x1 = Cert.KNet.srcCol (val_main_v3 (F := Ideal) x1) := rfl
/-- The reference's wrapped target column is the same wrapping of the target column. -/
theorem dst_wrap_col (x1 : IVec S2x1600000 32) : val_main_v27 (F := Ideal) x1 = Cert.KNet.srcCol (val_main_v6 (F := Ideal) x1) := rfl

/-- The edge weights spread over a row of width 64, read at (e, q): the node factor gathered at edge e's wrapped source
    times the node factor gathered at its wrapped target. -/
theorem norm64_read (x1 : IVec S2x1600000 32) (e : Fin 1700000) (q : Fin 64) :
    broadcastInDim S1700000x64 ![0, 1] bcast_S1700000x1_S1700000x64_0_1
        (broadcastInDim S1700000x1 ![0] bcast_S1700000_S1700000x1_0 (val_main_v29 (F := Ideal) x1)) (ix2 e q)
      = Host.gather gather_S100000_S1700000x1_S1700000_n_0_n_n_0_1_1 (val_main_v14 (F := Ideal) x1) (Cert.KNet.srcCol (val_main_v3 (F := Ideal) x1)) (ix1 e)
        * Host.gather gather_S100000_S1700000x1_S1700000_n_0_n_n_0_1_1 (val_main_v14 (F := Ideal) x1) (Cert.KNet.srcCol (val_main_v6 (F := Ideal) x1)) (ix1 e) := by
  rw [Cert.LibAxisReads.column_spread_apply, Cert.LibAxisReads.vec_column_apply]
  unfold val_main_v29 val_main_v21 val_main_v28
  rw [mulf_apply, src_col x1, dst_wrap_col x1]

/-- The edge weights spread over a row of width 4, read at (e, q): the node factor gathered at edge e's wrapped source
    times the node factor gathered at its wrapped target. -/
theorem norm4_read (x1 : IVec S2x1600000 32) (e : Fin 1700000) (q : Fin 4) :
    broadcastInDim S1700000x4 ![0, 1] bcast_S1700000x1_S1700000x4_0_1
        (broadcastInDim S1700000x1 ![0] bcast_S1700000_S1700000x1_0 (val_main_v29 (F := Ideal) x1)) (ix2 e q)
      = Host.gather gather_S100000_S1700000x1_S1700000_n_0_n_n_0_1_1 (val_main_v14 (F := Ideal) x1) (Cert.KNet.srcCol (val_main_v3 (F := Ideal) x1)) (ix1 e)
        * Host.gather gather_S100000_S1700000x1_S1700000_n_0_n_n_0_1_1 (val_main_v14 (F := Ideal) x1) (Cert.KNet.srcCol (val_main_v6 (F := Ideal) x1)) (ix1 e) := by
  rw [Cert.LibAxisReads.column_spread_apply, Cert.LibAxisReads.vec_column_apply]
  unfold val_main_v29 val_main_v21 val_main_v28
  rw [mulf_apply, src_col x1, dst_wrap_col x1]

/-- The shifted row passed through the leaky rectifier as the reference spells it, read at (r, k). -/
theorem leaky_read (A : FVec Ideal S100000x64 .f32) (b : FVec Ideal S64 .f32) (r : Fin 100000) (k : Fin 64) :
    select (cmpf .oge (addf A (broadcastInDim S100000x64 ![0, 1] bcast_S1x64_S100000x64_0_1 (broadcastInDim S1x64 ![1] bcast_S64_S1x64_1 b)))
          (broadcastInDim S100000x64 ![] bcast_S_S100000x64 (constant (F := Ideal) S_ .f32 0x00000000#32)))
        (addf A (broadcastInDim S100000x64 ![0, 1] bcast_S1x64_S100000x64_0_1 (broadcastInDim S1x64 ![1] bcast_S64_S1x64_1 b)))
        (mulf (broadcastInDim S100000x64 ![] bcast_S_S100000x64 (constant (F := Ideal) S_ .f32 0x3E4CCCCD#32))
          (addf A (broadcastInDim S100000x64 ![0, 1] bcast_S1x64_S100000x64_0_1 (broadcastInDim S1x64 ![1] bcast_S64_S1x64_1 b))))
        (ix2 r k)
      = Cert.Spec.leaky (A (ix2 r k) + Cert.KNet.biasRow b (ix2 (0 : Fin 1) k)) := by
  have hB : broadcastInDim S100000x64 ![0, 1] bcast_S1x64_S100000x64_0_1 (broadcastInDim S1x64 ![1] bcast_S64_S1x64_1 b) (ix2 r k) = b (ix1 k) :=
    (Cert.LibAxisReads.row_spread_apply _ _ r k).trans (Cert.LibAxisReads.vec_row_apply _ _ (0 : Fin 1) k)
  have hb : Cert.KNet.biasRow b (ix2 (0 : Fin 1) k) = b (ix1 k) := by
    unfold Cert.KNet.biasRow; exact shapeCast_a_1a_apply _ _ (0 : Fin 1) k
  have hZ : broadcastInDim S100000x64 ![] bcast_S_S100000x64 (constant (F := Ideal) S_ .f32 0x00000000#32) (ix2 r k) = Cert.Spec.zeroW :=
    Cert.LibAxisReads.const_broadcast_apply _ _ _ _
  have hS : broadcastInDim S100000x64 ![] bcast_S_S100000x64 (constant (F := Ideal) S_ .f32 0x3E4CCCCD#32) (ix2 r k) = Cert.Spec.slopeW :=
    Cert.LibAxisReads.const_broadcast_apply _ _ _ _
  show Scalar.select (Ideal.cmp .oge (A (ix2 r k) + broadcastInDim S100000x64 ![0, 1] bcast_S1x64_S100000x64_0_1 (broadcastInDim S1x64 ![1] bcast_S64_S1x64_1 b) (ix2 r k))
        (broadcastInDim S100000x64 ![] bcast_S_S100000x64 (constant (F := Ideal) S_ .f32 0x00000000#32) (ix2 r k)))
      (A (ix2 r k) + broadcastInDim S100000x64 ![0, 1] bcast_S1x64_S100000x64_0_1 (broadcastInDim S1x64 ![1] bcast_S64_S1x64_1 b) (ix2 r k))
      (broadcastInDim S100000x64 ![] bcast_S_S100000x64 (constant (F := Ideal) S_ .f32 0x3E4CCCCD#32) (ix2 r k)
        * (A (ix2 r k) + broadcastInDim S100000x64 ![0, 1] bcast_S1x64_S100000x64_0_1 (broadcastInDim S1x64 ![1] bcast_S64_S1x64_1 b) (ix2 r k))) = _
  rw [hB, hb, hZ, hS]
  rfl

/-- The first dense product, entry by entry: the row of the node array against the column of the weight. -/
theorem dense_0 (x0 : FVec Ideal S100000x128 .f32) (x2 : FVec Ideal S128x64 .f32) :
    val_main_v30 (F := Ideal) x0 x2 = Cert.Spec.dense0 x0 x2 := by
  funext i
  obtain ⟨r, e, rfl⟩ : ∃ (r : Fin 100000) (e : Fin 64), i = ix2 r e := ⟨i 0, i 1, eq_ix2 i⟩
  rw [Cert.Spec.dense0_ix2, val_main_v30_apply]
  unfold Cert.Spec.dense0At
  refine Finset.sum_congr rfl fun k _ => ?_
  have el : lidx_main_v30 (ix2 r e) k = ix2 r k := funext fun a => Fin.ext (by match a with | ⟨0, _⟩ => rfl | ⟨1, _⟩ => rfl)
  have er : ridx_main_v30 (ix2 r e) k = ix2 k e := funext fun a => Fin.ext (by match a with | ⟨0, _⟩ => rfl | ⟨1, _⟩ => rfl)
  rw [el, er]

/-- Layer 0: the reference's scattered sum of weighted gathered rows is the kernel's aggregation of the same rows. -/
theorem agg_0 (x0 : FVec Ideal S100000x128 .f32) (x1 : IVec S2x1600000 32) (x2 : FVec Ideal S128x64 .f32) :
    val_main_v43 (F := Ideal) x0 x1 x2
      = Cert.KNet.agg64 (val_main_v30 (F := Ideal) x0 x2) (val_main_v3 (F := Ideal) x1) (val_main_v6 (F := Ideal) x1) (val_main_v14 (F := Ideal) x1) := by
  unfold val_main_v43 val_main_v40 val_main_v37
  exact (Cert.AggLaw.agg64_law (val_main_v30 (F := Ideal) x0 x2) (val_main_v3 (F := Ideal) x1) (val_main_v6 (F := Ideal) x1) (val_main_v14 (F := Ideal) x1) (factor_nonneg x1)
    scatter_S100000x64_S1700000x1_S1700000x64_1_0_0_1 scatter_S100000x64_S1700000x1_S1700000x64_1_0_0_1_wf rfl
    gather_S100000x64_S1700000x1_S1700000x64_1_0_n_n_0_1_164 gather_S100000x64_S1700000x1_S1700000x64_1_0_n_n_0_1_164_wf rfl
    gather_S100000_S1700000x1_S1700000_n_0_n_n_0_1_1 gather_S100000_S1700000x1_S1700000_n_0_n_n_0_1_1_wf rfl
    (val_main_v41 (F := Ideal)) (fun i => (Cert.LibAxisReads.const_broadcast_apply _ _ _ i).trans Ideal.ofBits_zero_f32)
    (val_main_v36 (F := Ideal) x1) (val_main_v42 (F := Ideal) x1) rfl rfl
    (val_main_v39 (F := Ideal) x1) (fun e q => norm64_read x1 e q)).symm

/-- Layer 1: the reference's scattered sum of weighted gathered rows is the kernel's aggregation of the same rows. -/
theorem agg_1 (x0 : FVec Ideal S100000x128 .f32) (x1 : IVec S2x1600000 32) (x2 : FVec Ideal S128x64 .f32) (x3 : FVec Ideal S64 .f32) (x4 : FVec Ideal S64x64 .f32) :
    val_main_v65 (F := Ideal) x0 x1 x2 x3 x4
      = Cert.KNet.agg64 (val_main_v52 (F := Ideal) x0 x1 x2 x3 x4) (val_main_v3 (F := Ideal) x1) (val_main_v6 (F := Ideal) x1) (val_main_v14 (F := Ideal) x1) := by
  unfold val_main_v65 val_main_v62 val_main_v59
  exact (Cert.AggLaw.agg64_law (val_main_v52 (F := Ideal) x0 x1 x2 x3 x4) (val_main_v3 (F := Ideal) x1) (val_main_v6 (F := Ideal) x1) (val_main_v14 (F := Ideal) x1) (factor_nonneg x1)
    scatter_S100000x64_S1700000x1_S1700000x64_1_0_0_1 scatter_S100000x64_S1700000x1_S1700000x64_1_0_0_1_wf rfl
    gather_S100000x64_S1700000x1_S1700000x64_1_0_n_n_0_1_164 gather_S100000x64_S1700000x1_S1700000x64_1_0_n_n_0_1_164_wf rfl
    gather_S100000_S1700000x1_S1700000_n_0_n_n_0_1_1 gather_S100000_S1700000x1_S1700000_n_0_n_n_0_1_1_wf rfl
    (val_main_v63 (F := Ideal)) (fun i => (Cert.LibAxisReads.const_broadcast_apply _ _ _ i).trans Ideal.ofBits_zero_f32)
    (val_main_v58 (F := Ideal) x1) (val_main_v64 (F := Ideal) x1) rfl rfl
    (val_main_v61 (F := Ideal) x1) (fun e q => norm64_read x1 e q)).symm

/-- Layer 2: the reference's scattered sum of weighted gathered rows is the kernel's aggregation of the same rows. -/
theorem agg_2 (x0 : FVec Ideal S100000x128 .f32) (x1 : IVec S2x1600000 32) (x2 : FVec Ideal S128x64 .f32) (x3 : FVec Ideal S64 .f32) (x4 : FVec Ideal S64x64 .f32) (x5 : FVec Ideal S64 .f32) (x6 : FVec Ideal S64x64 .f32) :
    val_main_v87 (F := Ideal) x0 x1 x2 x3 x4 x5 x6
      = Cert.KNet.agg64 (val_main_v74 (F := Ideal) x0 x1 x2 x3 x4 x5 x6) (val_main_v3 (F := Ideal) x1) (val_main_v6 (F := Ideal) x1) (val_main_v14 (F := Ideal) x1) := by
  unfold val_main_v87 val_main_v84 val_main_v81
  exact (Cert.AggLaw.agg64_law (val_main_v74 (F := Ideal) x0 x1 x2 x3 x4 x5 x6) (val_main_v3 (F := Ideal) x1) (val_main_v6 (F := Ideal) x1) (val_main_v14 (F := Ideal) x1) (factor_nonneg x1)
    scatter_S100000x64_S1700000x1_S1700000x64_1_0_0_1 scatter_S100000x64_S1700000x1_S1700000x64_1_0_0_1_wf rfl
    gather_S100000x64_S1700000x1_S1700000x64_1_0_n_n_0_1_164 gather_S100000x64_S1700000x1_S1700000x64_1_0_n_n_0_1_164_wf rfl
    gather_S100000_S1700000x1_S1700000_n_0_n_n_0_1_1 gather_S100000_S1700000x1_S1700000_n_0_n_n_0_1_1_wf rfl
    (val_main_v85 (F := Ideal)) (fun i => (Cert.LibAxisReads.const_broadcast_apply _ _ _ i).trans Ideal.ofBits_zero_f32)
    (val_main_v80 (F := Ideal) x1) (val_main_v86 (F := Ideal) x1) rfl rfl
    (val_main_v83 (F := Ideal) x1) (fun e q => norm64_read x1 e q)).symm

/-- Layer 3: the reference's scattered sum of weighted gathered rows is the kernel's aggregation of the same rows. -/
theorem agg_3 (x0 : FVec Ideal S100000x128 .f32) (x1 : IVec S2x1600000 32) (x2 : FVec Ideal S128x64 .f32) (x3 : FVec Ideal S64 .f32) (x4 : FVec Ideal S64x64 .f32) (x5 : FVec Ideal S64 .f32) (x6 : FVec Ideal S64x64 .f32) (x7 : FVec Ideal S64 .f32) (x8 : FVec Ideal S64x64 .f32) :
    val_main_v109 (F := Ideal) x0 x1 x2 x3 x4 x5 x6 x7 x8
      = Cert.KNet.agg64 (val_main_v96 (F := Ideal) x0 x1 x2 x3 x4 x5 x6 x7 x8) (val_main_v3 (F := Ideal) x1) (val_main_v6 (F := Ideal) x1) (val_main_v14 (F := Ideal) x1) := by
  unfold val_main_v109 val_main_v106 val_main_v103
  exact (Cert.AggLaw.agg64_law (val_main_v96 (F := Ideal) x0 x1 x2 x3 x4 x5 x6 x7 x8) (val_main_v3 (F := Ideal) x1) (val_main_v6 (F := Ideal) x1) (val_main_v14 (F := Ideal) x1) (factor_nonneg x1)
    scatter_S100000x64_S1700000x1_S1700000x64_1_0_0_1 scatter_S100000x64_S1700000x1_S1700000x64_1_0_0_1_wf rfl
    gather_S100000x64_S1700000x1_S1700000x64_1_0_n_n_0_1_164 gather_S100000x64_S1700000x1_S1700000x64_1_0_n_n_0_1_164_wf rfl
    gather_S100000_S1700000x1_S1700000_n_0_n_n_0_1_1 gather_S100000_S1700000x1_S1700000_n_0_n_n_0_1_1_wf rfl
    (val_main_v107 (F := Ideal)) (fun i => (Cert.LibAxisReads.const_broadcast_apply _ _ _ i).trans Ideal.ofBits_zero_f32)
    (val_main_v102 (F := Ideal) x1) (val_main_v108 (F := Ideal) x1) rfl rfl
    (val_main_v105 (F := Ideal) x1) (fun e q => norm64_read x1 e q)).symm

/-- Layer 4: the reference's scattered sum of weighted gathered rows is the kernel's aggregation of the same rows. -/
theorem agg_4 (x0 : FVec Ideal S100000x128 .f32) (x1 : IVec S2x1600000 32) (x2 : FVec Ideal S128x64 .f32) (x3 : FVec Ideal S64 .f32) (x4 : FVec Ideal S64x64 .f32) (x5 : FVec Ideal S64 .f32) (x6 : FVec Ideal S64x64 .f32) (x7 : FVec Ideal S64 .f32) (x8 : FVec Ideal S64x64 .f32) (x9 : FVec Ideal S64 .f32) (x10 : FVec Ideal S64x64 .f32) :
    val_main_v131 (F := Ideal) x0 x1 x2 x3 x4 x5 x6 x7 x8 x9 x10
      = Cert.KNet.agg64 (val_main_v118 (F := Ideal) x0 x1 x2 x3 x4 x5 x6 x7 x8 x9 x10) (val_main_v3 (F := Ideal) x1) (val_main_v6 (F := Ideal) x1) (val_main_v14 (F := Ideal) x1) := by
  unfold val_main_v131 val_main_v128 val_main_v125
  exact (Cert.AggLaw.agg64_law (val_main_v118 (F := Ideal) x0 x1 x2 x3 x4 x5 x6 x7 x8 x9 x10) (val_main_v3 (F := Ideal) x1) (val_main_v6 (F := Ideal) x1) (val_main_v14 (F := Ideal) x1) (factor_nonneg x1)
    scatter_S100000x64_S1700000x1_S1700000x64_1_0_0_1 scatter_S100000x64_S1700000x1_S1700000x64_1_0_0_1_wf rfl
    gather_S100000x64_S1700000x1_S1700000x64_1_0_n_n_0_1_164 gather_S100000x64_S1700000x1_S1700000x64_1_0_n_n_0_1_164_wf rfl
    gather_S100000_S1700000x1_S1700000_n_0_n_n_0_1_1 gather_S100000_S1700000x1_S1700000_n_0_n_n_0_1_1_wf rfl
    (val_main_v129 (F := Ideal)) (fun i => (Cert.LibAxisReads.const_broadcast_apply _ _ _ i).trans Ideal.ofBits_zero_f32)
    (val_main_v124 (F := Ideal) x1) (val_main_v130 (F := Ideal) x1) rfl rfl
    (val_main_v127 (F := Ideal) x1) (fun e q => norm64_read x1 e q)).symm

/-- Layer 5: the reference's scattered sum of weighted gathered rows is the kernel's aggregation of the same rows. -/
theorem agg_5 (x0 : FVec Ideal S100000x128 .f32) (x1 : IVec S2x1600000 32) (x2 : FVec Ideal S128x64 .f32) (x3 : FVec Ideal S64 .f32) (x4 : FVec Ideal S64x64 .f32) (x5 : FVec Ideal S64 .f32) (x6 : FVec Ideal S64x64 .f32) (x7 : FVec Ideal S64 .f32) (x8 : FVec Ideal S64x64 .f32) (x9 : FVec Ideal S64 .f32) (x10 : FVec Ideal S64x64 .f32) (x11 : FVec Ideal S64 .f32) (x12 : FVec Ideal S64x4 .f32) :
    val_main_v153 (F := Ideal) x0 x1 x2 x3 x4 x5 x6 x7 x8 x9 x10 x11 x12
      = Cert.KNet.agg4 (val_main_v140 (F := Ideal) x0 x1 x2 x3 x4 x5 x6 x7 x8 x9 x10 x11 x12) (val_main_v3 (F := Ideal) x1) (val_main_v6 (F := Ideal) x1) (val_main_v14 (F := Ideal) x1) := by
  unfold val_main_v153 val_main_v150 val_main_v147
  exact (Cert.AggLaw.agg4_law (val_main_v140 (F := Ideal) x0 x1 x2 x3 x4 x5 x6 x7 x8 x9 x10 x11 x12) (val_main_v3 (F := Ideal) x1) (val_main_v6 (F := Ideal) x1) (val_main_v14 (F := Ideal) x1) (factor_nonneg x1)
    scatter_S100000x4_S1700000x1_S1700000x4_1_0_0_1 scatter_S100000x4_S1700000x1_S1700000x4_1_0_0_1_wf rfl
    gather_S100000x4_S1700000x1_S1700000x4_1_0_n_n_0_1_14 gather_S100000x4_S1700000x1_S1700000x4_1_0_n_n_0_1_14_wf rfl
    gather_S100000_S1700000x1_S1700000_n_0_n_n_0_1_1 gather_S100000_S1700000x1_S1700000_n_0_n_n_0_1_1_wf rfl
    (val_main_v151 (F := Ideal)) (fun i => (Cert.LibAxisReads.const_broadcast_apply _ _ _ i).trans Ideal.ofBits_zero_f32)
    (val_main_v146 (F := Ideal) x1) (val_main_v152 (F := Ideal) x1) rfl rfl
    (val_main_v149 (F := Ideal) x1) (fun e q => norm4_read x1 e q)).symm

/-- Layer 1's dense part: the reference's product of the shifted, rectified rows with the weight is the dense layer
    of the aggregated array, the bias read as a row. -/
theorem dense_1 (x0 : FVec Ideal S100000x128 .f32) (x1 : IVec S2x1600000 32) (x2 : FVec Ideal S128x64 .f32) (x3 : FVec Ideal S64 .f32) (x4 : FVec Ideal S64x64 .f32) :
    val_main_v52 (F := Ideal) x0 x1 x2 x3 x4
      = Cert.Spec.denseAct 64 (val_main_v43 (F := Ideal) x0 x1 x2) (Cert.KNet.biasRow x3) x4 := by
  funext i
  obtain ⟨r, e, rfl⟩ : ∃ (r : Fin 100000) (e : Fin 64), i = ix2 r e := ⟨i 0, i 1, eq_ix2 i⟩
  rw [Cert.Spec.denseAct_ix2, val_main_v52_apply]
  unfold Cert.Spec.denseActAt
  refine Finset.sum_congr rfl fun k _ => ?_
  have el : lidx_main_v52 (ix2 r e) k = ix2 r k := funext fun a => Fin.ext (by match a with | ⟨0, _⟩ => rfl | ⟨1, _⟩ => rfl)
  have er : ridx_main_v52 (ix2 r e) k = ix2 k e := funext fun a => Fin.ext (by match a with | ⟨0, _⟩ => rfl | ⟨1, _⟩ => rfl)
  rw [el, er]
  exact congrArg (· * x4 (ix2 k e)) (leaky_read (val_main_v43 (F := Ideal) x0 x1 x2) x3 r k)

/-- Layer 2's dense part: the reference's product of the shifted, rectified rows with the weight is the dense layer
    of the aggregated array, the bias read as a row. -/
theorem dense_2 (x0 : FVec Ideal S100000x128 .f32) (x1 : IVec S2x1600000 32) (x2 : FVec Ideal S128x64 .f32) (x3 : FVec Ideal S64 .f32) (x4 : FVec Ideal S64x64 .f32) (x5 : FVec Ideal S64 .f32) (x6 : FVec Ideal S64x64 .f32) :
    val_main_v74 (F := Ideal) x0 x1 x2 x3 x4 x5 x6
      = Cert.Spec.denseAct 64 (val_main_v65 (F := Ideal) x0 x1 x2 x3 x4) (Cert.KNet.biasRow x5) x6 := by
  funext i
  obtain ⟨r, e, rfl⟩ : ∃ (r : Fin 100000) (e : Fin 64), i = ix2 r e := ⟨i 0, i 1, eq_ix2 i⟩
  rw [Cert.Spec.denseAct_ix2, val_main_v74_apply]
  unfold Cert.Spec.denseActAt
  refine Finset.sum_congr rfl fun k _ => ?_
  have el : lidx_main_v74 (ix2 r e) k = ix2 r k := funext fun a => Fin.ext (by match a with | ⟨0, _⟩ => rfl | ⟨1, _⟩ => rfl)
  have er : ridx_main_v74 (ix2 r e) k = ix2 k e := funext fun a => Fin.ext (by match a with | ⟨0, _⟩ => rfl | ⟨1, _⟩ => rfl)
  rw [el, er]
  exact congrArg (· * x6 (ix2 k e)) (leaky_read (val_main_v65 (F := Ideal) x0 x1 x2 x3 x4) x5 r k)

/-- Layer 3's dense part: the reference's product of the shifted, rectified rows with the weight is the dense layer
    of the aggregated array, the bias read as a row. -/
theorem dense_3 (x0 : FVec Ideal S100000x128 .f32) (x1 : IVec S2x1600000 32) (x2 : FVec Ideal S128x64 .f32) (x3 : FVec Ideal S64 .f32) (x4 : FVec Ideal S64x64 .f32) (x5 : FVec Ideal S64 .f32) (x6 : FVec Ideal S64x64 .f32) (x7 : FVec Ideal S64 .f32) (x8 : FVec Ideal S64x64 .f32) :
    val_main_v96 (F := Ideal) x0 x1 x2 x3 x4 x5 x6 x7 x8
      = Cert.Spec.denseAct 64 (val_main_v87 (F := Ideal) x0 x1 x2 x3 x4 x5 x6) (Cert.KNet.biasRow x7) x8 := by
  funext i
  obtain ⟨r, e, rfl⟩ : ∃ (r : Fin 100000) (e : Fin 64), i = ix2 r e := ⟨i 0, i 1, eq_ix2 i⟩
  rw [Cert.Spec.denseAct_ix2, val_main_v96_apply]
  unfold Cert.Spec.denseActAt
  refine Finset.sum_congr rfl fun k _ => ?_
  have el : lidx_main_v96 (ix2 r e) k = ix2 r k := funext fun a => Fin.ext (by match a with | ⟨0, _⟩ => rfl | ⟨1, _⟩ => rfl)
  have er : ridx_main_v96 (ix2 r e) k = ix2 k e := funext fun a => Fin.ext (by match a with | ⟨0, _⟩ => rfl | ⟨1, _⟩ => rfl)
  rw [el, er]
  exact congrArg (· * x8 (ix2 k e)) (leaky_read (val_main_v87 (F := Ideal) x0 x1 x2 x3 x4 x5 x6) x7 r k)

/-- Layer 4's dense part: the reference's product of the shifted, rectified rows with the weight is the dense layer
    of the aggregated array, the bias read as a row. -/
theorem dense_4 (x0 : FVec Ideal S100000x128 .f32) (x1 : IVec S2x1600000 32) (x2 : FVec Ideal S128x64 .f32) (x3 : FVec Ideal S64 .f32) (x4 : FVec Ideal S64x64 .f32) (x5 : FVec Ideal S64 .f32) (x6 : FVec Ideal S64x64 .f32) (x7 : FVec Ideal S64 .f32) (x8 : FVec Ideal S64x64 .f32) (x9 : FVec Ideal S64 .f32) (x10 : FVec Ideal S64x64 .f32) :
    val_main_v118 (F := Ideal) x0 x1 x2 x3 x4 x5 x6 x7 x8 x9 x10
      = Cert.Spec.denseAct 64 (val_main_v109 (F := Ideal) x0 x1 x2 x3 x4 x5 x6 x7 x8) (Cert.KNet.biasRow x9) x10 := by
  funext i
  obtain ⟨r, e, rfl⟩ : ∃ (r : Fin 100000) (e : Fin 64), i = ix2 r e := ⟨i 0, i 1, eq_ix2 i⟩
  rw [Cert.Spec.denseAct_ix2, val_main_v118_apply]
  unfold Cert.Spec.denseActAt
  refine Finset.sum_congr rfl fun k _ => ?_
  have el : lidx_main_v118 (ix2 r e) k = ix2 r k := funext fun a => Fin.ext (by match a with | ⟨0, _⟩ => rfl | ⟨1, _⟩ => rfl)
  have er : ridx_main_v118 (ix2 r e) k = ix2 k e := funext fun a => Fin.ext (by match a with | ⟨0, _⟩ => rfl | ⟨1, _⟩ => rfl)
  rw [el, er]
  exact congrArg (· * x10 (ix2 k e)) (leaky_read (val_main_v109 (F := Ideal) x0 x1 x2 x3 x4 x5 x6 x7 x8) x9 r k)

/-- Layer 5's dense part: the reference's product of the shifted, rectified rows with the weight is the dense layer
    of the aggregated array, the bias read as a row. -/
theorem dense_5 (x0 : FVec Ideal S100000x128 .f32) (x1 : IVec S2x1600000 32) (x2 : FVec Ideal S128x64 .f32) (x3 : FVec Ideal S64 .f32) (x4 : FVec Ideal S64x64 .f32) (x5 : FVec Ideal S64 .f32) (x6 : FVec Ideal S64x64 .f32) (x7 : FVec Ideal S64 .f32) (x8 : FVec Ideal S64x64 .f32) (x9 : FVec Ideal S64 .f32) (x10 : FVec Ideal S64x64 .f32) (x11 : FVec Ideal S64 .f32) (x12 : FVec Ideal S64x4 .f32) :
    val_main_v140 (F := Ideal) x0 x1 x2 x3 x4 x5 x6 x7 x8 x9 x10 x11 x12
      = Cert.Spec.denseAct 4 (val_main_v131 (F := Ideal) x0 x1 x2 x3 x4 x5 x6 x7 x8 x9 x10) (Cert.KNet.biasRow x11) x12 := by
  funext i
  obtain ⟨r, e, rfl⟩ : ∃ (r : Fin 100000) (e : Fin 4), i = ix2 r e := ⟨i 0, i 1, eq_ix2 i⟩
  rw [Cert.Spec.denseAct_ix2, val_main_v140_apply]
  unfold Cert.Spec.denseActAt
  refine Finset.sum_congr rfl fun k _ => ?_
  have el : lidx_main_v140 (ix2 r e) k = ix2 r k := funext fun a => Fin.ext (by match a with | ⟨0, _⟩ => rfl | ⟨1, _⟩ => rfl)
  have er : ridx_main_v140 (ix2 r e) k = ix2 k e := funext fun a => Fin.ext (by match a with | ⟨0, _⟩ => rfl | ⟨1, _⟩ => rfl)
  rw [el, er]
  exact congrArg (· * x12 (ix2 k e)) (leaky_read (val_main_v131 (F := Ideal) x0 x1 x2 x3 x4 x5 x6 x7 x8 x9 x10) x11 r k)

/-- THE NETWORKS AGREE: the kernel's whole network, at the reference's own source column, target column and node
    factor, is the reference's last stage. -/
theorem net_eq (x0 : FVec Ideal S100000x128 .f32) (x1 : IVec S2x1600000 32) (x2 : FVec Ideal S128x64 .f32) (x3 : FVec Ideal S64 .f32) (x4 : FVec Ideal S64x64 .f32) (x5 : FVec Ideal S64 .f32) (x6 : FVec Ideal S64x64 .f32) (x7 : FVec Ideal S64 .f32) (x8 : FVec Ideal S64x64 .f32) (x9 : FVec Ideal S64 .f32) (x10 : FVec Ideal S64x64 .f32) (x11 : FVec Ideal S64 .f32) (x12 : FVec Ideal S64x4 .f32) (x13 : FVec Ideal S4 .f32) :
    Cert.KNet.kNet x0 (val_main_v3 (F := Ideal) x1) (val_main_v6 (F := Ideal) x1) (val_main_v14 (F := Ideal) x1) x2 x3 x4 x5 x6 x7 x8 x9 x10 x11 x12 x13
      = val_main_v156 (F := Ideal) x0 x1 x2 x3 x4 x5 x6 x7 x8 x9 x10 x11 x12 x13 := by
  unfold Cert.KNet.kNet
  dsimp only
  rw [← dense_0 x0 x2, ← agg_0 x0 x1 x2, ← dense_1 x0 x1 x2 x3 x4, ← agg_1 x0 x1 x2 x3 x4, ← dense_2 x0 x1 x2 x3 x4 x5 x6,
    ← agg_2 x0 x1 x2 x3 x4 x5 x6, ← dense_3 x0 x1 x2 x3 x4 x5 x6 x7 x8, ← agg_3 x0 x1 x2 x3 x4 x5 x6 x7 x8,
    ← dense_4 x0 x1 x2 x3 x4 x5 x6 x7 x8 x9 x10, ← agg_4 x0 x1 x2 x3 x4 x5 x6 x7 x8 x9 x10,
    ← dense_5 x0 x1 x2 x3 x4 x5 x6 x7 x8 x9 x10 x11 x12, ← agg_5 x0 x1 x2 x3 x4 x5 x6 x7 x8 x9 x10 x11 x12]
  rfl

end Cert.Bridge

end
-- ==== Proof.KValue.lean ====
/-
  The kernel program's result array is the reference's last stage of the same arguments.

  The result array at the last boundary is the kernel's network of the arguments and of the source column, target
  column and node factor the graph preparation leaves; the graph preparation is, operation for operation, the
  reference's own; and the kernel's network at the reference's three graph arrays is the reference's last stage.
-/
import proofs.«171207_j26164940767513_2_alg».proof.Proof.KChain
import proofs.«171207_j26164940767513_2_alg».proof.Proof.KGraph
import proofs.«171207_j26164940767513_2_alg».proof.Proof.Bridge

noncomputable section

namespace Cert.KValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The result array at the last boundary is the reference's last stage of the launch's argument arrays. -/
theorem result_val : W14 (F := Ideal) m ρ c (Proc.devRef .tc main_v124)
    = Cert.ReferenceIdeal.ReadP.val_main_v156 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [Cert.KChain.result_eq, Cert.KGraph.W2_v3, Cert.KGraph.W2_v6, Cert.KGraph.W2_v14, Cert.KGraph.W2_arg0, Cert.KGraph.W2_arg2, Cert.KGraph.W2_arg3, Cert.KGraph.W2_arg4, Cert.KGraph.W2_arg5, Cert.KGraph.W2_arg6, Cert.KGraph.W2_arg7, Cert.KGraph.W2_arg8, Cert.KGraph.W2_arg9, Cert.KGraph.W2_arg10, Cert.KGraph.W2_arg11, Cert.KGraph.W2_arg12, Cert.KGraph.W2_arg13]
  exact Cert.Bridge.net_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

end Cert.KValue

end
-- ==== Proof.RefRun.lean ====
/- The run of the reference program, read back at its last stage.

   The reference's entry function is a straight line of 195 host operations. Each operation writes one buffer
   with a function of the buffers it reads, so after the line has run a buffer holds the composition of those
   functions over the contents the arguments had at launch. The stages `val_main_vN` are these compositions, one
   per operation, each written over the earlier stages.

   The line is read in seven pieces. The first forty operations compute the edge data every layer reads: the two
   endpoint lists with the self loops appended (main_v3, main_v6) and the symmetric normalisation weight of each edge
   (main_v29). Each of the next five pieces is one dense layer: the product with the weight matrix, the gather along
   the edges, the weighting, the scatter-add to the target nodes, the bias and the leaky rectifier; it ends at
   main_v51, main_v73, main_v95, main_v117, main_v139. The last piece is the sixth layer, which has no rectifier,
   and ends at the result main_v156. A piece reads the rectified output of the piece before it, the edge data and
   its own two arguments, and writes none of the edge data and no argument; so if the buffers it reads hold their
   stages when it starts, the buffer it ends at holds its stage when it stops. Chaining the seven pieces gives the
   result buffer at the last stage, `val_main_v156`, of the fourteen arguments' launch contents. -/
import proofs.«171207_j26164940767513_2_alg».proof.Proof.RefStages
import proofs.«171207_j26164940767513_2_alg».proof.Proof.RefOps

noncomputable section

namespace Cert.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## Cutting a line -/

/-- Running a concatenation is running its two parts in order. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- A line from position `i` on is its next `n` operations, then the line from position `j = i + n` on. -/
theorem after_cut (i n j : Nat) (hj : j = i + n) (l : List (HloOp τ sig (Elt F))) (V : Valuation τ sig (Elt F)) :
    after (l.drop i) V = after (l.drop j) (after ((l.drop i).take n) V) := by
  have e : l.drop j = (l.drop i).drop n := by rw [hj, List.drop_drop]
  rw [e, ← after_append, List.take_append_drop]

/-! ## What every piece finds and leaves in place -/

/-- In `W` the edge data hold their stages and the fourteen arguments hold the contents `x0 … x13`. -/
structure Carries (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S64x4, .f32⟩ : BufTy).Contents (Elt F)) (x13 : (⟨S4, .f32⟩ : BufTy).Contents (Elt F))
    (W : Valuation τ sig (Elt F)) : Prop where
  v3 : W (Proc.devRef .tc main_v3) = val_main_v3 (F := F) x1
  v6 : W (Proc.devRef .tc main_v6) = val_main_v6 (F := F) x1
  v29 : W (Proc.devRef .tc main_v29) = val_main_v29 (F := F) x1
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10
  a11 : W (Proc.devRef .tc main_arg11) = x11
  a12 : W (Proc.devRef .tc main_arg12) = x12
  a13 : W (Proc.devRef .tc main_arg13) = x13

set_option maxRecDepth 8192 in
set_option maxHeartbeats 2000000 in
/-- The first forty operations compute the edge data from the edge list and write no argument. -/
theorem piece0 (V : Valuation τ sig (Elt F)) :
    Carries (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))
      (after ((ops.drop 0).take 40) V) := by
  simp only [ops, List.drop_succ_cons, List.drop_zero, List.take_succ_cons, List.take_zero]
  refine ⟨?_, ?_, ?_, ?_, ?_, ?_, ?_, ?_, ?_, ?_, ?_, ?_, ?_, ?_, ?_, ?_, ?_⟩ <;> (after_results_simp <;> rfl)

/-! ## The pieces end at their stages -/

set_option maxRecDepth 8192 in
set_option maxHeartbeats 2000000 in
/-- Layer 1 (operations 40 to 66): from the node features main_arg0, the edge data, the weights main_arg2 and the
    bias main_arg3 to the rectified output main_v51; it writes none of the edge data and no argument. -/
theorem piece1 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S64x4, .f32⟩ : BufTy).Contents (Elt F)) (x13 : (⟨S4, .f32⟩ : BufTy).Contents (Elt F))
    (W : Valuation τ sig (Elt F)) (h : Carries x0 x1 x2 x3 x4 x5 x6 x7 x8 x9 x10 x11 x12 x13 W) :
    Carries x0 x1 x2 x3 x4 x5 x6 x7 x8 x9 x10 x11 x12 x13 (after ((ops.drop 40).take 27) W)
      ∧ after ((ops.drop 40).take 27) W (Proc.devRef .tc main_v51) = val_main_v51 (F := F) x0 x1 x2 x3 := by
  simp only [ops, List.drop_succ_cons, List.drop_zero, List.take_succ_cons, List.take_zero]
  constructor
  · refine ⟨?_, ?_, ?_, ?_, ?_, ?_, ?_, ?_, ?_, ?_, ?_, ?_, ?_, ?_, ?_, ?_, ?_⟩ <;>
      (after_results_simp
       first | exact h.v3 | exact h.v6 | exact h.v29 | exact h.a0 | exact h.a1 | exact h.a2 | exact h.a3 | exact h.a4 | exact h.a5 | exact h.a6 | exact h.a7 | exact h.a8 | exact h.a9 | exact h.a10 | exact h.a11 | exact h.a12 | exact h.a13)
  · after_results_simp
    rw [h.v3, h.v6, h.v29, h.a0, h.a2, h.a3]
    rfl

set_option maxRecDepth 8192 in
set_option maxHeartbeats 2000000 in
/-- Layer 2 (operations 67 to 93): from the rectified output main_v51, the edge data, the weights main_arg4 and the
    bias main_arg5 to the rectified output main_v73; it writes none of the edge data and no argument. -/
theorem piece2 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S64x4, .f32⟩ : BufTy).Contents (Elt F)) (x13 : (⟨S4, .f32⟩ : BufTy).Contents (Elt F))
    (W : Valuation τ sig (Elt F)) (h : Carries x0 x1 x2 x3 x4 x5 x6 x7 x8 x9 x10 x11 x12 x13 W)
    (hp : W (Proc.devRef .tc main_v51) = val_main_v51 (F := F) x0 x1 x2 x3) :
    Carries x0 x1 x2 x3 x4 x5 x6 x7 x8 x9 x10 x11 x12 x13 (after ((ops.drop 67).take 27) W)
      ∧ after ((ops.drop 67).take 27) W (Proc.devRef .tc main_v73) = val_main_v73 (F := F) x0 x1 x2 x3 x4 x5 := by
  simp only [ops, List.drop_succ_cons, List.drop_zero, List.take_succ_cons, List.take_zero]
  constructor
  · refine ⟨?_, ?_, ?_, ?_, ?_, ?_, ?_, ?_, ?_, ?_, ?_, ?_, ?_, ?_, ?_, ?_, ?_⟩ <;>
      (after_results_simp
       first | exact h.v3 | exact h.v6 | exact h.v29 | exact h.a0 | exact h.a1 | exact h.a2 | exact h.a3 | exact h.a4 | exact h.a5 | exact h.a6 | exact h.a7 | exact h.a8 | exact h.a9 | exact h.a10 | exact h.a11 | exact h.a12 | exact h.a13)
  · after_results_simp
    rw [h.v3, h.v6, h.v29, hp, h.a4, h.a5]
    rfl

set_option maxRecDepth 8192 in
set_option maxHeartbeats 2000000 in
/-- Layer 3 (operations 94 to 120): from the rectified output main_v73, the edge data, the weights main_arg6 and the
    bias main_arg7 to the rectified output main_v95; it writes none of the edge data and no argument. -/
theorem piece3 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S64x4, .f32⟩ : BufTy).Contents (Elt F)) (x13 : (⟨S4, .f32⟩ : BufTy).Contents (Elt F))
    (W : Valuation τ sig (Elt F)) (h : Carries x0 x1 x2 x3 x4 x5 x6 x7 x8 x9 x10 x11 x12 x13 W)
    (hp : W (Proc.devRef .tc main_v73) = val_main_v73 (F := F) x0 x1 x2 x3 x4 x5) :
    Carries x0 x1 x2 x3 x4 x5 x6 x7 x8 x9 x10 x11 x12 x13 (after ((ops.drop 94).take 27) W)
      ∧ after ((ops.drop 94).take 27) W (Proc.devRef .tc main_v95) = val_main_v95 (F := F) x0 x1 x2 x3 x4 x5 x6 x7 := by
  simp only [ops, List.drop_succ_cons, List.drop_zero, List.take_succ_cons, List.take_zero]
  constructor
  · refine ⟨?_, ?_, ?_, ?_, ?_, ?_, ?_, ?_, ?_, ?_, ?_, ?_, ?_, ?_, ?_, ?_, ?_⟩ <;>
      (after_results_simp
       first | exact h.v3 | exact h.v6 | exact h.v29 | exact h.a0 | exact h.a1 | exact h.a2 | exact h.a3 | exact h.a4 | exact h.a5 | exact h.a6 | exact h.a7 | exact h.a8 | exact h.a9 | exact h.a10 | exact h.a11 | exact h.a12 | exact h.a13)
  · after_results_simp
    rw [h.v3, h.v6, h.v29, hp, h.a6, h.a7]
    rfl

set_option maxRecDepth 8192 in
set_option maxHeartbeats 2000000 in
/-- Layer 4 (operations 121 to 147): from the rectified output main_v95, the edge data, the weights main_arg8 and the
    bias main_arg9 to the rectified output main_v117; it writes none of the edge data and no argument. -/
theorem piece4 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S64x4, .f32⟩ : BufTy).Contents (Elt F)) (x13 : (⟨S4, .f32⟩ : BufTy).Contents (Elt F))
    (W : Valuation τ sig (Elt F)) (h : Carries x0 x1 x2 x3 x4 x5 x6 x7 x8 x9 x10 x11 x12 x13 W)
    (hp : W (Proc.devRef .tc main_v95) = val_main_v95 (F := F) x0 x1 x2 x3 x4 x5 x6 x7) :
    Carries x0 x1 x2 x3 x4 x5 x6 x7 x8 x9 x10 x11 x12 x13 (after ((ops.drop 121).take 27) W)
      ∧ after ((ops.drop 121).take 27) W (Proc.devRef .tc main_v117) = val_main_v117 (F := F) x0 x1 x2 x3 x4 x5 x6 x7 x8 x9 := by
  simp only [ops, List.drop_succ_cons, List.drop_zero, List.take_succ_cons, List.take_zero]
  constructor
  · refine ⟨?_, ?_, ?_, ?_, ?_, ?_, ?_, ?_, ?_, ?_, ?_, ?_, ?_, ?_, ?_, ?_, ?_⟩ <;>
      (after_results_simp
       first | exact h.v3 | exact h.v6 | exact h.v29 | exact h.a0 | exact h.a1 | exact h.a2 | exact h.a3 | exact h.a4 | exact h.a5 | exact h.a6 | exact h.a7 | exact h.a8 | exact h.a9 | exact h.a10 | exact h.a11 | exact h.a12 | exact h.a13)
  · after_results_simp
    rw [h.v3, h.v6, h.v29, hp, h.a8, h.a9]
    rfl

set_option maxRecDepth 8192 in
set_option maxHeartbeats 2000000 in
/-- Layer 5 (operations 148 to 174): from the rectified output main_v117, the edge data, the weights main_arg10 and the
    bias main_arg11 to the rectified output main_v139; it writes none of the edge data and no argument. -/
theorem piece5 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S64x4, .f32⟩ : BufTy).Contents (Elt F)) (x13 : (⟨S4, .f32⟩ : BufTy).Contents (Elt F))
    (W : Valuation τ sig (Elt F)) (h : Carries x0 x1 x2 x3 x4 x5 x6 x7 x8 x9 x10 x11 x12 x13 W)
    (hp : W (Proc.devRef .tc main_v117) = val_main_v117 (F := F) x0 x1 x2 x3 x4 x5 x6 x7 x8 x9) :
    Carries x0 x1 x2 x3 x4 x5 x6 x7 x8 x9 x10 x11 x12 x13 (after ((ops.drop 148).take 27) W)
      ∧ after ((ops.drop 148).take 27) W (Proc.devRef .tc main_v139) = val_main_v139 (F := F) x0 x1 x2 x3 x4 x5 x6 x7 x8 x9 x10 x11 := by
  simp only [ops, List.drop_succ_cons, List.drop_zero, List.take_succ_cons, List.take_zero]
  constructor
  · refine ⟨?_, ?_, ?_, ?_, ?_, ?_, ?_, ?_, ?_, ?_, ?_, ?_, ?_, ?_, ?_, ?_, ?_⟩ <;>
      (after_results_simp
       first | exact h.v3 | exact h.v6 | exact h.v29 | exact h.a0 | exact h.a1 | exact h.a2 | exact h.a3 | exact h.a4 | exact h.a5 | exact h.a6 | exact h.a7 | exact h.a8 | exact h.a9 | exact h.a10 | exact h.a11 | exact h.a12 | exact h.a13)
  · after_results_simp
    rw [h.v3, h.v6, h.v29, hp, h.a10, h.a11]
    rfl

set_option maxRecDepth 8192 in
set_option maxHeartbeats 2000000 in
/-- Layer 6 (operations 175 to 194), which has no rectifier: from main_v139, the edge data, the weights main_arg12 and
    the bias main_arg13 to the result main_v156. -/
theorem piece6 (x0 : (⟨S100000x128, .f32⟩ : BufTy).Contents (Elt F)) (x1 : (⟨S2x1600000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F)) (x12 : (⟨S64x4, .f32⟩ : BufTy).Contents (Elt F)) (x13 : (⟨S4, .f32⟩ : BufTy).Contents (Elt F))
    (W : Valuation τ sig (Elt F)) (h : Carries x0 x1 x2 x3 x4 x5 x6 x7 x8 x9 x10 x11 x12 x13 W)
    (hp : W (Proc.devRef .tc main_v139) = val_main_v139 (F := F) x0 x1 x2 x3 x4 x5 x6 x7 x8 x9 x10 x11) :
    after (ops.drop 175) W (Proc.devRef .tc main_v156) = val_main_v156 (F := F) x0 x1 x2 x3 x4 x5 x6 x7 x8 x9 x10 x11 x12 x13 := by
  simp only [ops, List.drop_succ_cons, List.drop_zero]
  after_results_simp
  rw [h.v3, h.v6, h.v29, hp, h.a12, h.a13]
  rfl

/-! ## The whole line -/

/-- After the whole line the result buffer holds the last stage of the arguments' contents before it. -/
theorem result (V : Valuation τ sig (Elt F)) :
    after ops V (Proc.devRef .tc main_v156) = val_main_v156 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  have p0 := piece0 (F := F) V
  have p1 := piece1 _ _ _ _ _ _ _ _ _ _ _ _ _ _ _ p0
  have p2 := piece2 _ _ _ _ _ _ _ _ _ _ _ _ _ _ _ p1.1 p1.2
  have p3 := piece3 _ _ _ _ _ _ _ _ _ _ _ _ _ _ _ p2.1 p2.2
  have p4 := piece4 _ _ _ _ _ _ _ _ _ _ _ _ _ _ _ p3.1 p3.2
  have p5 := piece5 _ _ _ _ _ _ _ _ _ _ _ _ _ _ _ p4.1 p4.2
  have p6 := piece6 _ _ _ _ _ _ _ _ _ _ _ _ _ _ _ p5.1 p5.2
  have cut : after (ops (F := F)) V = after (ops.drop 175) _ :=
    (after_cut 0 40 40 rfl ops V).trans <| (after_cut 40 27 67 rfl ops _).trans <| (after_cut 67 27 94 rfl ops _).trans <|
      (after_cut 94 27 121 rfl ops _).trans <| (after_cut 121 27 148 rfl ops _).trans (after_cut 148 27 175 rfl ops _)
  rw [cut]
  exact p6

set_option maxRecDepth 8192 in
set_option maxHeartbeats 4000000 in
/-- On every device, from any memory with zero counters, every weakly fair execution of the reference terminates
    with the result buffer at the last stage of the arguments' launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v156)
          = Cert.ReferenceIdeal.ReadP.val_main_v156 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v156).trans (result (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl)⟩)
    (run_seq scopedRefs_eq scopedSems_eq defs main (fun _ => ops) main_eq (fun _ => ops_sub) m ρ)

end Cert.RefRun

end
-- ==== Proof.lean ====
/-
  Six graph-convolution layers over a graph of 100000 nodes and 1700000 edges (self loops included), as a kernel program
  of six pipelined dense regions among host gathers and scatter-adds, against a plain reference.

  Both programs normalise symmetrically with the node factor  dinv = 1/√deg  where the degree is positive and 0
  elsewhere. The reference multiplies every travelling row by its edge's weight  dinv[src] · dinv[dst]  before the rows
  are added up at their targets. The kernel program scales the rows by  dinv  once per node before they travel and scales
  the sums by  dinv  once per node after they arrive, and it applies each layer's bias and leaky rectifier inside the
  region that computes the next dense product. On the extended reals the two agree with no finiteness: the factor is a
  nonnegative real at every node, and such a factor moves across any finite sum; the rest is association of products
  and the same dense sums entry by entry. A change of float format is the identity here, and zero and the rectifier's
  slope are the same words on both sides.

  The kernel's run with its result named and the reference's run over its named stages give both result arrays; the
  frames are the two runs with the result dropped; nothing was rewritten when the kernel was idealized.
-/
import proofs.«171207_j26164940767513_2_alg».proof.Defs
import proofs.«171207_j26164940767513_2_alg».proof.Proof.Gen.Kernel
import proofs.«171207_j26164940767513_2_alg».proof.Proof.Gen.Kernel.Frame
import proofs.«171207_j26164940767513_2_alg».proof.Proof.Gen.KernelIdeal
import proofs.«171207_j26164940767513_2_alg».proof.Proof.Gen.KernelIdeal.Frame
import proofs.«171207_j26164940767513_2_alg».proof.Proof.Gen.ReferenceIdeal
import proofs.«171207_j26164940767513_2_alg».proof.Proof.Gen.Pre_finite_inputs
import proofs.«171207_j26164940767513_2_alg».proof.Proof.KRun
import proofs.«171207_j26164940767513_2_alg».proof.Proof.KValue
import proofs.«171207_j26164940767513_2_alg».proof.Proof.RefRun

noncomputable section

namespace Cert.Proof

open Idealize.ShloMosaic Idealize.SL.Sem

/-- The word-level kernel program terminates, nothing faulting, its arguments unchanged. -/
theorem frame_k : Cert.frame_Kernel := fun m ρ _ => Cert.Kernel.Gen.frame m ρ

/-- The idealized kernel program terminates, nothing faulting, its arguments unchanged. -/
theorem frame_ki : Cert.frame_KernelIdeal := fun m ρ _ => Cert.KernelIdeal.Gen.frame m ρ

/-- The reference terminates, nothing faulting, its arguments unchanged: its run with the result dropped. -/
theorem frame_ri : Cert.frame_ReferenceIdeal := fun m ρ _ =>
  (θ_run Cert.ReferenceIdeal.defs _ _).mono (fun _ h c => (h c).2) (Cert.RefRun.run m ρ)

/-- The idealization rewrote no operation. -/
theorem preserves : Cert.preserves_Kernel_KernelIdeal := trivial

/-- From memories agreeing on the arguments both programs end with the same result array: the reference's last stage
    of the arguments. -/
theorem algebraic : Cert.algebraic_KernelIdeal_ReferenceIdeal := by
  intro m ρ m' ρ' _ hagree
  refine ⟨fun c => Cert.ReferenceIdeal.ReadP.val_main_v156 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KValue.result_val m ρ c), (h c).2⟩) (Cert.KRun.run_main (F := Ideal) m ρ)
  · refine (θ_run Cert.ReferenceIdeal.defs _ _).mono (fun r h c => ⟨(h c).1.trans ?_, (h c).2⟩) (Cert.RefRun.run m' ρ')
    obtain ⟨h0, h1, h2, h3, h4, h5, h6, h7, h8, h9, h10, h11, h12, h13⟩ := hagree c
    rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
